-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x30 : Shape := ⟨2, ![32768, 30]⟩
abbrev S32768x15 : Shape := ⟨2, ![32768, 15]⟩
abbrev S5x32768x9 : Shape := ⟨3, ![5, 32768, 9]⟩
abbrev S512x44 : Shape := ⟨2, ![512, 44]⟩
abbrev S512 : Shape := ⟨1, ![512]⟩
abbrev S512x512 : Shape := ⟨2, ![512, 512]⟩
abbrev S9x512 : Shape := ⟨2, ![9, 512]⟩
abbrev S9 : Shape := ⟨1, ![9]⟩
abbrev S512x41 : Shape := ⟨2, ![512, 41]⟩
abbrev S12x512 : Shape := ⟨2, ![12, 512]⟩
abbrev S12 : Shape := ⟨1, ![12]⟩
abbrev S_ : Shape := ⟨0, ![]⟩

class Facts : Prop where
  bcast_S_S32768x30 : S_.BroadcastsInDim S32768x30 (![] : Fin 0 → Fin S32768x30.rank)
  reducesTo_S32768x30_S_d0_1 : S32768x30.ReducesTo [0, 1] S_
  h_S_ : 0 < S_.numel
  bcast_S_S32768x15 : S_.BroadcastsInDim S32768x15 (![] : Fin 0 → Fin S32768x15.rank)
  reducesTo_S32768x15_S_d0_1 : S32768x15.ReducesTo [0, 1] S_
  bcast_S_S5x32768x9 : S_.BroadcastsInDim S5x32768x9 (![] : Fin 0 → Fin S5x32768x9.rank)
  reducesTo_S5x32768x9_S_d0_1_2 : S5x32768x9.ReducesTo [0, 1, 2] S_
  bcast_S_S512x44 : S_.BroadcastsInDim S512x44 (![] : Fin 0 → Fin S512x44.rank)
  reducesTo_S512x44_S_d0_1 : S512x44.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S9x512 : S_.BroadcastsInDim S9x512 (![] : Fin 0 → Fin S9x512.rank)
  reducesTo_S9x512_S_d0_1 : S9x512.ReducesTo [0, 1] S_
  bcast_S_S9 : S_.BroadcastsInDim S9 (![] : Fin 0 → Fin S9.rank)
  reducesTo_S9_S_d0 : S9.ReducesTo [0] S_
  bcast_S_S512x41 : S_.BroadcastsInDim S512x41 (![] : Fin 0 → Fin S512x41.rank)
  reducesTo_S512x41_S_d0_1 : S512x41.ReducesTo [0, 1] S_
  bcast_S_S12x512 : S_.BroadcastsInDim S12x512 (![] : Fin 0 → Fin S12x512.rank)
  reducesTo_S12x512_S_d0_1 : S12x512.ReducesTo [0, 1] S_
  bcast_S_S12 : S_.BroadcastsInDim S12 (![] : Fin 0 → Fin S12.rank)
  reducesTo_S12_S_d0 : S12.ReducesTo [0] S_

variable [Facts]

def fn_part5 {F : FTy → Type} [FloatOps F] (main_v83 : IVec S_ 1) (main_v84 : FVec F S12 .f32) (main_cst_32 : FVec F S_ .f32) : IVec S_ 1 :=
  let main_v85 : FVec F S12 .f32 := broadcastInDim S12 ![] bcast_S_S12 main_cst_32
  let main_v86 : IVec S12 1 := cmpf .olt main_v84 main_v85
  let main_c_33 : IVec S_ 1 := constantI S_ 1 1#1
  let main_v87 : IVec S_ 1 := (fun x v => Host.reduce IntOp.andi x v reducesTo_S12_S_d0 h_S_) main_v86 main_c_33
  let main_v88 : IVec S_ 1 := andi main_v83 main_v87
  main_v88

def fn_part4 {F : FTy → Type} [FloatOps F] (main_arg14 : FVec F S512x512 .f32) (main_arg15 : FVec F S512 .f32) (main_arg16 : FVec F S12x512 .f32) (main_arg17 : FVec F S12 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S12x512 .f32 := Host.absf main_arg16
  let main_cst_30 : FVec F S_ .f32 := constant S_ .f32 0x7F800000#32
  let main_v80 : FVec F S12x512 .f32 := broadcastInDim S12x512 ![] bcast_S_S12x512 main_cst_30
  let main_v81 : IVec S12x512 1 := cmpf .olt main_v79 main_v80
  let main_c_31 : IVec S_ 1 := constantI S_ 1 1#1
  let main_v82 : IVec S_ 1 := (fun x v => Host.reduce IntOp.andi x v reducesTo_S12x512_S_d0_1 h_S_) main_v81 main_c_31
  let main_v83 : IVec S_ 1 := andi main_v78 main_v82
  let main_v84 : FVec F S12 .f32 := Host.absf main_arg17
  let main_cst_32 : FVec F S_ .f32 := constant S_ .f32 0x7F800000#32
  fn_part5 (F := F) main_v83 main_v84 main_cst_32

def fn_part3 {F : FTy → Type} [FloatOps F] (main_arg11 : FVec F S9 .f32) (main_arg12 : FVec F S512x41 .f32) (main_arg13 : FVec F S512 .f32) (main_arg14 : FVec F S512x512 .f32) (main_arg15 : FVec F S512 .f32) (main_arg16 : FVec F S12x512 .f32) (main_arg17 : FVec F S12 .f32) (main_v48 : IVec S_ 1) (main_v49 : FVec F S9x512 .f32) (main_v50 : FVec F S9x512 .f32) : IVec S_ 1 :=
  let main_v51 : IVec S9x512 1 := cmpf .olt main_v49 main_v50
  let main_c_19 : IVec S_ 1 := constantI S_ 1 1#1
  let main_v52 : IVec S_ 1 := (fun x v => Host.reduce IntOp.andi x v reducesTo_S9x512_S_d0_1 h_S_) main_v51 main_c_19
  let main_v53 : IVec S_ 1 := andi main_v48 main_v52
  let main_v54 : FVec F S9 .f32 := Host.absf main_arg11
  let main_cst_20 : FVec F S_ .f32 := constant S_ .f32 0x7F800000#32
  let main_v55 : FVec F S9 .f32 := broadcastInDim S9 ![] bcast_S_S9 main_cst_20
  let main_v56 : IVec S9 1 := cmpf .olt main_v54 main_v55
  let main_c_21 : IVec S_ 1 := constantI S_ 1 1#1
  let main_v57 : IVec S_ 1 := (fun x v => Host.reduce IntOp.andi x v reducesTo_S9_S_d0 h_S_) main_v56 main_c_21
  let main_v58 : IVec S_ 1 := andi main_v53 main_v57
  let main_v59 : FVec F S512x41 .f32 := Host.absf main_arg12
  let main_cst_22 : FVec F S_ .f32 := constant S_ .f32 0x7F800000#32
  let main_v60 : FVec F S512x41 .f32 := broadcastInDim S512x41 ![] bcast_S_S512x41 main_cst_22
  let main_v61 : IVec S512x41 1 := cmpf .olt main_v59 main_v60
  let main_c_23 : IVec S_ 1 := constantI S_ 1 1#1
  let main_v62 : IVec S_ 1 := (fun x v => Host.reduce IntOp.andi x v reducesTo_S512x41_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S512 .f32) (main_arg8 : FVec F S9x512 .f32) (main_arg9 : FVec F S9 .f32) (main_arg10 : FVec F S9x512 .f32) (main_arg11 : FVec F S9 .f32) (main_arg12 : FVec F S512x41 .f32) (main_arg13 : FVec F S512 .f32) (main_arg14 : FVec F S512x512 .f32) (main_arg15 : FVec F S512 .f32) (main_arg16 : FVec F S12x512 .f32) (main_arg17 : FVec F S12 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S9x512 .f32 := Host.absf main_arg8
  let main_cst_14 : FVec F S_ .f32 := constant S_ .f32 0x7F800000#32
  let main_v40 : FVec F S9x512 .f32 := broadcastInDim S9x512 ![] bcast_S_S9x512 main_cst_14
  let main_v41 : IVec S9x512 1 := cmpf .olt main_v39 main_v40
  let main_c_15 : IVec S_ 1 := constantI S_ 1 1#1
  let main_v42 : IVec S_ 1 := (fun x v => Host.reduce IntOp.andi x v reducesTo_S9x512_S_d0_1 h_S_) main_v41 main_c_15
  let main_v43 : IVec S_ 1 := andi main_v38 main_v42
  let main_v44 : FVec F S9 .f32 := Host.absf main_arg9
  let main_cst_16 : FVec F S_ .f32 := constant S_ .f32 0x7F800000#32
  let main_v45 : FVec F S9 .f32 := broadcastInDim S9 ![] bcast_S_S9 main_cst_16
  let main_v46 : IVec S9 1 := cmpf .olt main_v44 main_v45
  let main_c_17 : IVec S_ 1 := constantI S_ 1 1#1
  let main_v47 : IVec S_ 1 := (fun x v => Host.reduce IntOp.andi x v reducesTo_S9_S_d0 h_S_) main_v46 main_c_17
  let main_v48 : IVec S_ 1 := andi main_v43 main_v47
  let main_v49 : FVec F S9x512 .f32 := Host.absf main_arg10
  let main_cst_18 : FVec F S_ .f32 := constant S_ .f32 0x7F800000#32
  let main_v50 : FVec F S9x512 .f32 := broadcastInDim S9x512 ![] bcast_S_S9x512 main_cst_18
  fn_part3 (F := F) main_arg11 main_arg12 main_arg13 main_arg14 main_arg15 main_arg16 main_arg17 main_v48 main_v49 main_v50

def fn_part1 {F : FTy → Type} [FloatOps F] (main_arg4 : FVec F S512x44 .f32) (main_arg5 : FVec F S512 .f32) (main_arg6 : FVec F S512x512 .f32) (main_arg7 : FVec F S512 .f32) (main_arg8 : FVec F S9x512 .f32) (main_arg9 : FVec F S9 .f32) (main_arg10 : FVec F S9x512 .f32) (main_arg11 : FVec F S9 .f32) (main_arg12 : FVec F S512x41 .f32) (main_arg13 : FVec F S512 .f32) (main_arg14 : FVec F S512x512 .f32) (main_arg15 : FVec F S512 .f32) (main_arg16 : FVec F S12x512 .f32) (main_arg17 : FVec F S12 .f32) (main_v13 : IVec S_ 1) (main_v16 : IVec S5x32768x9 1) : IVec S_ 1 :=
  let main_c_5 : IVec S_ 1 := constantI S_ 1 1#1
  let main_v17 : IVec S_ 1 := (fun x v => Host.reduce IntOp.andi x v reducesTo_S5x32768x9_S_d0_1_2 h_S_) main_v16 main_c_5
  let main_v18 : IVec S_ 1 := andi main_v13 main_v17
  let main_v19 : FVec F S512x44 .f32 := Host.absf main_arg4
  let main_cst_6 : FVec F S_ .f32 := constant S_ .f32 0x7F800000#32
  let main_v20 : FVec F S512x44 .f32 := broadcastInDim S512x44 ![] bcast_S_S512x44 main_cst_6
  let main_v21 : IVec S512x44 1 := cmpf .olt main_v19 main_v20
  let main_c_7 : IVec S_ 1 := constantI S_ 1 1#1
  let main_v22 : IVec S_ 1 := (fun x v => Host.reduce IntOp.andi x v reducesTo_S512x44_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x30 .f32) (main_arg1 : FVec F S32768x15 .f32) (main_arg2 : FVec F S32768x30 .f32) (main_arg3 : FVec F S5x32768x9 .f32) (main_arg4 : FVec F S512x44 .f32) (main_arg5 : FVec F S512 .f32) (main_arg6 : FVec F S512x512 .f32) (main_arg7 : FVec F S512 .f32) (main_arg8 : FVec F S9x512 .f32) (main_arg9 : FVec F S9 .f32) (main_arg10 : FVec F S9x512 .f32) (main_arg11 : FVec F S9 .f32) (main_arg12 : FVec F S512x41 .f32) (main_arg13 : FVec F S512 .f32) (main_arg14 : FVec F S512x512 .f32) (main_arg15 : FVec F S512 .f32) (main_arg16 : FVec F S12x512 .f32) (main_arg17 : FVec F S12 .f32) : IVec S_ 1 :=
  let main_v0 : FVec F S32768x30 .f32 := Host.absf main_arg0
  let main_cst : FVec F S_ .f32 := constant S_ .f32 0x7F800000#32
  let main_v1 : FVec F S32768x30 .f32 := broadcastInDim S32768x30 ![] bcast_S_S32768x30 main_cst
  let main_v2 : IVec S32768x30 1 := cmpf .olt main_v0 main_v1
  let main_c : IVec S_ 1 := constantI S_ 1 1#1
  let main_v3 : IVec S_ 1 := (fun x v => Host.reduce IntOp.andi x v reducesTo_S32768x30_S_d0_1 h_S_) main_v2 main_c
  let main_v4 : FVec F S32768x15 .f32 := Host.absf main_arg1
  let main_cst_0 : FVec F S_ .f32 := constant S_ .f32 0x7F800000#32
  let main_v5 : FVec F S32768x15 .f32 := broadcastInDim S32768x15 ![] bcast_S_S32768x15 main_cst_0
  let main_v6 : IVec S32768x15 1 := cmpf .olt main_v4 main_v5
  let main_c_1 : IVec S_ 1 := constantI S_ 1 1#1
  let main_v7 : IVec S_ 1 := (fun x v => Host.reduce IntOp.andi x v reducesTo_S32768x15_S_d0_1 h_S_) main_v6 main_c_1
  let main_v8 : IVec S_ 1 := andi main_v3 main_v7
  let main_v9 : FVec F S32768x30 .f32 := Host.absf main_arg2
  let main_cst_2 : FVec F S_ .f32 := constant S_ .f32 0x7F800000#32
  let main_v10 : FVec F S32768x30 .f32 := broadcastInDim S32768x30 ![] bcast_S_S32768x30 main_cst_2
  let main_v11 : IVec S32768x30 1 := cmpf .olt main_v9 main_v10
  let main_c_3 : IVec S_ 1 := constantI S_ 1 1#1
  let main_v12 : IVec S_ 1 := (fun x v => Host.reduce IntOp.andi x v reducesTo_S32768x30_S_d0_1 h_S_) main_v11 main_c_3
  let main_v13 : IVec S_ 1 := andi main_v8 main_v12
  let main_v14 : FVec F S5x32768x9 .f32 := Host.absf main_arg3
  let main_cst_4 : FVec F S_ .f32 := constant S_ .f32 0x7F800000#32
  let main_v15 : FVec F S5x32768x9 .f32 := broadcastInDim S5x32768x9 ![] bcast_S_S5x32768x9 main_cst_4
  let main_v16 : IVec S5x32768x9 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x30 : Shape := ⟨2, ![32768, 30]⟩
abbrev S32768x15 : Shape := ⟨2, ![32768, 15]⟩
abbrev S5x32768x9 : Shape := ⟨3, ![5, 32768, 9]⟩
abbrev S512x44 : Shape := ⟨2, ![512, 44]⟩
abbrev S512 : Shape := ⟨1, ![512]⟩
abbrev S512x512 : Shape := ⟨2, ![512, 512]⟩
abbrev S9x512 : Shape := ⟨2, ![9, 512]⟩
abbrev S9 : Shape := ⟨1, ![9]⟩
abbrev S512x41 : Shape := ⟨2, ![512, 41]⟩
abbrev S12x512 : Shape := ⟨2, ![12, 512]⟩
abbrev S12 : Shape := ⟨1, ![12]⟩
abbrev S5x12 : Shape := ⟨2, ![5, 12]⟩
abbrev S5x5 : Shape := ⟨2, ![5, 5]⟩
abbrev S_ : Shape := ⟨0, ![]⟩
abbrev S5x1x5 : Shape := ⟨3, ![5, 1, 5]⟩
abbrev S5x32768x5 : Shape := ⟨3, ![5, 32768, 5]⟩
abbrev S1x32768x15 : Shape := ⟨3, ![1, 32768, 15]⟩
abbrev S5x32768x15 : Shape := ⟨3, ![5, 32768, 15]⟩
abbrev S5x12x1 : Shape := ⟨3, ![5, 12, 1]⟩
abbrev S32768x5x12 : Shape := ⟨3, ![32768, 5, 12]⟩
abbrev S5x32768x12 : Shape := ⟨3, ![5, 32768, 12]⟩
abbrev S5x32768x44 : Shape := ⟨3, ![5, 32768, 44]⟩
abbrev S163840x44 : Shape := ⟨2, ![163840, 44]⟩
abbrev S163840x9 : Shape := ⟨2, ![163840, 9]⟩
abbrev S44x512 : Shape := ⟨2, ![44, 512]⟩
abbrev S512x9 : Shape := ⟨2, ![512, 9]⟩
abbrev S41x512 : Shape := ⟨2, ![41, 512]⟩
abbrev S512x12 : Shape := ⟨2, ![512, 12]⟩
abbrev S1x512 : Shape := ⟨2, ![1, 512]⟩
abbrev S1x9 : Shape := ⟨2, ![1, 9]⟩
abbrev S1x12 : Shape := ⟨2, ![1, 12]⟩
abbrev S163840x12 : Shape := ⟨2, ![163840, 12]⟩
abbrev S2048x44 : Shape := ⟨2, ![2048, 44]⟩
abbrev S2048x9 : Shape := ⟨2, ![2048, 9]⟩
abbrev S2048x12 : Shape := ⟨2, ![2048, 12]⟩
abbrev S2048x512 : Shape := ⟨2, ![2048, 512]⟩
abbrev S2048x5 : Shape := ⟨2, ![2048, 5]⟩
abbrev S2048x15 : Shape := ⟨2, ![2048, 15]⟩
abbrev S2048x41 : Shape := ⟨2, ![2048, 41]⟩

abbrev nBuf : Space → Nat
  | .hbm => 94
  | .vmem => 26
  | .smem => 0
  | _ => 0

abbrev bufTy : (tb : Table) → Fin (tcTables nBuf tb) → BufTy
  | .hbm, ⟨0, _⟩ => ⟨S32768x30, .f32⟩
  | .hbm, ⟨1, _⟩ => ⟨S32768x15, .f32⟩
  | .hbm, ⟨2, _⟩ => ⟨S32768x30, .f32⟩
  | .hbm, ⟨3, _⟩ => ⟨S5x32768x9, .f32⟩
  | .hbm, ⟨4, _⟩ => ⟨S512x44, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S9x512, .f32⟩
  | .hbm, ⟨9, _⟩ => ⟨S9, .f32⟩
  | .hbm, ⟨10, _⟩ => ⟨S9x512, .f32⟩
  | .hbm, ⟨11, _⟩ => ⟨S9, .f32⟩
  | .hbm, ⟨12, _⟩ => ⟨S512x41, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S12x512, .f32⟩
  | .hbm, ⟨17, _⟩ => ⟨S12, .f32⟩
  | .hbm, ⟨18, _⟩ => ⟨S5x12, .i32⟩
  | .hbm, ⟨19, _⟩ => ⟨S5x5, .i32⟩
  | .hbm, ⟨20, _⟩ => ⟨S5x5, .i32⟩
  | .hbm, ⟨21, _⟩ => ⟨S_, .i32⟩
  | .hbm, ⟨22, _⟩ => ⟨S5x5, .i32⟩
  | .hbm, ⟨23, _⟩ => ⟨S5x5, .i32⟩
  | .hbm, ⟨24, _⟩ => ⟨S5x5, .i1⟩
  | .hbm, ⟨25, _⟩ => ⟨S5x5, .f32⟩
  | .hbm, ⟨26, _⟩ => ⟨S5x1x5, .f32⟩
  | .hbm, ⟨27, _⟩ => ⟨S5x32768x5, .f32⟩
  | .hbm, ⟨28, _⟩ => ⟨S1x32768x15, .f32⟩
  | .hbm, ⟨29, _⟩ => ⟨S5x32768x15, .f32⟩
  | .hbm, ⟨30, _⟩ => ⟨S_, .i32⟩
  | .hbm, ⟨31, _⟩ => ⟨S5x12, .i32⟩
  | .hbm, ⟨32, _⟩ => ⟨S5x12, .i1⟩
  | .hbm, ⟨33, _⟩ => ⟨S_, .i32⟩
  | .hbm, ⟨34, _⟩ => ⟨S5x12, .i32⟩
  | .hbm, ⟨35, _⟩ => ⟨S5x12, .i32⟩
  | .hbm, ⟨36, _⟩ => ⟨S5x12, .i32⟩
  | .hbm, ⟨37, _⟩ => ⟨S5x12x1, .i32⟩
  | .hbm, ⟨38, _⟩ => ⟨S32768x5x12, .f32⟩
  | .hbm, ⟨39, _⟩ => ⟨S5x32768x12, .f32⟩
  | .hbm, ⟨40, _⟩ => ⟨S_, .i32⟩
  | .hbm, ⟨41, _⟩ => ⟨S5x12, .i32⟩
  | .hbm, ⟨42, _⟩ => ⟨S5x12, .i1⟩
  | .hbm, ⟨43, _⟩ => ⟨S_, .i32⟩
  | .hbm, ⟨44, _⟩ => ⟨S5x12, .i32⟩
  | .hbm, ⟨45, _⟩ => ⟨S5x12, .i32⟩
  | .hbm, ⟨46, _⟩ => ⟨S5x12, .i32⟩
  | .hbm, ⟨47, _⟩ => ⟨S5x12x1, .i32⟩
  | .hbm, ⟨48, _⟩ => ⟨S32768x5x12, .f32⟩
  | .hbm, ⟨49, _⟩ => ⟨S5x32768x12, .f32⟩
  | .hbm, ⟨50, _⟩ => ⟨S5x32768x44, .f32⟩
  | .hbm, ⟨51, _⟩ => ⟨S163840x44, .f32⟩
  | .hbm, ⟨52, _⟩ => ⟨S163840x9, .f32⟩
  | .hbm, ⟨53, _⟩ => ⟨S44x512, .f32⟩
  | .hbm, ⟨54, _⟩ => ⟨S44x512, .bf16⟩
  | .hbm, ⟨55, _⟩ => ⟨S512x512, .f32⟩
  | .hbm, ⟨56, _⟩ => ⟨S512x512, .bf16⟩
  | .hbm, ⟨57, _⟩ => ⟨S512x9, .f32⟩
  | .hbm, ⟨58, _⟩ => ⟨S512x9, .bf16⟩
  | .hbm, ⟨59, _⟩ => ⟨S512x9, .f32⟩
  | .hbm, ⟨60, _⟩ => ⟨S512x9, .bf16⟩
  | .hbm, ⟨61, _⟩ => ⟨S41x512, .f32⟩
  | .hbm, ⟨62, _⟩ => ⟨S41x512, .bf16⟩
  | .hbm, ⟨63, _⟩ => ⟨S512x512, .f32⟩
  | .hbm, ⟨64, _⟩ => ⟨S512x512, .bf16⟩
  | .hbm, ⟨65, _⟩ => ⟨S512x12, .f32⟩
  | .hbm, ⟨66, _⟩ => ⟨S512x12, .bf16⟩
  | .hbm, ⟨67, _⟩ => ⟨S1x512, .f32⟩
  | .hbm, ⟨68, _⟩ => ⟨S1x512, .f32⟩
  | .hbm, ⟨69, _⟩ => ⟨S1x9, .f32⟩
  | .hbm, ⟨70, _⟩ => ⟨S1x9, .f32⟩
  | .hbm, ⟨71, _⟩ => ⟨S1x512, .f32⟩
  | .hbm, ⟨72, _⟩ => ⟨S1x512, .f32⟩
  | .hbm, ⟨73, _⟩ => ⟨S1x12, .f32⟩
  | .hbm, ⟨74, _⟩ => ⟨S163840x9, .f32⟩
  | .hbm, ⟨75, _⟩ => ⟨S163840x9, .f32⟩
  | .hbm, ⟨76, _⟩ => ⟨S163840x9, .f32⟩
  | .hbm, ⟨77, _⟩ => ⟨S163840x12, .f32⟩
  | .hbm, ⟨78, _⟩ => ⟨S5x32768x9, .f32⟩
  | .hbm, ⟨79, _⟩ => ⟨S5x32768x9, .f32⟩
  | .hbm, ⟨80, _⟩ => ⟨S5x32768x9, .f32⟩
  | .hbm, ⟨81, _⟩ => ⟨S5x32768x12, .f32⟩
  | .hbm, ⟨82, _⟩ => ⟨S_, .f32⟩
  | .hbm, ⟨83, _⟩ => ⟨S32768x30, .f32⟩
  | .hbm, ⟨84, _⟩ => ⟨S32768x5x12, .f32⟩
  | .hbm, ⟨85, _⟩ => ⟨S_, .i32⟩
  | .hbm, ⟨86, _⟩ => ⟨S5x12, .i32⟩
  | .hbm, ⟨87, _⟩ => ⟨S5x12, .i1⟩
  | .hbm, ⟨88, _⟩ => ⟨S_, .i32⟩
  | .hbm, ⟨89, _⟩ => ⟨S5x12, .i32⟩
  | .hbm, ⟨90, _⟩ => ⟨S5x12, .i32⟩
  | .hbm, ⟨91, _⟩ => ⟨S5x12, .i32⟩
  | .hbm, ⟨92, _⟩ => ⟨S5x12x1, .i32⟩
  | .hbm, ⟨93, _⟩ => ⟨S32768x30, .f32⟩
  | .local _ .vmem, ⟨0, _⟩ => ⟨S2048x44, .f32⟩
  | .local _ .vmem, ⟨1, _⟩ => ⟨S2048x44, .f32⟩
  | .local _ .vmem, ⟨2, _⟩ => ⟨S2048x9, .f32⟩
  | .local _ .vmem, ⟨3, _⟩ => ⟨S2048x9, .f32⟩
  | .local _ .vmem, ⟨4, _⟩ => ⟨S44x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x9, .bf16⟩
  | .local _ .vmem, ⟨9, _⟩ => ⟨S1x9, .f32⟩
  | .local _ .vmem, ⟨10, _⟩ => ⟨S512x9, .bf16⟩
  | .local _ .vmem, ⟨11, _⟩ => ⟨S1x9, .f32⟩
  | .local _ .vmem, ⟨12, _⟩ => ⟨S41x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x12, .bf16⟩
  | .local _ .vmem, ⟨17, _⟩ => ⟨S1x12, .f32⟩
  | .local _ .vmem, ⟨18, _⟩ => ⟨S2048x9, .f32⟩
  | .local _ .vmem, ⟨19, _⟩ => ⟨S2048x9, .f32⟩
  | .local _ .vmem, ⟨20, _⟩ => ⟨S2048x9, .f32⟩
  | .local _ .vmem, ⟨21, _⟩ => ⟨S2048x9, .f32⟩
  | .local _ .vmem, ⟨22, _⟩ => ⟨S2048x9, .f32⟩
  | .local _ .vmem, ⟨23, _⟩ => ⟨S2048x9, .f32⟩
  | .local _ .vmem, ⟨24, _⟩ => ⟨S2048x12, .f32⟩
  | .local _ .vmem, ⟨25, _⟩ => ⟨S2048x12, .f32⟩
  | _, _ => ⟨S32768x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst : Ref sig .tc := ⟨.hbm, 82, rfl⟩
abbrev main_v55 : Ref sig .tc := ⟨.hbm, 83, rfl⟩
abbrev main_v56 : Ref sig .tc := ⟨.hbm, 84, rfl⟩
abbrev main_c_5 : Ref sig .tc := ⟨.hbm, 85, rfl⟩
abbrev main_v57 : Ref sig .tc := ⟨.hbm, 86, rfl⟩
abbrev main_v58 : Ref sig .tc := ⟨.hbm, 87, rfl⟩
abbrev main_c_6 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x44 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S44x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x9 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x9 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S41x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x12 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x12 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x9 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x9 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x9 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x12 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S5x5 : S_.BroadcastsInDim S5x5 (![] : Fin 0 → Fin S5x5.rank)
  bcast_S5x5_S5x1x5_0_2 : S5x5.BroadcastsInDim S5x1x5 (![0, 2] : Fin 2 → Fin S5x1x5.rank)
  bcast_S5x1x5_S5x32768x5_0_1_2 : S5x1x5.BroadcastsInDim S5x32768x5 (![0, 1, 2] : Fin 3 → Fin S5x32768x5.rank)
  bcast_S32768x15_S1x32768x15_1_2 : S32768x15.BroadcastsInDim S1x32768x15 (![1, 2] : Fin 2 → Fin S1x32768x15.rank)
  bcast_S1x32768x15_S5x32768x15_0_1_2 : S1x32768x15.BroadcastsInDim S5x32768x15 (![0, 1, 2] : Fin 3 → Fin S5x32768x15.rank)
  bcast_S_S5x12 : S_.BroadcastsInDim S5x12 (![] : Fin 0 → Fin S5x12.rank)
  bcast_S5x12_S5x12x1_0_1 : S5x12.BroadcastsInDim S5x12x1 (![0, 1] : Fin 2 → Fin S5x12x1.rank)
  transposes_S32768x5x12_S5x32768x12_1_0_2 : S32768x5x12.Transposes [1, 0, 2] S5x32768x12
  concatenates_S5x32768x5_S5x32768x15_S5x32768x12_S5x32768x12_S5x32768x44_d2 : Shape.Concatenates [S5x32768x5, S5x32768x15, S5x32768x12, S5x32768x12] S5x32768x44 2
  shapeCasts_S5x32768x44_S163840x44 : S5x32768x44.ShapeCasts S163840x44
  shapeCasts_S5x32768x9_S163840x9 : S5x32768x9.ShapeCasts S163840x9
  transposes_S512x44_S44x512_1_0 : S512x44.Transposes [1, 0] S44x512
  bitsLt_bf16_f32 : FTy.bits .bf16 < FTy.bits .f32
  transposes_S512x512_S512x512_1_0 : S512x512.Transposes [1, 0] S512x512
  transposes_S9x512_S512x9_1_0 : S9x512.Transposes [1, 0] S512x9
  transposes_S512x41_S41x512_1_0 : S512x41.Transposes [1, 0] S41x512
  transposes_S12x512_S512x12_1_0 : S12x512.Transposes [1, 0] S512x12
  shapeCasts_S512_S1x512 : S512.ShapeCasts S1x512
  shapeCasts_S9_S1x9 : S9.ShapeCasts S1x9
  shapeCasts_S12_S1x12 : S12.ShapeCasts S1x12
  inb_S2048x44_S2048x44_0_0 : ∀ a, (![0, 0] : Fin 2 → Nat) a + S2048x44.size a ≤ S2048x44.size a
  h_S2048x44 : 0 < S2048x44.numel
  shapeCasts_S2048x44_S2048x44 : S2048x44.ShapeCasts S2048x44
  inb_S44x512_S44x512_0_0 : ∀ a, (![0, 0] : Fin 2 → Nat) a + S44x512.size a ≤ S44x512.size a
  h_S44x512 : 0 < S44x512.numel
  shapeCasts_S44x512_S44x512 : S44x512.ShapeCasts S44x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x9_S512x9_0_0 : ∀ a, (![0, 0] : Fin 2 → Nat) a + S512x9.size a ≤ S512x9.size a
  h_S512x9 : 0 < S512x9.numel
  shapeCasts_S512x9_S512x9 : S512x9.ShapeCasts S512x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S2048x9 : S1x9.Broadcasts S2048x9
  inb_S2048x9_S2048x9_0_0 : ∀ a, (![0, 0] : Fin 2 → Nat) a + S2048x9.size a ≤ S2048x9.size a
  h_S2048x9 : 0 < S2048x9.numel
  shapeCasts_S2048x9_S2048x9 : S2048x9.ShapeCasts S2048x9
  slices_S2048x44_o0_0_S2048x5 : S2048x44.Slices ![0, 0] S2048x5
  slices_S2048x44_o0_5_S2048x15 : S2048x44.Slices ![0, 5] S2048x15
  slices_S2048x44_o0_20_S2048x12 : S2048x44.Slices ![0, 20] S2048x12
  concatenates_S2048x5_S2048x9_S2048x15_S2048x12_S2048x41_d1 : Shape.Concatenates [S2048x5, S2048x9, S2048x15, S2048x12] S2048x41 1
  inb_S41x512_S41x512_0_0 : ∀ a, (![0, 0] : Fin 2 → Nat) a + S41x512.size a ≤ S41x512.size a
  h_S41x512 : 0 < S41x512.numel
  shapeCasts_S41x512_S41x512 : S41x512.ShapeCasts S41x512
  inb_S512x12_S512x12_0_0 : ∀ a, (![0, 0] : Fin 2 → Nat) a + S512x12.size a ≤ S512x12.size a
  h_S512x12 : 0 < S512x12.numel
  shapeCasts_S512x12_S512x12 : S512x12.ShapeCasts S512x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2048x12 : S1x12.Broadcasts S2048x12
  inb_S2048x12_S2048x12_0_0 : ∀ a, (![0, 0] : Fin 2 → Nat) a + S2048x12.size a ≤ S2048x12.size a
  h_S2048x12 : 0 < S2048x12.numel
  shapeCasts_S163840x9_S5x32768x9 : S163840x9.ShapeCasts S5x32768x9
  shapeCasts_S163840x12_S5x32768x12 : S163840x12.ShapeCasts S5x32768x12
  bcast_S_S32768x30 : S_.BroadcastsInDim S32768x30 (![] : Fin 0 → Fin S32768x30.rank)
  transposes_S5x32768x12_S32768x5x12_1_0_2 : S5x32768x12.Transposes [1, 0, 2] S32768x5x12
  gather_S32768x30_S5x12x1_S32768x5x12_0_1_n_n_1_2_327681_wf : GatherDims.WF S32768x30 S5x12x1 S32768x5x12 [0] [1] [] [1] [] 2 ![32768, 1]
  dot_S2048x44_S44x512_S2048x512_1_0_0_1_n_n_wf : DotDims.WF S2048x44 S44x512 S2048x512 [1] [0] [0] [1] [] []
  dot_S2048x512_S512x512_S2048x512_1_0_0_1_n_n_wf : DotDims.WF S2048x512 S512x512 S2048x512 [1] [0] [0] [1] [] []
  dot_S2048x512_S512x9_S2048x9_1_0_0_1_n_n_wf : DotDims.WF S2048x512 S512x9 S2048x9 [1] [0] [0] [1] [] []
  dot_S2048x41_S41x512_S2048x512_1_0_0_1_n_n_wf : DotDims.WF S2048x41 S41x512 S2048x512 [1] [0] [0] [1] [] []
  dot_S2048x512_S512x12_S2048x12_1_0_0_1_n_n_wf : DotDims.WF S2048x512 S512x12 S2048x12 [1] [0] [0] [1] [] []
  scatter_S32768x30_S5x12x1_S32768x5x12_0_1_1_2_wf : ScatterDims.WF S32768x30 S5x12x1 S32768x5x12 [0] [1] [1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x44.size a ≤ S163840x44.size a
  hwx0_0 : ∀ i : grid0.Coords, EltTy.bits .f32 = 32 ∨ (Rect.block (s := S163840x44) S2048x44.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S163840x9.size a
  hwx0_1 : ∀ i : grid0.Coords, EltTy.bits .f32 = 32 ∨ (Rect.block (s := S163840x9) S2048x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S44x512.size a ≤ S44x512.size a
  hwx0_2 : ∀ i : grid0.Coords, EltTy.bits .bf16 = 32 ∨ (Rect.block (s := S44x512) S44x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x9.size a ≤ S512x9.size a
  hwx0_6 : ∀ i : grid0.Coords, EltTy.bits .bf16 = 32 ∨ (Rect.block (s := S512x9) S512x9.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x9.size a ≤ S1x9.size a
  hwx0_7 : ∀ i : grid0.Coords, EltTy.bits .f32 = 32 ∨ (Rect.block (s := S1x9) S1x9.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x9.size a ≤ S512x9.size a
  hwx0_8 : ∀ i : grid0.Coords, EltTy.bits .bf16 = 32 ∨ (Rect.block (s := S512x9) S512x9.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x9.size a ≤ S1x9.size a
  hwx0_9 : ∀ i : grid0.Coords, EltTy.bits .f32 = 32 ∨ (Rect.block (s := S1x9) S1x9.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S41x512.size a ≤ S41x512.size a
  hwx0_10 : ∀ i : grid0.Coords, EltTy.bits .bf16 = 32 ∨ (Rect.block (s := S41x512) S41x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x12.size a ≤ S512x12.size a
  hwx0_14 : ∀ i : grid0.Coords, EltTy.bits .bf16 = 32 ∨ (Rect.block (s := S512x12) S512x12.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x12.size a ≤ S1x12.size a
  hwx0_15 : ∀ i : grid0.Coords, EltTy.bits .f32 = 32 ∨ (Rect.block (s := S1x12) S1x12.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x9.size a ≤ S163840x9.size a
  hwx0_16 : ∀ i : grid0.Coords, EltTy.bits .f32 = 32 ∨ (Rect.block (s := S163840x9) S2048x9.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x9.size a ≤ S163840x9.size a
  hwx0_17 : ∀ i : grid0.Coords, EltTy.bits .f32 = 32 ∨ (Rect.block (s := S163840x9) S2048x9.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x9.size a ≤ S163840x9.size a
  hwx0_18 : ∀ i : grid0.Coords, EltTy.bits .f32 = 32 ∨ (Rect.block (s := S163840x9) S2048x9.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x12.size a ≤ S163840x12.size a
  hwx0_19 : ∀ i : grid0.Coords, EltTy.bits .f32 = 32 ∨ (Rect.block (s := S163840x12) S2048x12.size (cc0_transform_19 i) (hinb0_19 i)).WholeWords (EltTy.packing .f32)

variable [Facts₀]

def gather_S32768x30_S5x12x1_S32768x5x12_0_1_n_n_1_2_327681 : GatherDims S32768x30 S5x12x1 S32768x5x12 where
  offsetDims := [0]
  collapsedSliceDims := [1]
  operandBatchingDims := []
  startIndicesBatchingDims := []
  startIndexMap := [1]
  indexVectorDim := 2
  sliceSizes := ![32768, 1]
  wf := gather_S32768x30_S5x12x1_S32768x5x12_0_1_n_n_1_2_327681_wf
def dot_S2048x44_S44x512_S2048x512_1_0_0_1_n_n : DotDims S2048x44 S44x512 S2048x512 where
  lhsContracting := [1]
  rhsContracting := [0]
  lhsNonContracting := [0]
  rhsNonContracting := [1]
  lhsBatch := []
  rhsBatch := []
  wf := dot_S2048x44_S44x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x9_S2048x9_1_0_0_1_n_n : DotDims S2048x512 S512x9 S2048x9 where
  lhsContracting := [1]
  rhsContracting := [0]
  lhsNonContracting := [0]
  rhsNonContracting := [1]
  lhsBatch := []
  rhsBatch := []
  wf := dot_S2048x512_S512x9_S2048x9_1_0_0_1_n_n_wf
def dot_S2048x41_S41x512_S2048x512_1_0_0_1_n_n : DotDims S2048x41 S41x512 S2048x512 where
  lhsContracting := [1]
  rhsContracting := [0]
  lhsNonContracting := [0]
  rhsNonContracting := [1]
  lhsBatch := []
  rhsBatch := []
  wf := dot_S2048x41_S41x512_S2048x512_1_0_0_1_n_n_wf
def dot_S2048x512_S512x12_S2048x12_1_0_0_1_n_n : DotDims S2048x512 S512x12 S2048x12 where
  lhsContracting := [1]
  rhsContracting := [0]
  lhsNonContracting := [0]
  rhsNonContracting := [1]
  lhsBatch := []
  rhsBatch := []
  wf := dot_S2048x512_S512x12_S2048x12_1_0_0_1_n_n_wf
def scatter_S32768x30_S5x12x1_S32768x5x12_0_1_1_2 : ScatterDims S32768x30 S5x12x1 S32768x5x12 where
  updateWindowDims := [0]
  insertedWindowDims := [1]
  scatterDimsToOperandDims := [1]
  indexVectorDim := 2
  wf := scatter_S32768x30_S5x12x1_S32768x5x12_0_1_1_2_wf

abbrev win0_0 : Pipeline.Window sig grid0 :=
  Pipeline.Window.ofSpec (Memref.whole main_v27) S2048x44.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2048x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S44x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S512x9.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x9.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S512x9.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x9.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S41x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v48) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v42) S512x12.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v49) S1x12.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v50_0) S2048x9.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v50_1) S2048x9.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v50_2) S2048x9.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v50_3) S2048x12.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S32768x30 : Shape := ⟨2, ![32768, 30]⟩
abbrev S32768x15 : Shape := ⟨2, ![32768, 15]⟩
abbrev S5x32768x9 : Shape := ⟨3, ![5, 32768, 9]⟩
abbrev S512x44 : Shape := ⟨2, ![512, 44]⟩
abbrev S512 : Shape := ⟨1, ![512]⟩
abbrev S512x512 : Shape := ⟨2, ![512, 512]⟩
abbrev S9x512 : Shape := ⟨2, ![9, 512]⟩
abbrev S9 : Shape := ⟨1, ![9]⟩
abbrev S512x41 : Shape := ⟨2, ![512, 41]⟩
abbrev S12x512 : Shape := ⟨2, ![12, 512]⟩
abbrev S12 : Shape := ⟨1, ![12]⟩
abbrev S5x12 : Shape := ⟨2, ![5, 12]⟩
abbrev S5x5 : Shape := ⟨2, ![5, 5]⟩
abbrev S_ : Shape := ⟨0, ![]⟩
abbrev S5x1x5 : Shape := ⟨3, ![5, 1, 5]⟩
abbrev S5x32768x5 : Shape := ⟨3, ![5, 32768, 5]⟩
abbrev S1x32768x15 : Shape := ⟨3, ![1, 32768, 15]⟩
abbrev S5x32768x15 : Shape := ⟨3, ![5, 32768, 15]⟩
abbrev S5x12x1 : Shape := ⟨3, ![5, 12, 1]⟩
abbrev S32768x5x12 : Shape := ⟨3, ![32768, 5, 12]⟩
abbrev S5x32768x12 : Shape := ⟨3, ![5, 32768, 12]⟩
abbrev S5x32768x44 : Shape := ⟨3, ![5, 32768, 44]⟩
abbrev S5x32768x512 : Shape := ⟨3, ![5, 32768, 512]⟩
abbrev S1x1x512 : Shape := ⟨3, ![1, 1, 512]⟩
abbrev S1x1x9 : Shape := ⟨3, ![1, 1, 9]⟩
abbrev S5x32768x41 : Shape := ⟨3, ![5, 32768, 41]⟩
abbrev S1x1x12 : Shape := ⟨3, ![1, 1, 12]⟩

abbrev nBuf : Space → Nat
  | .hbm => 118
  | .vmem => 0
  | .smem => 0
  | _ => 0

abbrev bufTy : (tb : Table) → Fin (tcTables nBuf tb) → BufTy
  | .hbm, ⟨0, _⟩ => ⟨S32768x30, .f32⟩
  | .hbm, ⟨1, _⟩ => ⟨S32768x15, .f32⟩
  | .hbm, ⟨2, _⟩ => ⟨S32768x30, .f32⟩
  | .hbm, ⟨3, _⟩ => ⟨S5x32768x9, .f32⟩
  | .hbm, ⟨4, _⟩ => ⟨S512x44, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S9x512, .f32⟩
  | .hbm, ⟨9, _⟩ => ⟨S9, .f32⟩
  | .hbm, ⟨10, _⟩ => ⟨S9x512, .f32⟩
  | .hbm, ⟨11, _⟩ => ⟨S9, .f32⟩
  | .hbm, ⟨12, _⟩ => ⟨S512x41, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S12x512, .f32⟩
  | .hbm, ⟨17, _⟩ => ⟨S12, .f32⟩
  | .hbm, ⟨18, _⟩ => ⟨S5x12, .i32⟩
  | .hbm, ⟨19, _⟩ => ⟨S5x5, .i32⟩
  | .hbm, ⟨20, _⟩ => ⟨S5x5, .i32⟩
  | .hbm, ⟨21, _⟩ => ⟨S_, .i32⟩
  | .hbm, ⟨22, _⟩ => ⟨S5x5, .i32⟩
  | .hbm, ⟨23, _⟩ => ⟨S5x5, .i32⟩
  | .hbm, ⟨24, _⟩ => ⟨S5x5, .i1⟩
  | .hbm, ⟨25, _⟩ => ⟨S5x5, .f32⟩
  | .hbm, ⟨26, _⟩ => ⟨S5x1x5, .f32⟩
  | .hbm, ⟨27, _⟩ => ⟨S5x32768x5, .f32⟩
  | .hbm, ⟨28, _⟩ => ⟨S1x32768x15, .f32⟩
  | .hbm, ⟨29, _⟩ => ⟨S5x32768x15, .f32⟩
  | .hbm, ⟨30, _⟩ => ⟨S_, .i32⟩
  | .hbm, ⟨31, _⟩ => ⟨S5x12, .i32⟩
  | .hbm, ⟨32, _⟩ => ⟨S5x12, .i1⟩
  | .hbm, ⟨33, _⟩ => ⟨S_, .i32⟩
  | .hbm, ⟨34, _⟩ => ⟨S5x12, .i32⟩
  | .hbm, ⟨35, _⟩ => ⟨S5x12, .i32⟩
  | .hbm, ⟨36, _⟩ => ⟨S5x12, .i32⟩
  | .hbm, ⟨37, _⟩ => ⟨S5x12x1, .i32⟩
  | .hbm, ⟨38, _⟩ => ⟨S32768x5x12, .f32⟩
  | .hbm, ⟨39, _⟩ => ⟨S5x32768x12, .f32⟩
  | .hbm, ⟨40, _⟩ => ⟨S_, .i32⟩
  | .hbm, ⟨41, _⟩ => ⟨S5x12, .i32⟩
  | .hbm, ⟨42, _⟩ => ⟨S5x12, .i1⟩
  | .hbm, ⟨43, _⟩ => ⟨S_, .i32⟩
  | .hbm, ⟨44, _⟩ => ⟨S5x12, .i32⟩
  | .hbm, ⟨45, _⟩ => ⟨S5x12, .i32⟩
  | .hbm, ⟨46, _⟩ => ⟨S5x12, .i32⟩
  | .hbm, ⟨47, _⟩ => ⟨S5x12x1, .i32⟩
  | .hbm, ⟨48, _⟩ => ⟨S32768x5x12, .f32⟩
  | .hbm, ⟨49, _⟩ => ⟨S5x32768x12, .f32⟩
  | .hbm, ⟨50, _⟩ => ⟨S5x32768x44, .f32⟩
  | .hbm, ⟨51, _⟩ => ⟨S5x32768x512, .f32⟩
  | .hbm, ⟨52, _⟩ => ⟨S1x1x512, .f32⟩
  | .hbm, ⟨53, _⟩ => ⟨S5x32768x512, .f32⟩
  | .hbm, ⟨54, _⟩ => ⟨S5x32768x512, .f32⟩
  | .hbm, ⟨55, _⟩ => ⟨S_, .f32⟩
  | .hbm, ⟨56, _⟩ => ⟨S5x32768x512, .f32⟩
  | .hbm, ⟨57, _⟩ => ⟨S5x32768x512, .f32⟩
  | .hbm, ⟨58, _⟩ => ⟨S5x32768x512, .f32⟩
  | .hbm, ⟨59, _⟩ => ⟨S1x1x512, .f32⟩
  | .hbm, ⟨60, _⟩ => ⟨S5x32768x512, .f32⟩
  | .hbm, ⟨61, _⟩ => ⟨S5x32768x512, .f32⟩
  | .hbm, ⟨62, _⟩ => ⟨S_, .f32⟩
  | .hbm, ⟨63, _⟩ => ⟨S5x32768x512, .f32⟩
  | .hbm, ⟨64, _⟩ => ⟨S5x32768x512, .f32⟩
  | .hbm, ⟨65, _⟩ => ⟨S5x32768x9, .f32⟩
  | .hbm, ⟨66, _⟩ => ⟨S1x1x9, .f32⟩
  | .hbm, ⟨67, _⟩ => ⟨S5x32768x9, .f32⟩
  | .hbm, ⟨68, _⟩ => ⟨S5x32768x9, .f32⟩
  | .hbm, ⟨69, _⟩ => ⟨S5x32768x9, .f32⟩
  | .hbm, ⟨70, _⟩ => ⟨S1x1x9, .f32⟩
  | .hbm, ⟨71, _⟩ => ⟨S5x32768x9, .f32⟩
  | .hbm, ⟨72, _⟩ => ⟨S5x32768x9, .f32⟩
  | .hbm, ⟨73, _⟩ => ⟨S_, .f32⟩
  | .hbm, ⟨74, _⟩ => ⟨S5x32768x9, .f32⟩
  | .hbm, ⟨75, _⟩ => ⟨S5x32768x9, .f32⟩
  | .hbm, ⟨76, _⟩ => ⟨S5x32768x9, .f32⟩
  | .hbm, ⟨77, _⟩ => ⟨S5x32768x9, .f32⟩
  | .hbm, ⟨78, _⟩ => ⟨S5x32768x9, .f32⟩
  | .hbm, ⟨79, _⟩ => ⟨S5x32768x41, .f32⟩
  | .hbm, ⟨80, _⟩ => ⟨S5x32768x512, .f32⟩
  | .hbm, ⟨81, _⟩ => ⟨S1x1x512, .f32⟩
  | .hbm, ⟨82, _⟩ => ⟨S5x32768x512, .f32⟩
  | .hbm, ⟨83, _⟩ => ⟨S5x32768x512, .f32⟩
  | .hbm, ⟨84, _⟩ => ⟨S_, .f32⟩
  | .hbm, ⟨85, _⟩ => ⟨S5x32768x512, .f32⟩
  | .hbm, ⟨86, _⟩ => ⟨S5x32768x512, .f32⟩
  | .hbm, ⟨87, _⟩ => ⟨S5x32768x512, .f32⟩
  | .hbm, ⟨88, _⟩ => ⟨S1x1x512, .f32⟩
  | .hbm, ⟨89, _⟩ => ⟨S5x32768x512, .f32⟩
  | .hbm, ⟨90, _⟩ => ⟨S5x32768x512, .f32⟩
  | .hbm, ⟨91, _⟩ => ⟨S_, .f32⟩
  | .hbm, ⟨92, _⟩ => ⟨S5x32768x512, .f32⟩
  | .hbm, ⟨93, _⟩ => ⟨S5x32768x512, .f32⟩
  | .hbm, ⟨94, _⟩ => ⟨S5x32768x12, .f32⟩
  | .hbm, ⟨95, _⟩ => ⟨S1x1x12, .f32⟩
  | .hbm, ⟨96, _⟩ => ⟨S5x32768x12, .f32⟩
  | .hbm, ⟨97, _⟩ => ⟨S5x32768x12, .f32⟩
  | .hbm, ⟨98, _⟩ => ⟨S5x32768x12, .f32⟩
  | .hbm, ⟨99, _⟩ => ⟨S5x32768x12, .f32⟩
  | .hbm, ⟨100, _⟩ => ⟨S_, .f32⟩
  | .hbm, ⟨101, _⟩ => ⟨S5x32768x12, .f32⟩
  | .hbm, ⟨102, _⟩ => ⟨S5x32768x12, .f32⟩
  | .hbm, ⟨103, _⟩ => ⟨S_, .f32⟩
  | .hbm, ⟨104, _⟩ => ⟨S5x32768x12, .f32⟩
  | .hbm, ⟨105, _⟩ => ⟨S5x32768x12, .f32⟩
  | .hbm, ⟨106, _⟩ => ⟨S_, .f32⟩
  | .hbm, ⟨107, _⟩ => ⟨S32768x30, .f32⟩
  | .hbm, ⟨108, _⟩ => ⟨S32768x5x12, .f32⟩
  | .hbm, ⟨109, _⟩ => ⟨S_, .i32⟩
  | .hbm, ⟨110, _⟩ => ⟨S5x12, .i32⟩
  | .hbm, ⟨111, _⟩ => ⟨S5x12, .i1⟩
  | .hbm, ⟨112, _⟩ => ⟨S_, .i32⟩
  | .hbm, ⟨113, _⟩ => ⟨S5x12, .i32⟩
  | .hbm, ⟨114, _⟩ => ⟨S5x12, .i32⟩
  | .hbm, ⟨115, _⟩ => ⟨S5x12, .i32⟩
  | .hbm, ⟨116, _⟩ => ⟨S5x12x1, .i32⟩
  | .hbm, ⟨117, _⟩ => ⟨S32768x30, .f32⟩
  | _, _ => ⟨S32768x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call0_cst : Ref sig .tc := ⟨.hbm, 55, rfl⟩
abbrev main_call0_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_cst : Ref sig .tc := ⟨.hbm, 62, rfl⟩
abbrev main_call1_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call2_cst : Ref sig .tc := ⟨.hbm, 84, rfl⟩
abbrev main_call2_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call3_cst : Ref sig .tc := ⟨.hbm, 91, rfl⟩
abbrev main_call3_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_5 : Ref sig .tc := ⟨.hbm, 100, rfl⟩
abbrev main_v67 : Ref sig .tc := ⟨.hbm, 101, rfl⟩
abbrev main_v68 : Ref sig .tc := ⟨.hbm, 102, rfl⟩
abbrev main_cst_6 : Ref sig .tc := ⟨.hbm, 103, rfl⟩
abbrev main_v69 : Ref sig .tc := ⟨.hbm, 104, rfl⟩
abbrev main_v70 : Ref sig .tc := ⟨.hbm, 105, rfl⟩
abbrev main_cst_7 : Ref sig .tc := ⟨.hbm, 106, rfl⟩
abbrev main_v71 : Ref sig .tc := ⟨.hbm, 107, rfl⟩
abbrev main_v72 : Ref sig .tc := ⟨.hbm, 108, rfl⟩
abbrev main_c_8 : Ref sig .tc := ⟨.hbm, 109, rfl⟩
abbrev main_v73 : Ref sig .tc := ⟨.hbm, 110, rfl⟩
abbrev main_v74 : Ref sig .tc := ⟨.hbm, 111, rfl⟩
abbrev main_c_9 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  bcast_S_S5x5 : S_.BroadcastsInDim S5x5 (![] : Fin 0 → Fin S5x5.rank)
  bcast_S5x5_S5x1x5_0_2 : S5x5.BroadcastsInDim S5x1x5 (![0, 2] : Fin 2 → Fin S5x1x5.rank)
  bcast_S5x1x5_S5x32768x5_0_1_2 : S5x1x5.BroadcastsInDim S5x32768x5 (![0, 1, 2] : Fin 3 → Fin S5x32768x5.rank)
  bcast_S32768x15_S1x32768x15_1_2 : S32768x15.BroadcastsInDim S1x32768x15 (![1, 2] : Fin 2 → Fin S1x32768x15.rank)
  bcast_S1x32768x15_S5x32768x15_0_1_2 : S1x32768x15.BroadcastsInDim S5x32768x15 (![0, 1, 2] : Fin 3 → Fin S5x32768x15.rank)
  bcast_S_S5x12 : S_.BroadcastsInDim S5x12 (![] : Fin 0 → Fin S5x12.rank)
  bcast_S5x12_S5x12x1_0_1 : S5x12.BroadcastsInDim S5x12x1 (![0, 1] : Fin 2 → Fin S5x12x1.rank)
  transposes_S32768x5x12_S5x32768x12_1_0_2 : S32768x5x12.Transposes [1, 0, 2] S5x32768x12
  concatenates_S5x32768x5_S5x32768x15_S5x32768x12_S5x32768x12_S5x32768x44_d2 : Shape.Concatenates [S5x32768x5, S5x32768x15, S5x32768x12, S5x32768x12] S5x32768x44 2
  bcast_S512_S1x1x512_2 : S512.BroadcastsInDim S1x1x512 (![2] : Fin 1 → Fin S1x1x512.rank)
  bcast_S1x1x512_S5x32768x512_0_1_2 : S1x1x512.BroadcastsInDim S5x32768x512 (![0, 1, 2] : Fin 3 → Fin S5x32768x512.rank)
  bcast_S_S5x32768x512 : S_.BroadcastsInDim S5x32768x512 (![] : Fin 0 → Fin S5x32768x512.rank)
  bcast_S9_S1x1x9_2 : S9.BroadcastsInDim S1x1x9 (![2] : Fin 1 → Fin S1x1x9.rank)
  bcast_S1x1x9_S5x32768x9_0_1_2 : S1x1x9.BroadcastsInDim S5x32768x9 (![0, 1, 2] : Fin 3 → Fin S5x32768x9.rank)
  bcast_S_S5x32768x9 : S_.BroadcastsInDim S5x32768x9 (![] : Fin 0 → Fin S5x32768x9.rank)
  concatenates_S5x32768x5_S5x32768x9_S5x32768x15_S5x32768x12_S5x32768x41_d2 : Shape.Concatenates [S5x32768x5, S5x32768x9, S5x32768x15, S5x32768x12] S5x32768x41 2
  bcast_S12_S1x1x12_2 : S12.BroadcastsInDim S1x1x12 (![2] : Fin 1 → Fin S1x1x12.rank)
  bcast_S1x1x12_S5x32768x12_0_1_2 : S1x1x12.BroadcastsInDim S5x32768x12 (![0, 1, 2] : Fin 3 → Fin S5x32768x12.rank)
  bcast_S_S5x32768x12 : S_.BroadcastsInDim S5x32768x12 (![] : Fin 0 → Fin S5x32768x12.rank)
  bcast_S_S32768x30 : S_.BroadcastsInDim S32768x30 (![] : Fin 0 → Fin S32768x30.rank)
  transposes_S5x32768x12_S32768x5x12_1_0_2 : S5x32768x12.Transposes [1, 0, 2] S32768x5x12
  gather_S32768x30_S5x12x1_S32768x5x12_0_1_n_n_1_2_327681_wf : GatherDims.WF S32768x30 S5x12x1 S32768x5x12 [0] [1] [] [1] [] 2 ![32768, 1]
  dot_S5x32768x44_S512x44_S5x32768x512_2_1_01_0_n_n_wf : DotDims.WF S5x32768x44 S512x44 S5x32768x512 [2] [1] [0, 1] [0] [] []
  dot_S5x32768x512_S512x512_S5x32768x512_2_1_01_0_n_n_wf : DotDims.WF S5x32768x512 S512x512 S5x32768x512 [2] [1] [0, 1] [0] [] []
  dot_S5x32768x512_S9x512_S5x32768x9_2_1_01_0_n_n_wf : DotDims.WF S5x32768x512 S9x512 S5x32768x9 [2] [1] [0, 1] [0] [] []
  dot_S5x32768x41_S512x41_S5x32768x512_2_1_01_0_n_n_wf : DotDims.WF S5x32768x41 S512x41 S5x32768x512 [2] [1] [0, 1] [0] [] []
  dot_S5x32768x512_S12x512_S5x32768x12_2_1_01_0_n_n_wf : DotDims.WF S5x32768x512 S12x512 S5x32768x12 [2] [1] [0, 1] [0] [] []
  scatter_S32768x30_S5x12x1_S32768x5x12_0_1_1_2_wf : ScatterDims.WF S32768x30 S5x12x1 S32768x5x12 [0] [1] [1] 2

variable [Facts₀]

def gather_S32768x30_S5x12x1_S32768x5x12_0_1_n_n_1_2_327681 : GatherDims S32768x30 S5x12x1 S32768x5x12 where
  offsetDims := [0]
  collapsedSliceDims := [1]
  operandBatchingDims := []
  startIndicesBatchingDims := []
  startIndexMap := [1]
  indexVectorDim := 2
  sliceSizes := ![32768, 1]
  wf := gather_S32768x30_S5x12x1_S32768x5x12_0_1_n_n_1_2_327681_wf
def dot_S5x32768x44_S512x44_S5x32768x512_2_1_01_0_n_n : DotDims S5x32768x44 S512x44 S5x32768x512 where
  lhsContracting := [2]
  rhsContracting := [1]
  lhsNonContracting := [0, 1]
  rhsNonContracting := [0]
  lhsBatch := []
  rhsBatch := []
  wf := dot_S5x32768x44_S512x44_S5x32768x512_2_1_01_0_n_n_wf
def dot_S5x32768x512_S512x512_S5x32768x512_2_1_01_0_n_n : DotDims S5x32768x512 S512x512 S5x32768x512 where
  lhsContracting := [2]
  rhsContracting := [1]
  lhsNonContracting := [0, 1]
  rhsNonContracting := [0]
  lhsBatch := []
  rhsBatch := []
  wf := dot_S5x32768x512_S512x512_S5x32768x512_2_1_01_0_n_n_wf
def dot_S5x32768x512_S9x512_S5x32768x9_2_1_01_0_n_n : DotDims S5x32768x512 S9x512 S5x32768x9 where
  lhsContracting := [2]
  rhsContracting := [1]
  lhsNonContracting := [0, 1]
  rhsNonContracting := [0]
  lhsBatch := []
  rhsBatch := []
  wf := dot_S5x32768x512_S9x512_S5x32768x9_2_1_01_0_n_n_wf
def dot_S5x32768x41_S512x41_S5x32768x512_2_1_01_0_n_n : DotDims S5x32768x41 S512x41 S5x32768x512 where
  lhsContracting := [2]
  rhsContracting := [1]
  lhsNonContracting := [0, 1]
  rhsNonContracting := [0]
  lhsBatch := []
  rhsBatch := []
  wf := dot_S5x32768x41_S512x41_S5x32768x512_2_1_01_0_n_n_wf
def dot_S5x32768x512_S12x512_S5x32768x12_2_1_01_0_n_n : DotDims S5x32768x512 S12x512 S5x32768x12 where
  lhsContracting := [2]
  rhsContracting := [1]
  lhsNonContracting := [0, 1]
  rhsNonContracting := [0]
  lhsBatch := []
  rhsBatch := []
  wf := dot_S5x32768x512_S12x512_S5x32768x12_2_1_01_0_n_n_wf
def scatter_S32768x30_S5x12x1_S32768x5x12_0_1_1_2 : ScatterDims S32768x30 S5x12x1 S32768x5x12 where
  updateWindowDims := [0]
  insertedWindowDims := [1]
  scatterDimsToOperandDims := [1]
  indexVectorDim := 2
  wf := scatter_S32768x30_S5x12x1_S32768x5x12_0_1_1_2_wf

class Facts : Prop extends Facts₀ where

variable [Facts]
-- ==== Proof.KData.lean ====
/-
  The arrays the region of `Kernel` finds (the launch memory after the host lines before the region), each window's
  block of its array at a grid point, and what the body leaves in each of the four output blocks as a function of the
  sixteen input blocks: the encoder's means (window 16), its log-variances (window 17), the sampled latent (window 18)
  and the decoder's sigmoid output (window 19), each stored whole by one store.
-/
import proofs.«173347_j68530498175289_1_alg».proof.Proof.Gen.Kernel.Launch
import proofs.«173347_j68530498175289_1_alg».proof.Proof.Gen.Kernel.Skeleton
import proofs.«173347_j68530498175289_1_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The hidden layer the two encoder heads share, from the row block, the two encoder layers' weights and biases. -/
abbrev hid (x0 : Vec F S2048x44 .f32) (x2 : Vec F S44x512 .bf16) (x3 : Vec F S1x512 .f32) (x4 : Vec F S512x512 .bf16)
    (x5 : Vec F S1x512 .f32) : FVec F S2048x512 .f32 := k0_pay3 x0 x2 x3 x4 x5

/-- Window 16 after the body: the means. -/
def out0_16 (x0 : Vec F S2048x44 .f32) (x2 : Vec F S44x512 .bf16) (x3 : Vec F S1x512 .f32) (x4 : Vec F S512x512 .bf16)
    (x5 : Vec F S1x512 .f32) (x6 : Vec F S512x9 .bf16) (x7 : Vec F S1x9 .f32) : Vec F S2048x9 .f32 :=
  k0_pay4 x0 x2 x3 x4 x5 x6 x7

/-- Window 17 after the body: the log-variances. -/
def out0_17 (x0 : Vec F S2048x44 .f32) (x2 : Vec F S44x512 .bf16) (x3 : Vec F S1x512 .f32) (x4 : Vec F S512x512 .bf16)
    (x5 : Vec F S1x512 .f32) (x8 : Vec F S512x9 .bf16) (x9 : Vec F S1x9 .f32) : Vec F S2048x9 .f32 :=
  k0_pay6 (k0_pay5 x0 x2 x3 x4 x5 x8) x9

/-- Window 18 after the body: the sampled latent, noise times the standard deviation plus the mean. -/
def out0_18 (x0 : Vec F S2048x44 .f32) (x1 : Vec F S2048x9 .f32) (x2 : Vec F S44x512 .bf16) (x3 : Vec F S1x512 .f32)
    (x4 : Vec F S512x512 .bf16) (x5 : Vec F S1x512 .f32) (x6 : Vec F S512x9 .bf16) (x7 : Vec F S1x9 .f32)
    (x8 : Vec F S512x9 .bf16) (x9 : Vec F S1x9 .f32) : Vec F S2048x9 .f32 :=
  k0_pay7 (k0_pay4 x0 x2 x3 x4 x5 x6 x7) (k0_pay5 x0 x2 x3 x4 x5 x8) x9 x1

/-- Window 19 after the body: the decoder's output through the sigmoid. -/
def out0_19 (x0 : Vec F S2048x44 .f32) (x1 : Vec F S2048x9 .f32) (x2 : Vec F S44x512 .bf16) (x3 : Vec F S1x512 .f32)
    (x4 : Vec F S512x512 .bf16) (x5 : Vec F S1x512 .f32) (x6 : Vec F S512x9 .bf16) (x7 : Vec F S1x9 .f32)
    (x8 : Vec F S512x9 .bf16) (x9 : Vec F S1x9 .f32) (x10 : Vec F S41x512 .bf16) (x11 : Vec F S1x512 .f32)
    (x12 : Vec F S512x512 .bf16) (x13 : Vec F S1x512 .f32) (x14 : Vec F S512x12 .bf16) (x15 : Vec F S1x12 .f32) :
    Vec F S2048x12 .f32 :=
  k0_pay1 (k0_pay8 (k0_pay2 x0) (k0_pay4 x0 x2 x3 x4 x5 x6 x7) (k0_pay5 x0 x2 x3 x4 x5 x8) x9 x1 x10 x11 x12 x13)
    (k0_pay9 (F := F)) x14 x15

end Cert.Kernel.Hand

end
-- ==== Proof.KFrameHost.lean ====
/-
  The entry function of Kernel around its one region: the host lines before it, the region, the host lines after it;
  that no host line writes an argument array (each writes only its own result buffer), so the region finds each argument
  array as launched and the lines after it leave it so; that each input window's staging buffer holds its block at every
  grid point, fetched there or not; and the frame claim's post from any frame run of the region's proof data.
-/
import proofs.«173347_j68530498175289_1_alg».proof.Proof.KData
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function around the region: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; simp only [StableHlo.nullary_writes, StableHlo.unary_writes, StableHlo.binary_writes, StableHlo.ternary_writes, StableHlo.quaternary_writes, StableHlo.reshape_writes, StableHlo.binaryIndexed_writes, StableHlo.nary_writes, Finset.mem_singleton]; refine StableHlo.devRef_ne_of_ne ?_; revert w; decide

/-- No host line before the region writes main_arg0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg0, and it is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes main_arg1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg1, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes main_arg2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg2, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes main_arg3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg3, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes main_arg4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg4, and it is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes main_arg5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg5, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes main_arg6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg6, and it is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes main_arg7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg7, and it is no array of the pipeline: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes main_arg8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg8, and it is no array of the pipeline: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes main_arg9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg9, and it is no array of the pipeline: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes main_arg10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg10, and it is no array of the pipeline: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes main_arg11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg11, and it is no array of the pipeline: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line before the region writes main_arg12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg12, and it is no array of the pipeline: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line before the region writes main_arg13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg13, and it is no array of the pipeline: it ends as launched. -/
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host line before the region writes main_arg14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg14, and it is no array of the pipeline: it ends as launched. -/
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host line before the region writes main_arg15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg15, and it is no array of the pipeline: it ends as launched. -/
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host line before the region writes main_arg16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg16, and it is no array of the pipeline: it ends as launched. -/
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host line before the region writes main_arg17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg17, and it is no array of the pipeline: it ends as launched. -/
theorem W_main_arg17 (dats : (p : Fin 1) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-! ## The input windows' blocks -/

/-- Input window 0's current staging buffer holds its block at every point, fetched there or not, for any proof data
    whose array is the region-entry contents and whose body leaves the block in place: unfetched, the window's block index
    has not moved since the last fetch; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the window's block index
    has not moved since the last fetch; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the window's block index
    has not moved since the last fetch; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the window's block index
    has not moved since the last fetch; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the window's block index
    has not moved since the last fetch; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place: unfetched, the window's block index
    has not moved since the last fetch; the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the region-entry contents and whose body leaves the block in place: unfetched, the window's block index
    has not moved since the last fetch; the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the region-entry contents and whose body leaves the block in place: unfetched, the window's block index
    has not moved since the last fetch; the window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof data
    whose array is the region-entry contents and whose body leaves the block in place: unfetched, the window's block index
    has not moved since the last fetch; the window is uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not, for any proof data
    whose array is the region-entry contents and whose body leaves the block in place: unfetched, the window's block index
    has not moved since the last fetch; the window is uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not, for any proof data
    whose array is the region-entry contents and whose body leaves the block in place: unfetched, the window's block index
    has not moved since the last fetch; the window is uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not, for any proof data
    whose array is the region-entry contents and whose body leaves the block in place: unfetched, the window's block index
    has not moved since the last fetch; the window is uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not, for any proof data
    whose array is the region-entry contents and whose body leaves the block in place: unfetched, the window's block index
    has not moved since the last fetch; the window is uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not, for any proof data
    whose array is the region-entry contents and whose body leaves the block in place: unfetched, the window's block index
    has not moved since the last fetch; the window is uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, fetched there or not, for any proof data
    whose array is the region-entry contents and whose body leaves the block in place: unfetched, the window's block index
    has not moved since the last fetch; the window is uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current staging buffer holds its block at every point, fetched there or not, for any proof data
    whose array is the region-entry contents and whose body leaves the block in place: unfetched, the window's block index
    has not moved since the last fetch; the window is uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — every array of the
    pipeline at what the proof data computes and every other unscoped buffer as the lines after the region leave it —
    read at the eighteen argument arrays, none of which a window stages, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c)⟩) h

end Cert.Kernel.Hand

end
-- ==== Proof.KFrameBody.lean ====
/-
  The body of the one region of Kernel as a triple: on whole staging memrefs, the sixteen inputs' at read contents and
  the four outputs' at anything, it runs to the continuation that holds the inputs' as they were and each output's at
  the data module's out0_W of the inputs. Each output buffer is loaded once (the value is unused) and then stored
  whole by ONE store through the unit rectangle at zero offsets, after which it holds that store's payload.
-/
import proofs.«173347_j68530498175289_1_alg».proof.Proof.KData
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a rank-2 whole-block access are zero. -/
theorem zeros2 : (![0, 0] : Fin 2 → Nat) = fun _ => 0 := funext fun a => by fin_cases a <;> rfl

/-- A buffer read back after ONE store through the whole-shape rectangle at zero offsets holds the store's payload,
    whatever it held before: the store covers every index, and the canon of one covering store is its payload. -/
theorem whole_store {sig : RefSig} {κ : Kind} {sp : Space} {S : Shape} {e : EltTy} {off : Fin S.rank → Nat} (h : off = fun _ => 0)
    (v : View sig κ sp S e) (f : v.ty.Contents (Elt F)) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load through the whole-shape rectangle at zero offsets reads the buffer's contents. -/
theorem whole_load {sig : RefSig} {κ : Kind} {sp : Space} {S : Shape} {e : EltTy} {off : Fin S.rank → Nat} (h : off = fun _ => 0)
    (v : View sig κ sp S e) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

set_option maxHeartbeats 1000000 in
/-- The body's triple: the printed functions are their skeletons, run operation by operation through both part calls. -/
theorem sound_kernel (c : Dev nD) (E : Set ℕ) (i : grid0.Coords) (arg1 : Memref sig .tc .vmem S2048x44 .f32) (harg1 : arg1.IsWhole) (arg2 : Memref sig .tc .vmem S2048x9 .f32) (harg2 : arg2.IsWhole) (arg3 : Memref sig .tc .vmem S44x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x9 .bf16) (harg7 : arg7.IsWhole) (arg8 : Memref sig .tc .vmem S1x9 .f32) (harg8 : arg8.IsWhole) (arg9 : Memref sig .tc .vmem S512x9 .bf16) (harg9 : arg9.IsWhole) (arg10 : Memref sig .tc .vmem S1x9 .f32) (harg10 : arg10.IsWhole) (arg11 : Memref sig .tc .vmem S41x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x12 .bf16) (harg15 : arg15.IsWhole) (arg16 : Memref sig .tc .vmem S1x12 .f32) (harg16 : arg16.IsWhole) (arg17 : Memref sig .tc .vmem S2048x9 .f32) (harg17 : arg17.IsWhole) (arg18 : Memref sig .tc .vmem S2048x9 .f32) (harg18 : arg18.IsWhole) (arg19 : Memref sig .tc .vmem S2048x9 .f32) (harg19 : arg19.IsWhole) (arg20 : Memref sig .tc .vmem S2048x12 .f32) (harg20 : arg20.IsWhole)
    (x0 : Vec F S2048x44 .f32) (x1 : Vec F S2048x9 .f32) (x2 : Vec F S44x512 .bf16) (x3 : Vec F S1x512 .f32) (x4 : Vec F S512x512 .bf16) (x5 : Vec F S1x512 .f32) (x6 : Vec F S512x9 .bf16) (x7 : Vec F S1x9 .f32) (x8 : Vec F S512x9 .bf16) (x9 : Vec F S1x9 .f32) (x10 : Vec F S41x512 .bf16) (x11 : Vec F S1x512 .f32) (x12 : Vec F S512x512 .bf16) (x13 : Vec F S1x512 .f32) (x14 : Vec F S512x12 .bf16) (x15 : Vec F S1x12 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare (out0_16 x0 x2 x3 x4 x5 x6 x7)
          ∗ owns (c : Thread nD τ) arg18 fullShare (out0_17 x0 x2 x3 x4 x5 x8 x9)
          ∗ owns (c : Thread nD τ) arg19 fullShare (out0_18 x0 x1 x2 x3 x4 x5 x6 x7 x8 x9)
          ∗ owns (c : Thread nD τ) arg20 fullShare (out0_19 x0 x1 x2 x3 x4 x5 x6 x7 x8 x9 x10 x11 x12 x13 x14 x15)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
    exact whole_store (S := S2048x9) zeros2 _ _ _ _
  isplitl [H17]
  · iexists _; isplitr
    swap; · iexact H17
    ipureintro
    try dsimp only
    simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
    exact whole_store (S := S2048x9) zeros2 _ _ _ _
  isplitl [H18]
  · iexists _; isplitr
    swap; · iexact H18
    ipureintro
    try dsimp only
    simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
    exact whole_store (S := S2048x9) zeros2 _ _ _ _
  iexists _; isplitr
  swap; · iexact H19
  ipureintro
  try dsimp only
  simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
  exact whole_store (S := S2048x12) zeros2 _ _ _ _

end Cert.Kernel.Hand

end
-- ==== Proof.KFrame.lean ====
/-
  The frame certificate of Kernel: the proof data of its one pipeline (each array as the region finds it; after the body
  at a grid point each input's staging buffer at its block and each output's at the data module's out0_W of the input
  blocks; nothing owed; full shares), the body obligation at a generic point from the body's triple, the frame run
  of the entry function around the region, and the frame claim at any float model: every argument array ends as launched.
-/
import proofs.«173347_j68530498175289_1_alg».proof.Proof.KFrameHost
import proofs.«173347_j68530498175289_1_alg».proof.Proof.KFrameBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 2 t) (iblk m c 3 t) (iblk m c 4 t) (iblk m c 5 t) (iblk m c 6 t) (iblk m c 7 t)
    | ⟨17, _⟩ => out0_17 (iblk m c 0 t) (iblk m c 2 t) (iblk m c 3 t) (iblk m c 4 t) (iblk m c 5 t) (iblk m c 8 t) (iblk m c 9 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 20, h⟩ => absurd h (Nat.not_lt.2 (Nat.le_add_left _ _))
  Φ _ := Pipeline.ΦA spec0 c
  q _ := fullShare
  owed _ := 0

/-- The proof data's arrays are the region-entry contents (the definition projected; the fold over the host lines is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 2 t) (iblk m c 3 t) (iblk m c 4 t) (iblk m c 5 t) (iblk m c 6 t) (iblk m c 7 t) := by dsimp only [dats]
theorem after0_17 (c : Dev nD) (t : Fin cfg0.N) : (dats m 0 c).after 17 t = out0_17 (iblk m c 0 t) (iblk m c 2 t) (iblk m c 3 t) (iblk m c 4 t) (iblk m c 5 t) (iblk m c 8 t) (iblk m c 9 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the entry
    function on the TensorCores terminates, and every final state has every array of the pipeline at what the library
    computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.KIData.lean ====
/-
  The arrays the region of `KernelIdeal` finds (the launch memory after the host lines before the region), each window's
  block of its array at a grid point, and what the body leaves in each of the four output blocks as a function of the
  sixteen input blocks: the encoder's means (window 16), its log-variances (window 17), the sampled latent (window 18)
  and the decoder's sigmoid output (window 19), each stored whole by one store.
-/
import proofs.«173347_j68530498175289_1_alg».proof.Proof.Gen.KernelIdeal.Launch
import proofs.«173347_j68530498175289_1_alg».proof.Proof.Gen.KernelIdeal.Skeleton
import proofs.«173347_j68530498175289_1_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The hidden layer the two encoder heads share, from the row block, the two encoder layers' weights and biases. -/
abbrev hid (x0 : Vec F S2048x44 .f32) (x2 : Vec F S44x512 .bf16) (x3 : Vec F S1x512 .f32) (x4 : Vec F S512x512 .bf16)
    (x5 : Vec F S1x512 .f32) : FVec F S2048x512 .f32 := k0_pay3 x0 x2 x3 x4 x5

/-- Window 16 after the body: the means. -/
def out0_16 (x0 : Vec F S2048x44 .f32) (x2 : Vec F S44x512 .bf16) (x3 : Vec F S1x512 .f32) (x4 : Vec F S512x512 .bf16)
    (x5 : Vec F S1x512 .f32) (x6 : Vec F S512x9 .bf16) (x7 : Vec F S1x9 .f32) : Vec F S2048x9 .f32 :=
  k0_pay4 x0 x2 x3 x4 x5 x6 x7

/-- Window 17 after the body: the log-variances. -/
def out0_17 (x0 : Vec F S2048x44 .f32) (x2 : Vec F S44x512 .bf16) (x3 : Vec F S1x512 .f32) (x4 : Vec F S512x512 .bf16)
    (x5 : Vec F S1x512 .f32) (x8 : Vec F S512x9 .bf16) (x9 : Vec F S1x9 .f32) : Vec F S2048x9 .f32 :=
  k0_pay6 (k0_pay5 x0 x2 x3 x4 x5 x8) x9

/-- Window 18 after the body: the sampled latent, noise times the standard deviation plus the mean. -/
def out0_18 (x0 : Vec F S2048x44 .f32) (x1 : Vec F S2048x9 .f32) (x2 : Vec F S44x512 .bf16) (x3 : Vec F S1x512 .f32)
    (x4 : Vec F S512x512 .bf16) (x5 : Vec F S1x512 .f32) (x6 : Vec F S512x9 .bf16) (x7 : Vec F S1x9 .f32)
    (x8 : Vec F S512x9 .bf16) (x9 : Vec F S1x9 .f32) : Vec F S2048x9 .f32 :=
  k0_pay7 (k0_pay4 x0 x2 x3 x4 x5 x6 x7) (k0_pay5 x0 x2 x3 x4 x5 x8) x9 x1

/-- Window 19 after the body: the decoder's output through the sigmoid. -/
def out0_19 (x0 : Vec F S2048x44 .f32) (x1 : Vec F S2048x9 .f32) (x2 : Vec F S44x512 .bf16) (x3 : Vec F S1x512 .f32)
    (x4 : Vec F S512x512 .bf16) (x5 : Vec F S1x512 .f32) (x6 : Vec F S512x9 .bf16) (x7 : Vec F S1x9 .f32)
    (x8 : Vec F S512x9 .bf16) (x9 : Vec F S1x9 .f32) (x10 : Vec F S41x512 .bf16) (x11 : Vec F S1x512 .f32)
    (x12 : Vec F S512x512 .bf16) (x13 : Vec F S1x512 .f32) (x14 : Vec F S512x12 .bf16) (x15 : Vec F S1x12 .f32) :
    Vec F S2048x12 .f32 :=
  k0_pay1 (k0_pay8 (k0_pay2 x0) (k0_pay4 x0 x2 x3 x4 x5 x6 x7) (k0_pay5 x0 x2 x3 x4 x5 x8) x9 x1 x10 x11 x12 x13)
    (k0_pay9 (F := F)) x14 x15

end Cert.KernelIdeal.Hand

end
-- ==== Proof.KIFrameHost.lean ====
/-
  The entry function of KernelIdeal around its one region: the host lines before it, the region, the host lines after it;
  that no host line writes an argument array (each writes only its own result buffer), so the region finds each argument
  array as launched and the lines after it leave it so; that each input window's staging buffer holds its block at every
  grid point, fetched there or not; and the frame claim's post from any frame run of the region's proof data.
-/
import proofs.«173347_j68530498175289_1_alg».proof.Proof.KIData
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function around the region: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; simp only [StableHlo.nullary_writes, StableHlo.unary_writes, StableHlo.binary_writes, StableHlo.ternary_writes, StableHlo.quaternary_writes, StableHlo.reshape_writes, StableHlo.binaryIndexed_writes, StableHlo.nary_writes, Finset.mem_singleton]; refine StableHlo.devRef_ne_of_ne ?_; revert w; decide

/-- No host line before the region writes main_arg0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg0, and it is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes main_arg1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg1, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes main_arg2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg2, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes main_arg3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg3, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes main_arg4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg4, and it is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes main_arg5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg5, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes main_arg6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg6, and it is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes main_arg7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg7, and it is no array of the pipeline: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes main_arg8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg8, and it is no array of the pipeline: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes main_arg9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg9, and it is no array of the pipeline: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes main_arg10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg10, and it is no array of the pipeline: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes main_arg11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg11, and it is no array of the pipeline: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line before the region writes main_arg12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg12, and it is no array of the pipeline: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line before the region writes main_arg13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg13, and it is no array of the pipeline: it ends as launched. -/
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host line before the region writes main_arg14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg14, and it is no array of the pipeline: it ends as launched. -/
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host line before the region writes main_arg15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg15, and it is no array of the pipeline: it ends as launched. -/
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host line before the region writes main_arg16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg16, and it is no array of the pipeline: it ends as launched. -/
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host line before the region writes main_arg17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes main_arg17, and it is no array of the pipeline: it ends as launched. -/
theorem W_main_arg17 (dats : (p : Fin 1) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-! ## The input windows' blocks -/

/-- Input window 0's current staging buffer holds its block at every point, fetched there or not, for any proof data
    whose array is the region-entry contents and whose body leaves the block in place: unfetched, the window's block index
    has not moved since the last fetch; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the window's block index
    has not moved since the last fetch; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the window's block index
    has not moved since the last fetch; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the window's block index
    has not moved since the last fetch; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the window's block index
    has not moved since the last fetch; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place: unfetched, the window's block index
    has not moved since the last fetch; the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the region-entry contents and whose body leaves the block in place: unfetched, the window's block index
    has not moved since the last fetch; the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the region-entry contents and whose body leaves the block in place: unfetched, the window's block index
    has not moved since the last fetch; the window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof data
    whose array is the region-entry contents and whose body leaves the block in place: unfetched, the window's block index
    has not moved since the last fetch; the window is uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not, for any proof data
    whose array is the region-entry contents and whose body leaves the block in place: unfetched, the window's block index
    has not moved since the last fetch; the window is uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not, for any proof data
    whose array is the region-entry contents and whose body leaves the block in place: unfetched, the window's block index
    has not moved since the last fetch; the window is uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not, for any proof data
    whose array is the region-entry contents and whose body leaves the block in place: unfetched, the window's block index
    has not moved since the last fetch; the window is uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not, for any proof data
    whose array is the region-entry contents and whose body leaves the block in place: unfetched, the window's block index
    has not moved since the last fetch; the window is uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not, for any proof data
    whose array is the region-entry contents and whose body leaves the block in place: unfetched, the window's block index
    has not moved since the last fetch; the window is uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, fetched there or not, for any proof data
    whose array is the region-entry contents and whose body leaves the block in place: unfetched, the window's block index
    has not moved since the last fetch; the window is uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current staging buffer holds its block at every point, fetched there or not, for any proof data
    whose array is the region-entry contents and whose body leaves the block in place: unfetched, the window's block index
    has not moved since the last fetch; the window is uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — every array of the
    pipeline at what the proof data computes and every other unscoped buffer as the lines after the region leave it —
    read at the eighteen argument arrays, none of which a window stages, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c)⟩) h

end Cert.KernelIdeal.Hand

end
-- ==== Proof.KIFrameBody.lean ====
/-
  The body of the one region of KernelIdeal as a triple: on whole staging memrefs, the sixteen inputs' at read contents and
  the four outputs' at anything, it runs to the continuation that holds the inputs' as they were and each output's at
  the data module's out0_W of the inputs. Each output buffer is loaded once (the value is unused) and then stored
  whole by ONE store through the unit rectangle at zero offsets, after which it holds that store's payload.
-/
import proofs.«173347_j68530498175289_1_alg».proof.Proof.KIData
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a rank-2 whole-block access are zero. -/
theorem zeros2 : (![0, 0] : Fin 2 → Nat) = fun _ => 0 := funext fun a => by fin_cases a <;> rfl

/-- A buffer read back after ONE store through the whole-shape rectangle at zero offsets holds the store's payload,
    whatever it held before: the store covers every index, and the canon of one covering store is its payload. -/
theorem whole_store {sig : RefSig} {κ : Kind} {sp : Space} {S : Shape} {e : EltTy} {off : Fin S.rank → Nat} (h : off = fun _ => 0)
    (v : View sig κ sp S e) (f : v.ty.Contents (Elt F)) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load through the whole-shape rectangle at zero offsets reads the buffer's contents. -/
theorem whole_load {sig : RefSig} {κ : Kind} {sp : Space} {S : Shape} {e : EltTy} {off : Fin S.rank → Nat} (h : off = fun _ => 0)
    (v : View sig κ sp S e) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

set_option maxHeartbeats 1000000 in
/-- The body's triple: the printed functions are their skeletons, run operation by operation through both part calls. -/
theorem sound_kernel (c : Dev nD) (E : Set ℕ) (i : grid0.Coords) (arg1 : Memref sig .tc .vmem S2048x44 .f32) (harg1 : arg1.IsWhole) (arg2 : Memref sig .tc .vmem S2048x9 .f32) (harg2 : arg2.IsWhole) (arg3 : Memref sig .tc .vmem S44x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x9 .bf16) (harg7 : arg7.IsWhole) (arg8 : Memref sig .tc .vmem S1x9 .f32) (harg8 : arg8.IsWhole) (arg9 : Memref sig .tc .vmem S512x9 .bf16) (harg9 : arg9.IsWhole) (arg10 : Memref sig .tc .vmem S1x9 .f32) (harg10 : arg10.IsWhole) (arg11 : Memref sig .tc .vmem S41x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x12 .bf16) (harg15 : arg15.IsWhole) (arg16 : Memref sig .tc .vmem S1x12 .f32) (harg16 : arg16.IsWhole) (arg17 : Memref sig .tc .vmem S2048x9 .f32) (harg17 : arg17.IsWhole) (arg18 : Memref sig .tc .vmem S2048x9 .f32) (harg18 : arg18.IsWhole) (arg19 : Memref sig .tc .vmem S2048x9 .f32) (harg19 : arg19.IsWhole) (arg20 : Memref sig .tc .vmem S2048x12 .f32) (harg20 : arg20.IsWhole)
    (x0 : Vec F S2048x44 .f32) (x1 : Vec F S2048x9 .f32) (x2 : Vec F S44x512 .bf16) (x3 : Vec F S1x512 .f32) (x4 : Vec F S512x512 .bf16) (x5 : Vec F S1x512 .f32) (x6 : Vec F S512x9 .bf16) (x7 : Vec F S1x9 .f32) (x8 : Vec F S512x9 .bf16) (x9 : Vec F S1x9 .f32) (x10 : Vec F S41x512 .bf16) (x11 : Vec F S1x512 .f32) (x12 : Vec F S512x512 .bf16) (x13 : Vec F S1x512 .f32) (x14 : Vec F S512x12 .bf16) (x15 : Vec F S1x12 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare (out0_16 x0 x2 x3 x4 x5 x6 x7)
          ∗ owns (c : Thread nD τ) arg18 fullShare (out0_17 x0 x2 x3 x4 x5 x8 x9)
          ∗ owns (c : Thread nD τ) arg19 fullShare (out0_18 x0 x1 x2 x3 x4 x5 x6 x7 x8 x9)
          ∗ owns (c : Thread nD τ) arg20 fullShare (out0_19 x0 x1 x2 x3 x4 x5 x6 x7 x8 x9 x10 x11 x12 x13 x14 x15)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
    exact whole_store (S := S2048x9) zeros2 _ _ _ _
  isplitl [H17]
  · iexists _; isplitr
    swap; · iexact H17
    ipureintro
    try dsimp only
    simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
    exact whole_store (S := S2048x9) zeros2 _ _ _ _
  isplitl [H18]
  · iexists _; isplitr
    swap; · iexact H18
    ipureintro
    try dsimp only
    simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
    exact whole_store (S := S2048x9) zeros2 _ _ _ _
  iexists _; isplitr
  swap; · iexact H19
  ipureintro
  try dsimp only
  simp only [whole_load (S := S2048x44) zeros2, whole_load (S := S2048x9) zeros2, whole_load (S := S44x512) zeros2, whole_load (S := S1x512) zeros2, whole_load (S := S512x512) zeros2, whole_load (S := S512x9) zeros2, whole_load (S := S1x9) zeros2, whole_load (S := S41x512) zeros2, whole_load (S := S512x12) zeros2, whole_load (S := S1x12) zeros2]
  exact whole_store (S := S2048x12) zeros2 _ _ _ _

end Cert.KernelIdeal.Hand

end
-- ==== Proof.KIFrame.lean ====
/-
  The frame certificate of KernelIdeal: the proof data of its one pipeline (each array as the region finds it; after the body
  at a grid point each input's staging buffer at its block and each output's at the data module's out0_W of the input
  blocks; nothing owed; full shares), the body obligation at a generic point from the body's triple, the frame run
  of the entry function around the region, and the frame claim at any float model: every argument array ends as launched.
-/
import proofs.«173347_j68530498175289_1_alg».proof.Proof.KIFrameHost
import proofs.«173347_j68530498175289_1_alg».proof.Proof.KIFrameBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 2 t) (iblk m c 3 t) (iblk m c 4 t) (iblk m c 5 t) (iblk m c 6 t) (iblk m c 7 t)
    | ⟨17, _⟩ => out0_17 (iblk m c 0 t) (iblk m c 2 t) (iblk m c 3 t) (iblk m c 4 t) (iblk m c 5 t) (iblk m c 8 t) (iblk m c 9 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 20, h⟩ => absurd h (Nat.not_lt.2 (Nat.le_add_left _ _))
  Φ _ := Pipeline.ΦA spec0 c
  q _ := fullShare
  owed _ := 0

/-- The proof data's arrays are the region-entry contents (the definition projected; the fold over the host lines is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 2 t) (iblk m c 3 t) (iblk m c 4 t) (iblk m c 5 t) (iblk m c 6 t) (iblk m c 7 t) := by dsimp only [dats]
theorem after0_17 (c : Dev nD) (t : Fin cfg0.N) : (dats m 0 c).after 17 t = out0_17 (iblk m c 0 t) (iblk m c 2 t) (iblk m c 3 t) (iblk m c 4 t) (iblk m c 5 t) (iblk m c 8 t) (iblk m c 9 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the entry
    function on the TensorCores terminates, and every final state has every array of the pipeline at what the library
    computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.Spec.lean ====
/-
  The network both programs compute, one row at a time, on the extended reals.

  A row is a vector `x` of 44 numbers (a one-hot code of 5, 15 state numbers, 12 + 12 gathered predicates) with a
  noise vector `e` of 9.  A dense layer sends a vector `v` to `(∑ k, v k * W h k) + b h`; the rectifier is the
  maximum with the zero word.  The encoder is two rectified dense layers followed by two dense heads, the means and
  the log-variances; the latent is `e * exp (½ · logvar) + mean`; the decoder input puts the latent after the
  one-hot code and keeps the state and the first twelve predicates; the decoder is two rectified dense layers and a
  dense layer under the logistic function.  Both programs apply exactly this to every row, so no law of the extended
  reals beyond the definitions is needed to compare them.
-/
import Idealize.ShloMosaic.PureOps.Ideal
import Idealize.ShloMosaic.Lib.ValueIdx

noncomputable section

namespace Cert.Spec

open Idealize.ShloMosaic Idealize.ShloMosaic.ValueIdx

/-- A matrix of extended reals of literal extents. -/
abbrev Mat (a b : ℕ) : Type := (⟨2, ![a, b]⟩ : Shape).Idx → EReal
/-- A vector of extended reals of a literal extent. -/
abbrev Vect (a : ℕ) : Type := (⟨1, ![a]⟩ : Shape).Idx → EReal
/-- A stack of matrices of literal extents. -/
abbrev Ten (a b c : ℕ) : Type := (⟨3, ![a, b, c]⟩ : Shape).Idx → EReal

/-- The zero word, the one-half word and the one word, as the programs spell them. -/
def zeroLit : EReal := Ideal.ofBits .f32 0x00000000#32
def halfLit : EReal := Ideal.ofBits .f32 0x3F000000#32

/-- A dense layer at output `h`: the weighted sum of the input against row `h` of the weights, plus the bias. -/
def dense {K H : ℕ} (v : Fin K → EReal) (W : Mat H K) (b : Vect H) (h : Fin H) : EReal :=
  (∑ k : Fin K, v k * W (ix2 h k)) + b (ix1 h)

/-- The rectifier. -/
def relu (v : EReal) : EReal := max v zeroLit

/-- The fourteen weight and bias arrays. -/
structure Params where
  W0 : Mat 512 44
  b0 : Vect 512
  W1 : Mat 512 512
  b1 : Vect 512
  Wm : Mat 9 512
  bm : Vect 9
  Wv : Mat 9 512
  bv : Vect 9
  D0 : Mat 512 41
  c0 : Vect 512
  D1 : Mat 512 512
  c1 : Vect 512
  D2 : Mat 12 512
  c2 : Vect 12

variable (P : Params)

/-- The encoder's first and second hidden layers. -/
def h1 (x : Fin 44 → EReal) (h : Fin 512) : EReal := relu (dense x P.W0 P.b0 h)
def h2 (x : Fin 44 → EReal) (h : Fin 512) : EReal := relu (dense (h1 P x) P.W1 P.b1 h)
/-- The two heads. -/
def means (x : Fin 44 → EReal) (l : Fin 9) : EReal := dense (h2 P x) P.Wm P.bm l
def logvar (x : Fin 44 → EReal) (l : Fin 9) : EReal := dense (h2 P x) P.Wv P.bv l
/-- The sampled latent. -/
def latent (x : Fin 44 → EReal) (e : Fin 9 → EReal) (l : Fin 9) : EReal :=
  e l * Ideal.exp (halfLit * logvar P x l) + means P x l

/-- The decoder's input: the one-hot code, the latent, then columns 5 … 31 of the row. -/
def dcat (x : Fin 44 → EReal) (z : Fin 9 → EReal) (i : Fin 41) : EReal :=
  if h0 : i.val < 5 then x ⟨i.val, by omega⟩
  else if h1 : i.val < 14 then z ⟨i.val - 5, by omega⟩
  else x ⟨i.val - 9, by have := i.isLt; omega⟩

/-- The decoder's hidden layers and its output. -/
def g1 (x : Fin 44 → EReal) (e : Fin 9 → EReal) (h : Fin 512) : EReal :=
  relu (dense (dcat x (latent P x e)) P.D0 P.c0 h)
def g2 (x : Fin 44 → EReal) (e : Fin 9 → EReal) (h : Fin 512) : EReal :=
  relu (dense (g1 P x e) P.D1 P.c1 h)
def recon (x : Fin 44 → EReal) (e : Fin 9 → EReal) (l : Fin 12) : EReal :=
  Ideal.logistic (dense (g2 P x e) P.D2 P.c2 l)

end Cert.Spec

end
-- ==== Proof.LibConcat4.lean ====
/-
  Layout operations of two-dimensional arrays read at an index, for any extents:
  * four arrays stacked along the rows (axis 0), or side by side along the columns (axis 1), read at (r, c): the
    piece whose span holds the coordinate, at the coordinate less the extents of the pieces before it;
  * a vector [n] broadcast first to one row [1, n] and then down the rows to [a, n], read at (p, q): the vector at q;
  * a scalar broadcast to any shape, read anywhere: the scalar.
-/
import Idealize.ShloMosaic.Lib.Pipeline.Value
import Idealize.ShloMosaic.Lib.ValueIdx

namespace Cert.LibConcat4

open Idealize.ShloMosaic Idealize.ShloMosaic.ValueIdx

variable {α : Type}

/-- Four arrays of one width stacked along the ROWS, read at row `r`: the first whose rows reach `r`, at `r` less the
    rows of the arrays above it. -/
theorem concatenate4_rows_apply {n0 n1 n2 n3 N w : ℕ}
    (x0 : (⟨2, ![n0, w]⟩ : Shape).Idx → α) (x1 : (⟨2, ![n1, w]⟩ : Shape).Idx → α)
    (x2 : (⟨2, ![n2, w]⟩ : Shape).Idx → α) (x3 : (⟨2, ![n3, w]⟩ : Shape).Idx → α)
    (h : Shape.Concatenates [⟨2, ![n0, w]⟩, ⟨2, ![n1, w]⟩, ⟨2, ![n2, w]⟩, ⟨2, ![n3, w]⟩] ⟨2, ![N, w]⟩ 0)
    (hN : n0 + n1 + n2 + n3 = N) (r : Fin N) (i : Fin w) :
    concatenate ⟨2, ![N, w]⟩ 0
        [⟨⟨2, ![n0, w]⟩, x0⟩, ⟨⟨2, ![n1, w]⟩, x1⟩, ⟨⟨2, ![n2, w]⟩, x2⟩, ⟨⟨2, ![n3, w]⟩, x3⟩] h (ix2 r i)
      = if h0 : r.val < n0 then x0 (ix2 ⟨r.val, h0⟩ i)
        else if h1 : r.val < n0 + n1 then x1 (ix2 ⟨r.val - n0, by omega⟩ i)
        else if h2 : r.val < n0 + n1 + n2 then x2 (ix2 ⟨r.val - (n0 + n1), by omega⟩ i)
        else x3 (ix2 ⟨r.val - (n0 + n1 + n2), by have := r.isLt; omega⟩ i) := by
  have hoff : ∀ (s : ℕ) (q : Fin s), ∀ b : Fin 2, Fin.cast (rfl : 2 = 2) b ≠ (0 : Fin 2) →
      ((ix2 q i : (⟨2, ![s, w]⟩ : Shape).Idx) b).val = ((ix2 r i : (⟨2, ![N, w]⟩ : Shape).Idx) (Fin.cast rfl b)).val :=
    fun s q b hb => by
      match b with
      | ⟨0, _⟩ => exact absurd rfl hb
      | ⟨1, _⟩ => rfl
  have key := concatenate_apply_piece (t := ⟨2, ![N, w]⟩) (0 : Fin 2)
    [⟨⟨2, ![n0, w]⟩, x0⟩, ⟨⟨2, ![n1, w]⟩, x1⟩, ⟨⟨2, ![n2, w]⟩, x2⟩, ⟨⟨2, ![n3, w]⟩, x3⟩] h (ix2 r i)
  by_cases h0 : r.val < n0
  · rw [dif_pos h0]
    exact key 0 (by show (0 : ℕ) < 4; omega) ⟨2, ![n0, w]⟩ x0 rfl rfl 0 rfl
      (ix2 ⟨r.val, h0⟩ i) (hoff n0 _) (by show 0 + r.val = r.val; omega)
  rw [dif_neg h0]
  by_cases h1 : r.val < n0 + n1
  · rw [dif_pos h1]
    exact key 1 (by show (1 : ℕ) < 4; omega) ⟨2, ![n1, w]⟩ x1 rfl rfl n0
      (by show n0 + 0 = n0; omega) (ix2 ⟨r.val - n0, by omega⟩ i) (hoff n1 _)
      (by show n0 + (r.val - n0) = r.val; omega)
  rw [dif_neg h1]
  by_cases h2 : r.val < n0 + n1 + n2
  · rw [dif_pos h2]
    exact key 2 (by show (2 : ℕ) < 4; omega) ⟨2, ![n2, w]⟩ x2 rfl rfl (n0 + n1)
      (by show n0 + (n1 + 0) = n0 + n1; omega) (ix2 ⟨r.val - (n0 + n1), by omega⟩ i) (hoff n2 _)
      (by show n0 + n1 + (r.val - (n0 + n1)) = r.val; omega)
  rw [dif_neg h2]
  exact key 3 (by show (3 : ℕ) < 4; omega) ⟨2, ![n3, w]⟩ x3 rfl rfl (n0 + n1 + n2)
    (by show n0 + (n1 + (n2 + 0)) = n0 + n1 + n2; omega)
    (ix2 ⟨r.val - (n0 + n1 + n2), by have := r.isLt; omega⟩ i) (hoff n3 _)
    (by show n0 + n1 + n2 + (r.val - (n0 + n1 + n2)) = r.val; omega)

/-- Four arrays of one height put side by side along the COLUMNS, read at column `c`: the first whose columns reach
    `c`, at `c` less the columns of the arrays to its left. -/
theorem concatenate4_cols_apply {n0 n1 n2 n3 N a : ℕ}
    (x0 : (⟨2, ![a, n0]⟩ : Shape).Idx → α) (x1 : (⟨2, ![a, n1]⟩ : Shape).Idx → α)
    (x2 : (⟨2, ![a, n2]⟩ : Shape).Idx → α) (x3 : (⟨2, ![a, n3]⟩ : Shape).Idx → α)
    (h : Shape.Concatenates [⟨2, ![a, n0]⟩, ⟨2, ![a, n1]⟩, ⟨2, ![a, n2]⟩, ⟨2, ![a, n3]⟩] ⟨2, ![a, N]⟩ 1)
    (hN : n0 + n1 + n2 + n3 = N) (o : Fin a) (c : Fin N) :
    concatenate ⟨2, ![a, N]⟩ 1
        [⟨⟨2, ![a, n0]⟩, x0⟩, ⟨⟨2, ![a, n1]⟩, x1⟩, ⟨⟨2, ![a, n2]⟩, x2⟩, ⟨⟨2, ![a, n3]⟩, x3⟩] h (ix2 o c)
      = if h0 : c.val < n0 then x0 (ix2 o ⟨c.val, h0⟩)
        else if h1 : c.val < n0 + n1 then x1 (ix2 o ⟨c.val - n0, by omega⟩)
        else if h2 : c.val < n0 + n1 + n2 then x2 (ix2 o ⟨c.val - (n0 + n1), by omega⟩)
        else x3 (ix2 o ⟨c.val - (n0 + n1 + n2), by have := c.isLt; omega⟩) := by
  have hoff : ∀ (s : ℕ) (q : Fin s), ∀ b : Fin 2, Fin.cast (rfl : 2 = 2) b ≠ (1 : Fin 2) →
      ((ix2 o q : (⟨2, ![a, s]⟩ : Shape).Idx) b).val = ((ix2 o c : (⟨2, ![a, N]⟩ : Shape).Idx) (Fin.cast rfl b)).val :=
    fun s q b hb => by
      match b with
      | ⟨0, _⟩ => rfl
      | ⟨1, _⟩ => exact absurd rfl hb
  have key := concatenate_apply_piece (t := ⟨2, ![a, N]⟩) (1 : Fin 2)
    [⟨⟨2, ![a, n0]⟩, x0⟩, ⟨⟨2, ![a, n1]⟩, x1⟩, ⟨⟨2, ![a, n2]⟩, x2⟩, ⟨⟨2, ![a, n3]⟩, x3⟩] h (ix2 o c)
  by_cases h0 : c.val < n0
  · rw [dif_pos h0]
    exact key 0 (by show (0 : ℕ) < 4; omega) ⟨2, ![a, n0]⟩ x0 rfl rfl 0 rfl
      (ix2 o ⟨c.val, h0⟩) (hoff n0 _) (by show 0 + c.val = c.val; omega)
  rw [dif_neg h0]
  by_cases h1 : c.val < n0 + n1
  · rw [dif_pos h1]
    exact key 1 (by show (1 : ℕ) < 4; omega) ⟨2, ![a, n1]⟩ x1 rfl rfl n0
      (by show n0 + 0 = n0; omega) (ix2 o ⟨c.val - n0, by omega⟩) (hoff n1 _)
      (by show n0 + (c.val - n0) = c.val; omega)
  rw [dif_neg h1]
  by_cases h2 : c.val < n0 + n1 + n2
  · rw [dif_pos h2]
    exact key 2 (by show (2 : ℕ) < 4; omega) ⟨2, ![a, n2]⟩ x2 rfl rfl (n0 + n1)
      (by show n0 + (n1 + 0) = n0 + n1; omega) (ix2 o ⟨c.val - (n0 + n1), by omega⟩) (hoff n2 _)
      (by show n0 + n1 + (c.val - (n0 + n1)) = c.val; omega)
  rw [dif_neg h2]
  exact key 3 (by show (3 : ℕ) < 4; omega) ⟨2, ![a, n3]⟩ x3 rfl rfl (n0 + n1 + n2)
    (by show n0 + (n1 + (n2 + 0)) = n0 + n1 + n2; omega)
    (ix2 o ⟨c.val - (n0 + n1 + n2), by have := c.isLt; omega⟩) (hoff n3 _)
    (by show n0 + n1 + n2 + (c.val - (n0 + n1 + n2)) = c.val; omega)

/-- A vector [n] broadcast to one row [1, n], then down the rows to [a, n], reads at (p, q) the vector at q. -/
theorem broadcastInDim_vec_rows_apply {n a : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (p : Fin a) (q : Fin n) :
    broadcastInDim ⟨2, ![a, n]⟩ ![0, 1] h2 (broadcastInDim ⟨2, ![1, n]⟩ ![1] h1 x) (ix2 p q) = x (ix1 q) := by
  have hq : ∀ z : ℕ, q.val = if n = 1 then 0 else q.val := fun _ => by
    by_cases hn : n = 1
    · rw [if_pos hn]; have := q.isLt; omega
    · rw [if_neg hn]
  refine (broadcastInDim_apply _ h2 _ (ix2 p q) (ix2 (0 : Fin 1) q) (fun b => ?_)).trans
    (broadcastInDim_apply _ h1 x (ix2 (0 : Fin 1) q) (ix1 q) (fun b => ?_))
  · match b with
    | ⟨0, _⟩ => show 0 = if (1 : ℕ) = 1 then 0 else p.val; rw [if_pos rfl]
    | ⟨1, _⟩ => exact hq 0
  · match b with
    | ⟨0, _⟩ => exact hq 0

/-- A scalar broadcast to any shape reads, at every index, the scalar. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun b => b.elim0)

end Cert.LibConcat4
-- ==== Proof.KIBlock.lean ====
/-
  The body's four stored values, read at one row `p` of the block, are the row network (`Cert.Spec`) applied to row
  `p` of the input block and of the noise block, once the weight blocks are known to be the transposed weight
  matrices and the bias blocks the bias vectors.  Each matrix product into a zero accumulator is a sum over its one
  contracted axis, a change of float format is the identity on the extended reals, a row vector broadcast down the
  rows reads its one row, and the four-piece concatenation reads the piece that holds the column.
-/
import proofs.«173347_j68530498175289_1_alg».proof.Proof.KIData
import proofs.«173347_j68530498175289_1_alg».proof.Proof.Spec
import proofs.«173347_j68530498175289_1_alg».proof.Proof.LibConcat4
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen Cert.KernelIdeal.Hand Cert.Spec

/-- A matrix product into a zero accumulator, read at (p, n): the sum over the one contracted axis. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hL : ∀ (j : (⟨2, ![M, N]⟩ : Shape).Idx) (q : D.contr.Idx), D.lhsIdx j q = ix2 (j 0) ((q ⟨0, by omega⟩).cast hs))
    (hR : ∀ (j : (⟨2, ![M, N]⟩ : Shape).Idx) (q : D.contr.Idx), D.rhsIdx j q = ix2 ((q ⟨0, by omega⟩).cast hs) (j 1))
    (prec : Option ContractPrecision)
    (A : FVec Ideal ⟨2, ![M, K]⟩ φ₁) (B : FVec Ideal ⟨2, ![K, N]⟩ φ₂) (p : Fin M) (n : Fin N) :
    matmul D prec A B (constant ⟨2, ![M, N]⟩ .f32 0x00000000#32) (ix2 p n)
      = ∑ k : Fin K, A (ix2 p k) * B (ix2 k n) := by
  show FloatOps.matmul D prec A B (constant ⟨2, ![M, N]⟩ .f32 0x00000000#32) (ix2 p n) = _
  rw [Ideal.matmul_constant_zero_apply]
  exact (Finset.sum_congr rfl fun q _ => by rw [hL, hR]; rfl).trans
    (Equiv.sum_comp (contrEquiv1 D K hr hs) fun k => A (ix2 p k) * B (ix2 k n))

/-- A dense layer as the body spells it — the product of the row block, its format changed, with the transposed
    weights, plus the bias row broadcast down the rows — read at (p, n), is the dense layer of row `p`. -/
theorem layer_apply {M K N : ℕ} (D : DotDims ⟨2, ![M, K]⟩ ⟨2, ![K, N]⟩ ⟨2, ![M, N]⟩)
    (hr : D.contr.rank = 1) (hs : D.contr.size ⟨0, by omega⟩ = K)
    (hL : ∀ (j : (⟨2, ![M, N]⟩ : Shape).Idx) (q : D.contr.Idx), D.lhsIdx j q = ix2 (j 0) ((q ⟨0, by omega⟩).cast hs))
    (hR : ∀ (j : (⟨2, ![M, N]⟩ : Shape).Idx) (q : D.contr.Idx), D.rhsIdx j q = ix2 ((q ⟨0, by omega⟩).cast hs) (j 1))
    (A : FVec Ideal ⟨2, ![M, K]⟩ .f32) (Wt : FVec Ideal ⟨2, ![K, N]⟩ .bf16) (bias : FVec Ideal ⟨2, ![1, N]⟩ .f32)
    (hlt : FTy.bf16.bits < FTy.f32.bits)
    (hc1 : (⟨2, ![K, N]⟩ : Shape).ShapeCasts ⟨2, ![K, N]⟩) (hc2 : (⟨2, ![1, N]⟩ : Shape).ShapeCasts ⟨2, ![1, N]⟩)
    (hb : (⟨2, ![1, N]⟩ : Shape).Broadcasts ⟨2, ![M, N]⟩)
    (v : Fin K → EReal) (W : Mat N K) (b : Vect N) (p : Fin M)
    (hA : ∀ k, A (ix2 p k) = v k) (hW : ∀ k n, Wt (ix2 k n) = W (ix2 n k)) (hbias : ∀ n, bias (ix2 (0 : Fin 1) n) = b (ix1 n))
    (n : Fin N) :
    addf (matmul D none (truncf .bf16 A hlt) (shapeCast ⟨2, ![K, N]⟩ Wt hc1) (constant ⟨2, ![M, N]⟩ .f32 0x00000000#32))
        (broadcastTo ⟨2, ![M, N]⟩ (shapeCast ⟨2, ![1, N]⟩ bias hc2) hb) (ix2 p n)
      = dense v W b n := by
  show matmul D none (truncf .bf16 A hlt) (shapeCast ⟨2, ![K, N]⟩ Wt hc1) (constant ⟨2, ![M, N]⟩ .f32 0x00000000#32) (ix2 p n)
      + broadcastTo ⟨2, ![M, N]⟩ (shapeCast ⟨2, ![1, N]⟩ bias hc2) hb (ix2 p n) = _
  rw [matmul2_apply D hr hs hL hR, broadcastTo_1b_ab_apply, shapeCast_self, shapeCast_self, hbias]
  unfold dense
  refine congrArg (· + b (ix1 n)) (Finset.sum_congr rfl fun k _ => ?_)
  rw [← hA k, ← hW k n]
  rfl

/-- The same layer under the rectifier. -/
theorem rlayer_apply {M K N : ℕ} (D : DotDims ⟨2, ![M, K]⟩ ⟨2, ![K, N]⟩ ⟨2, ![M, N]⟩)
    (hr : D.contr.rank = 1) (hs : D.contr.size ⟨0, by omega⟩ = K)
    (hL : ∀ (j : (⟨2, ![M, N]⟩ : Shape).Idx) (q : D.contr.Idx), D.lhsIdx j q = ix2 (j 0) ((q ⟨0, by omega⟩).cast hs))
    (hR : ∀ (j : (⟨2, ![M, N]⟩ : Shape).Idx) (q : D.contr.Idx), D.rhsIdx j q = ix2 ((q ⟨0, by omega⟩).cast hs) (j 1))
    (A : FVec Ideal ⟨2, ![M, K]⟩ .f32) (Wt : FVec Ideal ⟨2, ![K, N]⟩ .bf16) (bias : FVec Ideal ⟨2, ![1, N]⟩ .f32)
    (hlt : FTy.bf16.bits < FTy.f32.bits)
    (hc1 : (⟨2, ![K, N]⟩ : Shape).ShapeCasts ⟨2, ![K, N]⟩) (hc2 : (⟨2, ![1, N]⟩ : Shape).ShapeCasts ⟨2, ![1, N]⟩)
    (hb : (⟨2, ![1, N]⟩ : Shape).Broadcasts ⟨2, ![M, N]⟩)
    (v : Fin K → EReal) (W : Mat N K) (b : Vect N) (p : Fin M)
    (hA : ∀ k, A (ix2 p k) = v k) (hW : ∀ k n, Wt (ix2 k n) = W (ix2 n k)) (hbias : ∀ n, bias (ix2 (0 : Fin 1) n) = b (ix1 n))
    (n : Fin N) :
    maximumf (addf (matmul D none (truncf .bf16 A hlt) (shapeCast ⟨2, ![K, N]⟩ Wt hc1) (constant ⟨2, ![M, N]⟩ .f32 0x00000000#32))
        (broadcastTo ⟨2, ![M, N]⟩ (shapeCast ⟨2, ![1, N]⟩ bias hc2) hb))
      (broadcast ⟨2, ![M, N]⟩ (FloatOps.ofBits (F := Ideal) .f32 0x00000000#32)) (ix2 p n)
      = relu (dense v W b n) :=
  congrArg (fun t => max t zeroLit) (layer_apply D hr hs hL hR A Wt bias hlt hc1 hc2 hb v W b p hA hW hbias n)

/-- The weight blocks are the transposed weight matrices and the bias blocks the bias vectors. -/
structure BlockIs (P : Params) (x2 : Vec Ideal S44x512 .bf16) (x3 : Vec Ideal S1x512 .f32) (x4 : Vec Ideal S512x512 .bf16)
    (x5 : Vec Ideal S1x512 .f32) (x6 : Vec Ideal S512x9 .bf16) (x7 : Vec Ideal S1x9 .f32) (x8 : Vec Ideal S512x9 .bf16)
    (x9 : Vec Ideal S1x9 .f32) (x10 : Vec Ideal S41x512 .bf16) (x11 : Vec Ideal S1x512 .f32) (x12 : Vec Ideal S512x512 .bf16)
    (x13 : Vec Ideal S1x512 .f32) (x14 : Vec Ideal S512x12 .bf16) (x15 : Vec Ideal S1x12 .f32) : Prop where
  W0 : ∀ (k : Fin 44) (h : Fin 512), x2 (ix2 k h) = P.W0 (ix2 h k)
  b0 : ∀ h : Fin 512, x3 (ix2 (0 : Fin 1) h) = P.b0 (ix1 h)
  W1 : ∀ (k : Fin 512) (h : Fin 512), x4 (ix2 k h) = P.W1 (ix2 h k)
  b1 : ∀ h : Fin 512, x5 (ix2 (0 : Fin 1) h) = P.b1 (ix1 h)
  Wm : ∀ (k : Fin 512) (l : Fin 9), x6 (ix2 k l) = P.Wm (ix2 l k)
  bm : ∀ l : Fin 9, x7 (ix2 (0 : Fin 1) l) = P.bm (ix1 l)
  Wv : ∀ (k : Fin 512) (l : Fin 9), x8 (ix2 k l) = P.Wv (ix2 l k)
  bv : ∀ l : Fin 9, x9 (ix2 (0 : Fin 1) l) = P.bv (ix1 l)
  D0 : ∀ (k : Fin 41) (h : Fin 512), x10 (ix2 k h) = P.D0 (ix2 h k)
  c0 : ∀ h : Fin 512, x11 (ix2 (0 : Fin 1) h) = P.c0 (ix1 h)
  D1 : ∀ (k : Fin 512) (h : Fin 512), x12 (ix2 k h) = P.D1 (ix2 h k)
  c1 : ∀ h : Fin 512, x13 (ix2 (0 : Fin 1) h) = P.c1 (ix1 h)
  D2 : ∀ (k : Fin 512) (l : Fin 12), x14 (ix2 k l) = P.D2 (ix2 l k)
  c2 : ∀ l : Fin 12, x15 (ix2 (0 : Fin 1) l) = P.c2 (ix1 l)

section Row

variable {P : Params} {x0 : Vec Ideal S2048x44 .f32} {x1 : Vec Ideal S2048x9 .f32}
  {x2 : Vec Ideal S44x512 .bf16} {x3 : Vec Ideal S1x512 .f32} {x4 : Vec Ideal S512x512 .bf16}
  {x5 : Vec Ideal S1x512 .f32} {x6 : Vec Ideal S512x9 .bf16} {x7 : Vec Ideal S1x9 .f32} {x8 : Vec Ideal S512x9 .bf16}
  {x9 : Vec Ideal S1x9 .f32} {x10 : Vec Ideal S41x512 .bf16} {x11 : Vec Ideal S1x512 .f32} {x12 : Vec Ideal S512x512 .bf16}
  {x13 : Vec Ideal S1x512 .f32} {x14 : Vec Ideal S512x12 .bf16} {x15 : Vec Ideal S1x12 .f32}
  (hB : BlockIs P x2 x3 x4 x5 x6 x7 x8 x9 x10 x11 x12 x13 x14 x15)
  {p : Fin 2048} {x : Fin 44 → EReal} {e : Fin 9 → EReal}
  (hx : ∀ k : Fin 44, x0 (ix2 p k) = x k) (he : ∀ l : Fin 9, x1 (ix2 p l) = e l)

include hB hx in
/-- The hidden layer the two heads share. -/
theorem hid_apply (h : Fin 512) : k0_pay3 (F := Ideal) x0 x2 x3 x4 x5 (ix2 p h) = h2 P x h := by
  unfold k0_pay3 k0_pay2
  dsimp only
  exact rlayer_apply dot_S2048x512_S512x512_S2048x512_1_0_0_1_n_n rfl rfl
    (fun j q => funext fun a => match a with | ⟨0, _⟩ => rfl | ⟨1, _⟩ => rfl)
    (fun j q => funext fun a => match a with | ⟨0, _⟩ => rfl | ⟨1, _⟩ => rfl)
    _ x4 x5 _ _ _ _ (h1 P x) P.W1 P.b1 p
    (fun k => rlayer_apply dot_S2048x44_S44x512_S2048x512_1_0_0_1_n_n rfl rfl
      (fun j q => funext fun a => match a with | ⟨0, _⟩ => rfl | ⟨1, _⟩ => rfl)
      (fun j q => funext fun a => match a with | ⟨0, _⟩ => rfl | ⟨1, _⟩ => rfl)
      _ x2 x3 _ _ _ _ x P.W0 P.b0 p (fun k => by rw [shapeCast_self]; exact hx k) hB.W0 hB.b0 k)
    hB.W1 hB.b1 h

include hB hx in
/-- Window 16: the means. -/
theorem out16_apply (l : Fin 9) : out0_16 (F := Ideal) x0 x2 x3 x4 x5 x6 x7 (ix2 p l) = means P x l := by
  unfold out0_16 k0_pay4
  exact layer_apply dot_S2048x512_S512x9_S2048x9_1_0_0_1_n_n rfl rfl
    (fun j q => funext fun a => match a with | ⟨0, _⟩ => rfl | ⟨1, _⟩ => rfl)
    (fun j q => funext fun a => match a with | ⟨0, _⟩ => rfl | ⟨1, _⟩ => rfl)
    _ x6 x7 _ _ _ _ (h2 P x) P.Wm P.bm p (fun k => hid_apply hB hx k) hB.Wm hB.bm l

include hB hx in
/-- Window 17: the log-variances. -/
theorem out17_apply (l : Fin 9) : out0_17 (F := Ideal) x0 x2 x3 x4 x5 x8 x9 (ix2 p l) = logvar P x l := by
  unfold out0_17 k0_pay6 k0_pay5
  exact layer_apply dot_S2048x512_S512x9_S2048x9_1_0_0_1_n_n rfl rfl
    (fun j q => funext fun a => match a with | ⟨0, _⟩ => rfl | ⟨1, _⟩ => rfl)
    (fun j q => funext fun a => match a with | ⟨0, _⟩ => rfl | ⟨1, _⟩ => rfl)
    _ x8 x9 _ _ _ _ (h2 P x) P.Wv P.bv p (fun k => hid_apply hB hx k) hB.Wv hB.bv l

include hB hx he in
/-- Window 18: the sampled latent. -/
theorem out18_apply (l : Fin 9) :
    out0_18 (F := Ideal) x0 x1 x2 x3 x4 x5 x6 x7 x8 x9 (ix2 p l) = latent P x e l := by
  have h17 := out17_apply hB hx l
  have h16 := out16_apply hB hx l
  unfold out0_17 at h17
  unfold out0_16 at h16
  unfold out0_18 k0_pay7
  show shapeCast S2048x9 x1 shapeCasts_S2048x9_S2048x9 (ix2 p l)
      * Ideal.exp (halfLit * k0_pay6 (k0_pay5 x0 x2 x3 x4 x5 x8) x9 (ix2 p l))
      + k0_pay4 x0 x2 x3 x4 x5 x6 x7 (ix2 p l) = _
  rw [shapeCast_self, he, h17, h16]
  rfl

include hB hx he in
/-- The decoder's input block at row `p`: the one-hot code, the latent, then columns 5 … 31 of the row. -/
theorem dec_in_apply (i : Fin 41) :
    concatenate S2048x41 1
        [⟨S2048x5, extractStridedSlice S2048x5 ![0, 0] (k0_pay2 (F := Ideal) x0) slices_S2048x44_o0_0_S2048x5⟩,
          ⟨S2048x9, k0_pay7 (k0_pay4 x0 x2 x3 x4 x5 x6 x7) (k0_pay5 x0 x2 x3 x4 x5 x8) x9 x1⟩,
          ⟨S2048x15, extractStridedSlice S2048x15 ![0, 5] (k0_pay2 (F := Ideal) x0) slices_S2048x44_o0_5_S2048x15⟩,
          ⟨S2048x12, extractStridedSlice S2048x12 ![0, 20] (k0_pay2 (F := Ideal) x0) slices_S2048x44_o0_20_S2048x12⟩]
        concatenates_S2048x5_S2048x9_S2048x15_S2048x12_S2048x41_d1 (ix2 p i)
      = dcat x (latent P x e) i := by
  have hrow : ∀ k : Fin 44, k0_pay2 (F := Ideal) x0 (ix2 p k) = x k := fun k => by
    unfold k0_pay2
    show shapeCast S2048x44 x0 shapeCasts_S2048x44_S2048x44 (ix2 p k) = _
    rw [shapeCast_self]; exact hx k
  have h18 := fun l => out18_apply hB hx he l
  unfold out0_18 at h18
  refine (LibConcat4.concatenate4_cols_apply (n0 := 5) (n1 := 9) (n2 := 15) (n3 := 12) (N := 41) (a := 2048)
    _ _ _ _ concatenates_S2048x5_S2048x9_S2048x15_S2048x12_S2048x41_d1 rfl p i).trans ?_
  unfold dcat
  by_cases h0 : i.val < 5
  · rw [dif_pos h0, dif_pos h0, slice2_axis1_apply 0 _ _ p ⟨i.val, h0⟩ ⟨i.val, by omega⟩ (by simp)]
    exact hrow _
  rw [dif_neg h0, dif_neg h0]
  by_cases h1 : i.val < 5 + 9
  · rw [dif_pos h1, dif_pos (show i.val < 14 by omega)]
    exact h18 _
  rw [dif_neg h1, dif_neg (show ¬ i.val < 14 by omega)]
  by_cases h2 : i.val < 5 + 9 + 15
  · rw [dif_pos h2, slice2_axis1_apply 5 _ _ p ⟨i.val - (5 + 9), by omega⟩ ⟨i.val - 9, by omega⟩ (by show i.val - 9 = 5 + (i.val - (5 + 9)); omega)]
    exact hrow _
  · rw [dif_neg h2, slice2_axis1_apply 20 _ _ p ⟨i.val - (5 + 9 + 15), by have := i.isLt; omega⟩ ⟨i.val - 9, by have := i.isLt; omega⟩
      (by show i.val - 9 = 20 + (i.val - (5 + 9 + 15)); have := i.isLt; omega)]
    exact hrow _

include hB hx he in
/-- The decoder's second dense layer, before its rectifier. -/
theorem dec2_apply (h : Fin 512) :
    k0_pay8 (F := Ideal) (k0_pay2 x0) (k0_pay4 x0 x2 x3 x4 x5 x6 x7) (k0_pay5 x0 x2 x3 x4 x5 x8) x9 x1 x10 x11 x12 x13 (ix2 p h)
      = dense (g1 P x e) P.D1 P.c1 h := by
  unfold k0_pay8
  exact layer_apply dot_S2048x512_S512x512_S2048x512_1_0_0_1_n_n rfl rfl
    (fun j q => funext fun a => match a with | ⟨0, _⟩ => rfl | ⟨1, _⟩ => rfl)
    (fun j q => funext fun a => match a with | ⟨0, _⟩ => rfl | ⟨1, _⟩ => rfl)
    _ x12 x13 _ _ _ _ (g1 P x e) P.D1 P.c1 p
    (fun k => rlayer_apply dot_S2048x41_S41x512_S2048x512_1_0_0_1_n_n rfl rfl
      (fun j q => funext fun a => match a with | ⟨0, _⟩ => rfl | ⟨1, _⟩ => rfl)
    (fun j q => funext fun a => match a with | ⟨0, _⟩ => rfl | ⟨1, _⟩ => rfl)
      _ x10 x11 _ _ _ _ (dcat x (latent P x e)) P.D0 P.c0 p (fun i => dec_in_apply hB hx he i) hB.D0 hB.c0 k)
    hB.D1 hB.c1 h

include hB hx he in
/-- Window 19: the decoder's output under the logistic function. -/
theorem out19_apply (l : Fin 12) :
    out0_19 (F := Ideal) x0 x1 x2 x3 x4 x5 x6 x7 x8 x9 x10 x11 x12 x13 x14 x15 (ix2 p l) = recon P x e l := by
  unfold out0_19 k0_pay1 recon
  show Ideal.logistic _ = Ideal.logistic _
  refine congrArg Ideal.logistic ?_
  exact layer_apply dot_S2048x512_S512x12_S2048x12_1_0_0_1_n_n rfl rfl
    (fun j q => funext fun a => match a with | ⟨0, _⟩ => rfl | ⟨1, _⟩ => rfl)
    (fun j q => funext fun a => match a with | ⟨0, _⟩ => rfl | ⟨1, _⟩ => rfl)
    _ x14 x15 _ _ _ _ (g2 P x e) P.D2 P.c2 p
    (fun k => by
      show max (k0_pay8 (F := Ideal) (k0_pay2 x0) (k0_pay4 x0 x2 x3 x4 x5 x6 x7) (k0_pay5 x0 x2 x3 x4 x5 x8) x9 x1 x10 x11 x12 x13 (ix2 p k)) zeroLit = _
      rw [dec2_apply hB hx he k]; rfl)
    hB.D2 hB.c2 l

end Row

end Cert.KernelIdeal.HandValue

end
-- ==== Proof.KIRead.lean ====
/-
  Where each window's block sits in its array.  The grid has 80 points; at point `t` the row block (window 0), the
  noise block (window 1) and the four output blocks (windows 16 … 19) are rows `t * 2048 … t * 2048 + 2047` of their
  arrays, and every weight and bias window (2 … 15) is its whole array at every point.  The index maps are decided
  over the grid once; an element of a block is then read off the array at block index times block size plus the
  coordinate inside the block.
-/
import proofs.«173347_j68530498175289_1_alg».proof.Proof.KIData
import Idealize.ShloMosaic.Lib.ValueIdx
import Idealize.ShloMosaic.Lib.Pipeline.Value

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

variable {F : FTy → Type} [FloatOps F]
variable (m : (ℓ : Loc nD τ sig) → Buf (Elt F) ℓ)

/-! ## The index maps over the grid -/

theorem idx_moving0 : ∀ t : Fin cfg0.N, win0_0.index t (0 : Fin 2) = t.val ∧ win0_0.index t (1 : Fin 2) = 0 :=
  (by decide +kernel : ∀ t : Fin grid0.N, _)
theorem idx_moving1 : ∀ t : Fin cfg0.N, win0_1.index t (0 : Fin 2) = t.val ∧ win0_1.index t (1 : Fin 2) = 0 :=
  (by decide +kernel : ∀ t : Fin grid0.N, _)
theorem idx_fixed2 : ∀ t : Fin cfg0.N, win0_2.index t (0 : Fin 2) = 0 ∧ win0_2.index t (1 : Fin 2) = 0 :=
  (by decide +kernel : ∀ t : Fin grid0.N, _)
theorem idx_fixed3 : ∀ t : Fin cfg0.N, win0_3.index t (0 : Fin 2) = 0 ∧ win0_3.index t (1 : Fin 2) = 0 :=
  (by decide +kernel : ∀ t : Fin grid0.N, _)
theorem idx_fixed4 : ∀ t : Fin cfg0.N, win0_4.index t (0 : Fin 2) = 0 ∧ win0_4.index t (1 : Fin 2) = 0 :=
  (by decide +kernel : ∀ t : Fin grid0.N, _)
theorem idx_fixed5 : ∀ t : Fin cfg0.N, win0_5.index t (0 : Fin 2) = 0 ∧ win0_5.index t (1 : Fin 2) = 0 :=
  (by decide +kernel : ∀ t : Fin grid0.N, _)
theorem idx_fixed6 : ∀ t : Fin cfg0.N, win0_6.index t (0 : Fin 2) = 0 ∧ win0_6.index t (1 : Fin 2) = 0 :=
  (by decide +kernel : ∀ t : Fin grid0.N, _)
theorem idx_fixed7 : ∀ t : Fin cfg0.N, win0_7.index t (0 : Fin 2) = 0 ∧ win0_7.index t (1 : Fin 2) = 0 :=
  (by decide +kernel : ∀ t : Fin grid0.N, _)
theorem idx_fixed8 : ∀ t : Fin cfg0.N, win0_8.index t (0 : Fin 2) = 0 ∧ win0_8.index t (1 : Fin 2) = 0 :=
  (by decide +kernel : ∀ t : Fin grid0.N, _)
theorem idx_fixed9 : ∀ t : Fin cfg0.N, win0_9.index t (0 : Fin 2) = 0 ∧ win0_9.index t (1 : Fin 2) = 0 :=
  (by decide +kernel : ∀ t : Fin grid0.N, _)
theorem idx_fixed10 : ∀ t : Fin cfg0.N, win0_10.index t (0 : Fin 2) = 0 ∧ win0_10.index t (1 : Fin 2) = 0 :=
  (by decide +kernel : ∀ t : Fin grid0.N, _)
theorem idx_fixed11 : ∀ t : Fin cfg0.N, win0_11.index t (0 : Fin 2) = 0 ∧ win0_11.index t (1 : Fin 2) = 0 :=
  (by decide +kernel : ∀ t : Fin grid0.N, _)
theorem idx_fixed12 : ∀ t : Fin cfg0.N, win0_12.index t (0 : Fin 2) = 0 ∧ win0_12.index t (1 : Fin 2) = 0 :=
  (by decide +kernel : ∀ t : Fin grid0.N, _)
theorem idx_fixed13 : ∀ t : Fin cfg0.N, win0_13.index t (0 : Fin 2) = 0 ∧ win0_13.index t (1 : Fin 2) = 0 :=
  (by decide +kernel : ∀ t : Fin grid0.N, _)
theorem idx_fixed14 : ∀ t : Fin cfg0.N, win0_14.index t (0 : Fin 2) = 0 ∧ win0_14.index t (1 : Fin 2) = 0 :=
  (by decide +kernel : ∀ t : Fin grid0.N, _)
theorem idx_fixed15 : ∀ t : Fin cfg0.N, win0_15.index t (0 : Fin 2) = 0 ∧ win0_15.index t (1 : Fin 2) = 0 :=
  (by decide +kernel : ∀ t : Fin grid0.N, _)
theorem idx_moving16 : ∀ t : Fin cfg0.N, win0_16.index t (0 : Fin 2) = t.val ∧ win0_16.index t (1 : Fin 2) = 0 :=
  (by decide +kernel : ∀ t : Fin grid0.N, _)
theorem idx_moving17 : ∀ t : Fin cfg0.N, win0_17.index t (0 : Fin 2) = t.val ∧ win0_17.index t (1 : Fin 2) = 0 :=
  (by decide +kernel : ∀ t : Fin grid0.N, _)
theorem idx_moving18 : ∀ t : Fin cfg0.N, win0_18.index t (0 : Fin 2) = t.val ∧ win0_18.index t (1 : Fin 2) = 0 :=
  (by decide +kernel : ∀ t : Fin grid0.N, _)
theorem idx_moving19 : ∀ t : Fin cfg0.N, win0_19.index t (0 : Fin 2) = t.val ∧ win0_19.index t (1 : Fin 2) = 0 :=
  (by decide +kernel : ∀ t : Fin grid0.N, _)

/-! ## An element of an input block, read off its array -/

/-- Row `p` of window 0's block at point `t` is row `t * 2048 + p` of its array. -/
theorem iblk0_apply (c : Dev nD) (t : Fin cfg0.N) (p : Fin 2048) (k : Fin 44) (r : Fin 163840) (hr : r.val = t.val * 2048 + p.val) :
    iblk m c 0 t (ix2 p k) = V m c main_v27 (ix2 r k) := by
  show V m c main_v27 (((cfg0.win 0).blk t).view.emb (ix2 p k)) = V m c main_v27 (ix2 r k)
  refine congrArg _ (funext fun a => Fin.ext ?_)
  obtain ⟨e0, e1⟩ := idx_moving0 t
  match a with
  | ⟨0, _⟩ => show win0_0.index t (0 : Fin 2) * 2048 + 1 * p.val = r.val; rw [e0, hr]; omega
  | ⟨1, _⟩ => show win0_0.index t (1 : Fin 2) * 44 + 1 * k.val = k.val; rw [e1]; omega

/-- Row `p` of window 1's block at point `t` is row `t * 2048 + p` of its array. -/
theorem iblk1_apply (c : Dev nD) (t : Fin cfg0.N) (p : Fin 2048) (k : Fin 9) (r : Fin 163840) (hr : r.val = t.val * 2048 + p.val) :
    iblk m c 1 t (ix2 p k) = V m c main_v28 (ix2 r k) := by
  show V m c main_v28 (((cfg0.win 1).blk t).view.emb (ix2 p k)) = V m c main_v28 (ix2 r k)
  refine congrArg _ (funext fun a => Fin.ext ?_)
  obtain ⟨e0, e1⟩ := idx_moving1 t
  match a with
  | ⟨0, _⟩ => show win0_1.index t (0 : Fin 2) * 2048 + 1 * p.val = r.val; rw [e0, hr]; omega
  | ⟨1, _⟩ => show win0_1.index t (1 : Fin 2) * 9 + 1 * k.val = k.val; rw [e1]; omega

/-- Window 2's block at every point is its whole array. -/
theorem iblk2_apply (c : Dev nD) (t : Fin cfg0.N) (p : Fin 44) (k : Fin 512) :
    iblk m c 2 t (ix2 p k) = V m c main_v30 (ix2 p k) := by
  show V m c main_v30 (((cfg0.win 2).blk t).view.emb (ix2 p k)) = V m c main_v30 (ix2 p k)
  refine congrArg _ (funext fun a => Fin.ext ?_)
  obtain ⟨e0, e1⟩ := idx_fixed2 t
  match a with
  | ⟨0, _⟩ => show win0_2.index t (0 : Fin 2) * 44 + 1 * p.val = p.val; rw [e0]; omega
  | ⟨1, _⟩ => show win0_2.index t (1 : Fin 2) * 512 + 1 * k.val = k.val; rw [e1]; omega

/-- Window 3's block at every point is its whole array. -/
theorem iblk3_apply (c : Dev nD) (t : Fin cfg0.N) (p : Fin 1) (k : Fin 512) :
    iblk m c 3 t (ix2 p k) = V m c main_v43 (ix2 p k) := by
  show V m c main_v43 (((cfg0.win 3).blk t).view.emb (ix2 p k)) = V m c main_v43 (ix2 p k)
  refine congrArg _ (funext fun a => Fin.ext ?_)
  obtain ⟨e0, e1⟩ := idx_fixed3 t
  match a with
  | ⟨0, _⟩ => show win0_3.index t (0 : Fin 2) * 1 + 1 * p.val = p.val; rw [e0]; omega
  | ⟨1, _⟩ => show win0_3.index t (1 : Fin 2) * 512 + 1 * k.val = k.val; rw [e1]; omega

/-- Window 4's block at every point is its whole array. -/
theorem iblk4_apply (c : Dev nD) (t : Fin cfg0.N) (p : Fin 512) (k : Fin 512) :
    iblk m c 4 t (ix2 p k) = V m c main_v32 (ix2 p k) := by
  show V m c main_v32 (((cfg0.win 4).blk t).view.emb (ix2 p k)) = V m c main_v32 (ix2 p k)
  refine congrArg _ (funext fun a => Fin.ext ?_)
  obtain ⟨e0, e1⟩ := idx_fixed4 t
  match a with
  | ⟨0, _⟩ => show win0_4.index t (0 : Fin 2) * 512 + 1 * p.val = p.val; rw [e0]; omega
  | ⟨1, _⟩ => show win0_4.index t (1 : Fin 2) * 512 + 1 * k.val = k.val; rw [e1]; omega

/-- Window 5's block at every point is its whole array. -/
theorem iblk5_apply (c : Dev nD) (t : Fin cfg0.N) (p : Fin 1) (k : Fin 512) :
    iblk m c 5 t (ix2 p k) = V m c main_v44 (ix2 p k) := by
  show V m c main_v44 (((cfg0.win 5).blk t).view.emb (ix2 p k)) = V m c main_v44 (ix2 p k)
  refine congrArg _ (funext fun a => Fin.ext ?_)
  obtain ⟨e0, e1⟩ := idx_fixed5 t
  match a with
  | ⟨0, _⟩ => show win0_5.index t (0 : Fin 2) * 1 + 1 * p.val = p.val; rw [e0]; omega
  | ⟨1, _⟩ => show win0_5.index t (1 : Fin 2) * 512 + 1 * k.val = k.val; rw [e1]; omega

/-- Window 6's block at every point is its whole array. -/
theorem iblk6_apply (c : Dev nD) (t : Fin cfg0.N) (p : Fin 512) (k : Fin 9) :
    iblk m c 6 t (ix2 p k) = V m c main_v34 (ix2 p k) := by
  show V m c main_v34 (((cfg0.win 6).blk t).view.emb (ix2 p k)) = V m c main_v34 (ix2 p k)
  refine congrArg _ (funext fun a => Fin.ext ?_)
  obtain ⟨e0, e1⟩ := idx_fixed6 t
  match a with
  | ⟨0, _⟩ => show win0_6.index t (0 : Fin 2) * 512 + 1 * p.val = p.val; rw [e0]; omega
  | ⟨1, _⟩ => show win0_6.index t (1 : Fin 2) * 9 + 1 * k.val = k.val; rw [e1]; omega

/-- Window 7's block at every point is its whole array. -/
theorem iblk7_apply (c : Dev nD) (t : Fin cfg0.N) (p : Fin 1) (k : Fin 9) :
    iblk m c 7 t (ix2 p k) = V m c main_v45 (ix2 p k) := by
  show V m c main_v45 (((cfg0.win 7).blk t).view.emb (ix2 p k)) = V m c main_v45 (ix2 p k)
  refine congrArg _ (funext fun a => Fin.ext ?_)
  obtain ⟨e0, e1⟩ := idx_fixed7 t
  match a with
  | ⟨0, _⟩ => show win0_7.index t (0 : Fin 2) * 1 + 1 * p.val = p.val; rw [e0]; omega
  | ⟨1, _⟩ => show win0_7.index t (1 : Fin 2) * 9 + 1 * k.val = k.val; rw [e1]; omega

/-- Window 8's block at every point is its whole array. -/
theorem iblk8_apply (c : Dev nD) (t : Fin cfg0.N) (p : Fin 512) (k : Fin 9) :
    iblk m c 8 t (ix2 p k) = V m c main_v36 (ix2 p k) := by
  show V m c main_v36 (((cfg0.win 8).blk t).view.emb (ix2 p k)) = V m c main_v36 (ix2 p k)
  refine congrArg _ (funext fun a => Fin.ext ?_)
  obtain ⟨e0, e1⟩ := idx_fixed8 t
  match a with
  | ⟨0, _⟩ => show win0_8.index t (0 : Fin 2) * 512 + 1 * p.val = p.val; rw [e0]; omega
  | ⟨1, _⟩ => show win0_8.index t (1 : Fin 2) * 9 + 1 * k.val = k.val; rw [e1]; omega

/-- Window 9's block at every point is its whole array. -/
theorem iblk9_apply (c : Dev nD) (t : Fin cfg0.N) (p : Fin 1) (k : Fin 9) :
    iblk m c 9 t (ix2 p k) = V m c main_v46 (ix2 p k) := by
  show V m c main_v46 (((cfg0.win 9).blk t).view.emb (ix2 p k)) = V m c main_v46 (ix2 p k)
  refine congrArg _ (funext fun a => Fin.ext ?_)
  obtain ⟨e0, e1⟩ := idx_fixed9 t
  match a with
  | ⟨0, _⟩ => show win0_9.index t (0 : Fin 2) * 1 + 1 * p.val = p.val; rw [e0]; omega
  | ⟨1, _⟩ => show win0_9.index t (1 : Fin 2) * 9 + 1 * k.val = k.val; rw [e1]; omega

/-- Window 10's block at every point is its whole array. -/
theorem iblk10_apply (c : Dev nD) (t : Fin cfg0.N) (p : Fin 41) (k : Fin 512) :
    iblk m c 10 t (ix2 p k) = V m c main_v38 (ix2 p k) := by
  show V m c main_v38 (((cfg0.win 10).blk t).view.emb (ix2 p k)) = V m c main_v38 (ix2 p k)
  refine congrArg _ (funext fun a => Fin.ext ?_)
  obtain ⟨e0, e1⟩ := idx_fixed10 t
  match a with
  | ⟨0, _⟩ => show win0_10.index t (0 : Fin 2) * 41 + 1 * p.val = p.val; rw [e0]; omega
  | ⟨1, _⟩ => show win0_10.index t (1 : Fin 2) * 512 + 1 * k.val = k.val; rw [e1]; omega

/-- Window 11's block at every point is its whole array. -/
theorem iblk11_apply (c : Dev nD) (t : Fin cfg0.N) (p : Fin 1) (k : Fin 512) :
    iblk m c 11 t (ix2 p k) = V m c main_v47 (ix2 p k) := by
  show V m c main_v47 (((cfg0.win 11).blk t).view.emb (ix2 p k)) = V m c main_v47 (ix2 p k)
  refine congrArg _ (funext fun a => Fin.ext ?_)
  obtain ⟨e0, e1⟩ := idx_fixed11 t
  match a with
  | ⟨0, _⟩ => show win0_11.index t (0 : Fin 2) * 1 + 1 * p.val = p.val; rw [e0]; omega
  | ⟨1, _⟩ => show win0_11.index t (1 : Fin 2) * 512 + 1 * k.val = k.val; rw [e1]; omega

/-- Window 12's block at every point is its whole array. -/
theorem iblk12_apply (c : Dev nD) (t : Fin cfg0.N) (p : Fin 512) (k : Fin 512) :
    iblk m c 12 t (ix2 p k) = V m c main_v40 (ix2 p k) := by
  show V m c main_v40 (((cfg0.win 12).blk t).view.emb (ix2 p k)) = V m c main_v40 (ix2 p k)
  refine congrArg _ (funext fun a => Fin.ext ?_)
  obtain ⟨e0, e1⟩ := idx_fixed12 t
  match a with
  | ⟨0, _⟩ => show win0_12.index t (0 : Fin 2) * 512 + 1 * p.val = p.val; rw [e0]; omega
  | ⟨1, _⟩ => show win0_12.index t (1 : Fin 2) * 512 + 1 * k.val = k.val; rw [e1]; omega

/-- Window 13's block at every point is its whole array. -/
theorem iblk13_apply (c : Dev nD) (t : Fin cfg0.N) (p : Fin 1) (k : Fin 512) :
    iblk m c 13 t (ix2 p k) = V m c main_v48 (ix2 p k) := by
  show V m c main_v48 (((cfg0.win 13).blk t).view.emb (ix2 p k)) = V m c main_v48 (ix2 p k)
  refine congrArg _ (funext fun a => Fin.ext ?_)
  obtain ⟨e0, e1⟩ := idx_fixed13 t
  match a with
  | ⟨0, _⟩ => show win0_13.index t (0 : Fin 2) * 1 + 1 * p.val = p.val; rw [e0]; omega
  | ⟨1, _⟩ => show win0_13.index t (1 : Fin 2) * 512 + 1 * k.val = k.val; rw [e1]; omega

/-- Window 14's block at every point is its whole array. -/
theorem iblk14_apply (c : Dev nD) (t : Fin cfg0.N) (p : Fin 512) (k : Fin 12) :
    iblk m c 14 t (ix2 p k) = V m c main_v42 (ix2 p k) := by
  show V m c main_v42 (((cfg0.win 14).blk t).view.emb (ix2 p k)) = V m c main_v42 (ix2 p k)
  refine congrArg _ (funext fun a => Fin.ext ?_)
  obtain ⟨e0, e1⟩ := idx_fixed14 t
  match a with
  | ⟨0, _⟩ => show win0_14.index t (0 : Fin 2) * 512 + 1 * p.val = p.val; rw [e0]; omega
  | ⟨1, _⟩ => show win0_14.index t (1 : Fin 2) * 12 + 1 * k.val = k.val; rw [e1]; omega

/-- Window 15's block at every point is its whole array. -/
theorem iblk15_apply (c : Dev nD) (t : Fin cfg0.N) (p : Fin 1) (k : Fin 12) :
    iblk m c 15 t (ix2 p k) = V m c main_v49 (ix2 p k) := by
  show V m c main_v49 (((cfg0.win 15).blk t).view.emb (ix2 p k)) = V m c main_v49 (ix2 p k)
  refine congrArg _ (funext fun a => Fin.ext ?_)
  obtain ⟨e0, e1⟩ := idx_fixed15 t
  match a with
  | ⟨0, _⟩ => show win0_15.index t (0 : Fin 2) * 1 + 1 * p.val = p.val; rw [e0]; omega
  | ⟨1, _⟩ => show win0_15.index t (1 : Fin 2) * 12 + 1 * k.val = k.val; rw [e1]; omega

end Cert.KernelIdeal.HandValue

end
-- ==== Proof.KIEntryW.lean ====
/-
  What the region finds in its weight, bias and noise windows' arrays: each weight array is the argument matrix
  transposed (its float format changed, which is the identity on the extended reals), each bias array the argument
  vector as one row, the noise array the [5, 32768, 9] argument re-laid as [163840, 9] rows.
-/
import proofs.«173347_j68530498175289_1_alg».proof.Proof.KIData
import Idealize.ShloMosaic.Lib.StableHlo.Run
import Idealize.ShloMosaic.PureOps.Ideal

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ)

/-- Read one buffer after the host lines before the region. -/
local macro "entry_eq" : tactic =>
  `(tactic| (show StableHlo.after hostOps0 _ (Proc.devRef .tc _) = _; after_results <;> try rfl))

theorem V_v30 (c : Dev nD) : (V m c main_v30 : S44x512.Idx → Elt Ideal .bf16)
    = truncf (F := Ideal) .bf16 (transpose S44x512 [1, 0] (m ((c : Thread nD τ).loc main_arg4)) transposes_S512x44_S44x512_1_0) bitsLt_bf16_f32 := by entry_eq
theorem V_v32 (c : Dev nD) : (V m c main_v32 : S512x512.Idx → Elt Ideal .bf16)
    = truncf (F := Ideal) .bf16 (transpose S512x512 [1, 0] (m ((c : Thread nD τ).loc main_arg6)) transposes_S512x512_S512x512_1_0) bitsLt_bf16_f32 := by entry_eq
theorem V_v34 (c : Dev nD) : (V m c main_v34 : S512x9.Idx → Elt Ideal .bf16)
    = truncf (F := Ideal) .bf16 (transpose S512x9 [1, 0] (m ((c : Thread nD τ).loc main_arg8)) transposes_S9x512_S512x9_1_0) bitsLt_bf16_f32 := by entry_eq
theorem V_v36 (c : Dev nD) : (V m c main_v36 : S512x9.Idx → Elt Ideal .bf16)
    = truncf (F := Ideal) .bf16 (transpose S512x9 [1, 0] (m ((c : Thread nD τ).loc main_arg10)) transposes_S9x512_S512x9_1_0) bitsLt_bf16_f32 := by entry_eq
theorem V_v38 (c : Dev nD) : (V m c main_v38 : S41x512.Idx → Elt Ideal .bf16)
    = truncf (F := Ideal) .bf16 (transpose S41x512 [1, 0] (m ((c : Thread nD τ).loc main_arg12)) transposes_S512x41_S41x512_1_0) bitsLt_bf16_f32 := by entry_eq
theorem V_v40 (c : Dev nD) : (V m c main_v40 : S512x512.Idx → Elt Ideal .bf16)
    = truncf (F := Ideal) .bf16 (transpose S512x512 [1, 0] (m ((c : Thread nD τ).loc main_arg14)) transposes_S512x512_S512x512_1_0) bitsLt_bf16_f32 := by entry_eq
theorem V_v42 (c : Dev nD) : (V m c main_v42 : S512x12.Idx → Elt Ideal .bf16)
    = truncf (F := Ideal) .bf16 (transpose S512x12 [1, 0] (m ((c : Thread nD τ).loc main_arg16)) transposes_S12x512_S512x12_1_0) bitsLt_bf16_f32 := by entry_eq
theorem V_v43 (c : Dev nD) : (V m c main_v43 : S1x512.Idx → Elt Ideal .f32)
    = shapeCast S1x512 (m ((c : Thread nD τ).loc main_arg5)) shapeCasts_S512_S1x512 := by entry_eq
theorem V_v44 (c : Dev nD) : (V m c main_v44 : S1x512.Idx → Elt Ideal .f32)
    = shapeCast S1x512 (m ((c : Thread nD τ).loc main_arg7)) shapeCasts_S512_S1x512 := by entry_eq
theorem V_v45 (c : Dev nD) : (V m c main_v45 : S1x9.Idx → Elt Ideal .f32)
    = shapeCast S1x9 (m ((c : Thread nD τ).loc main_arg9)) shapeCasts_S9_S1x9 := by entry_eq
theorem V_v46 (c : Dev nD) : (V m c main_v46 : S1x9.Idx → Elt Ideal .f32)
    = shapeCast S1x9 (m ((c : Thread nD τ).loc main_arg11)) shapeCasts_S9_S1x9 := by entry_eq
theorem V_v47 (c : Dev nD) : (V m c main_v47 : S1x512.Idx → Elt Ideal .f32)
    = shapeCast S1x512 (m ((c : Thread nD τ).loc main_arg13)) shapeCasts_S512_S1x512 := by entry_eq
theorem V_v48 (c : Dev nD) : (V m c main_v48 : S1x512.Idx → Elt Ideal .f32)
    = shapeCast S1x512 (m ((c : Thread nD τ).loc main_arg15)) shapeCasts_S512_S1x512 := by entry_eq
theorem V_v49 (c : Dev nD) : (V m c main_v49 : S1x12.Idx → Elt Ideal .f32)
    = shapeCast S1x12 (m ((c : Thread nD τ).loc main_arg17)) shapeCasts_S12_S1x12 := by entry_eq

theorem V_v28 (c : Dev nD) : (V m c main_v28 : S163840x9.Idx → Elt Ideal .f32)
    = shapeCast S163840x9 (m ((c : Thread nD τ).loc main_arg3)) shapeCasts_S5x32768x9_S163840x9 := by entry_eq

end Cert.KernelIdeal.HandValue

end
-- ==== Proof.KIArr.lean ====
/-
  The four output arrays after the run, each as one function of the arrays the region finds.  Point `t` writes
  back rows `t * 2048 … t * 2048 + 2047`; row `p` of what it writes is the row network applied to row
  `t * 2048 + p` of the row array (and of the noise array), the weight blocks being the transposed weight
  arguments and the bias blocks the bias arguments.  The eighty blocks tile the 163840 rows, so the final array is
  that function of its row index everywhere.
-/
import proofs.«173347_j68530498175289_1_alg».proof.Proof.KIFrame
import proofs.«173347_j68530498175289_1_alg».proof.Proof.KIBlock
import proofs.«173347_j68530498175289_1_alg».proof.Proof.KIRead
import proofs.«173347_j68530498175289_1_alg».proof.Proof.KIEntryW
import Idealize.ShloMosaic.Lib.ValueLayout

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (m : (ℓ : Loc nD τ sig) → Buf (Elt Ideal) ℓ)

/-- The fourteen weight and bias arguments as the row network's parameters. -/
def kparams (c : Dev nD) : Params where
  W0 := m ((c : Thread nD τ).loc main_arg4)
  b0 := m ((c : Thread nD τ).loc main_arg5)
  W1 := m ((c : Thread nD τ).loc main_arg6)
  b1 := m ((c : Thread nD τ).loc main_arg7)
  Wm := m ((c : Thread nD τ).loc main_arg8)
  bm := m ((c : Thread nD τ).loc main_arg9)
  Wv := m ((c : Thread nD τ).loc main_arg10)
  bv := m ((c : Thread nD τ).loc main_arg11)
  D0 := m ((c : Thread nD τ).loc main_arg12)
  c0 := m ((c : Thread nD τ).loc main_arg13)
  D1 := m ((c : Thread nD τ).loc main_arg14)
  c1 := m ((c : Thread nD τ).loc main_arg15)
  D2 := m ((c : Thread nD τ).loc main_arg16)
  c2 := m ((c : Thread nD τ).loc main_arg17)

/-- At every point the weight blocks are the transposed weight arguments and the bias blocks the bias arguments. -/
theorem blockIs (c : Dev nD) (t : Fin cfg0.N) :
    BlockIs (kparams m c) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) where
  W0 := fun k h => by rw [iblk2_apply, V_v30]; exact transpose_ix2_apply _ _ k h
  b0 := fun h => by rw [iblk3_apply, V_v43]; exact shapeCast_a_1a_apply _ _ 0 h
  W1 := fun k h => by rw [iblk4_apply, V_v32]; exact transpose_ix2_apply _ _ k h
  b1 := fun h => by rw [iblk5_apply, V_v44]; exact shapeCast_a_1a_apply _ _ 0 h
  Wm := fun k h => by rw [iblk6_apply, V_v34]; exact transpose_ix2_apply _ _ k h
  bm := fun h => by rw [iblk7_apply, V_v45]; exact shapeCast_a_1a_apply _ _ 0 h
  Wv := fun k h => by rw [iblk8_apply, V_v36]; exact transpose_ix2_apply _ _ k h
  bv := fun h => by rw [iblk9_apply, V_v46]; exact shapeCast_a_1a_apply _ _ 0 h
  D0 := fun k h => by rw [iblk10_apply, V_v38]; exact transpose_ix2_apply _ _ k h
  c0 := fun h => by rw [iblk11_apply, V_v47]; exact shapeCast_a_1a_apply _ _ 0 h
  D1 := fun k h => by rw [iblk12_apply, V_v40]; exact transpose_ix2_apply _ _ k h
  c1 := fun h => by rw [iblk13_apply, V_v48]; exact shapeCast_a_1a_apply _ _ 0 h
  D2 := fun k h => by rw [iblk14_apply, V_v42]; exact transpose_ix2_apply _ _ k h
  c2 := fun h => by rw [iblk15_apply, V_v49]; exact shapeCast_a_1a_apply _ _ 0 h

/-! ## Output window 16 -/

/-- Row `r` of the final array: `means` of row `r` of the row array. -/
def G16 (P : Params) (X2 : Mat 163840 44) : Mat 163840 9 :=
  fun i => means P (fun k => X2 (ix2 (i 0) k)) (i 1)

set_option maxHeartbeats 1000000 in
/-- What point `t` writes back is block `t` of that array. -/
theorem flushed16_eq (c : Dev nD) (t : Fin cfg0.N) :
    (dats m 0 c).flushed 16 t = ((cfg0.win 16).blk t).view.read (Elt Ideal) (G16 (kparams m c) (V m c main_v27)) := by
  show (cfg0.win 16).cut (grid0.coords t) ((dats m 0 c).after 16 t) = _
  rw [after0_16]
  funext j
  obtain ⟨p, l, rfl⟩ : ∃ (p : Fin 2048) (l : Fin 9), j = ix2 p l := ⟨j 0, j 1, eq_ix2 j⟩
  have hr : t.val * 2048 + p.val < 163840 := by
    have h1 := t.isLt; have h2 := p.isLt; have hN : cfg0.N = 80 := N_0; omega
  have hemb : ((cfg0.win 16).blk t).view.emb (ix2 p l) = (ix2 ⟨t.val * 2048 + p.val, hr⟩ l : S163840x9.Idx) := by
    obtain ⟨e0, e1⟩ := idx_moving16 t
    funext a; apply Fin.ext
    match a with
    | ⟨0, _⟩ => show win0_16.index t (0 : Fin 2) * 2048 + 1 * p.val = t.val * 2048 + p.val; rw [e0]; omega
    | ⟨1, _⟩ => show win0_16.index t (1 : Fin 2) * 9 + 1 * l.val = l.val; rw [e1]; omega
  show out0_16 (iblk m c 0 t) (iblk m c 2 t) (iblk m c 3 t) (iblk m c 4 t) (iblk m c 5 t) (iblk m c 6 t) (iblk m c 7 t) (ix2 p l) = (G16 (kparams m c) (V m c main_v27)) (((cfg0.win 16).blk t).view.emb (ix2 p l))
  rw [hemb]
  exact out16_apply (P := kparams m c) (x0 := iblk m c 0 t) (x2 := iblk m c 2 t) (x3 := iblk m c 3 t) (x4 := iblk m c 4 t) (x5 := iblk m c 5 t) (x6 := iblk m c 6 t) (x7 := iblk m c 7 t) (p := p) (x := fun k => V m c main_v27 (ix2 ⟨t.val * 2048 + p.val, hr⟩ k)) (blockIs m c t) (fun k => iblk0_apply m c t p k ⟨_, hr⟩ rfl) l

/-- An index of the array is in point `t`'s block iff each coordinate is in the block's range on its axis. -/
theorem mem_blk16 (t : Fin cfg0.N) (i : S163840x9.Idx) :
    i ∈ ((cfg0.win 16).blk t).view.set ↔ ∀ a : Fin 2, win0_16.index t a * S2048x9.size a ≤ (i a).val ∧ (i a).val < win0_16.index t a * S2048x9.size a + S2048x9.size a := by
  show i ∈ ((View.whole main_v50_0).slice (win0_16.rect t)).set ↔ _
  rw [View.set_slice_whole, Rect.mem_set_unit]
  exact Iff.rfl

/-- Every row is in the block of the point `row / 2048`. -/
theorem cover16 (i : S163840x9.Idx) :
    ∃ t : Fin cfg0.N, (cfg0.win 16).flush t = true ∧ i ∈ ((cfg0.win 16).blk t).view.set := by
  have hi0 : (i 0).val < 163840 := (i 0).isLt
  have hi1 : (i 1).val < 9 := (i 1).isLt
  have hN : cfg0.N = 80 := N_0
  have ht : (i 0).val / 2048 < cfg0.N := by rw [hN]; omega
  refine ⟨⟨(i 0).val / 2048, ht⟩, flush0_16 _, ?_⟩
  rw [mem_blk16]
  obtain ⟨e0, e1⟩ := idx_moving16 ⟨(i 0).val / 2048, ht⟩
  intro a
  match a with
  | ⟨0, _⟩ =>
    show win0_16.index ⟨(i 0).val / 2048, ht⟩ (0 : Fin 2) * 2048 ≤ (i 0).val ∧ (i 0).val < win0_16.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_16.index ⟨(i 0).val / 2048, ht⟩ (1 : Fin 2) * 9 ≤ (i 1).val ∧ (i 1).val < win0_16.index ⟨(i 0).val / 2048, ht⟩ (1 : Fin 2) * 9 + 9
    rw [e1]; omega

/-- The array after the run. -/
theorem final16 (c : Dev nD) : (dats m 0 c).arrAt 16 cfg0.N = G16 (kparams m c) (V m c main_v27) :=
  (dats m 0 c).arrAt_eq_of_cover 16 _ (fun t _ => flushed16_eq m c t) cover16

/-! ## Output window 17 -/

/-- Row `r` of the final array: `logvar` of row `r` of the row array. -/
def G17 (P : Params) (X2 : Mat 163840 44) : Mat 163840 9 :=
  fun i => logvar P (fun k => X2 (ix2 (i 0) k)) (i 1)

set_option maxHeartbeats 1000000 in
/-- What point `t` writes back is block `t` of that array. -/
theorem flushed17_eq (c : Dev nD) (t : Fin cfg0.N) :
    (dats m 0 c).flushed 17 t = ((cfg0.win 17).blk t).view.read (Elt Ideal) (G17 (kparams m c) (V m c main_v27)) := by
  show (cfg0.win 17).cut (grid0.coords t) ((dats m 0 c).after 17 t) = _
  rw [after0_17]
  funext j
  obtain ⟨p, l, rfl⟩ : ∃ (p : Fin 2048) (l : Fin 9), j = ix2 p l := ⟨j 0, j 1, eq_ix2 j⟩
  have hr : t.val * 2048 + p.val < 163840 := by
    have h1 := t.isLt; have h2 := p.isLt; have hN : cfg0.N = 80 := N_0; omega
  have hemb : ((cfg0.win 17).blk t).view.emb (ix2 p l) = (ix2 ⟨t.val * 2048 + p.val, hr⟩ l : S163840x9.Idx) := by
    obtain ⟨e0, e1⟩ := idx_moving17 t
    funext a; apply Fin.ext
    match a with
    | ⟨0, _⟩ => show win0_17.index t (0 : Fin 2) * 2048 + 1 * p.val = t.val * 2048 + p.val; rw [e0]; omega
    | ⟨1, _⟩ => show win0_17.index t (1 : Fin 2) * 9 + 1 * l.val = l.val; rw [e1]; omega
  show out0_17 (iblk m c 0 t) (iblk m c 2 t) (iblk m c 3 t) (iblk m c 4 t) (iblk m c 5 t) (iblk m c 8 t) (iblk m c 9 t) (ix2 p l) = (G17 (kparams m c) (V m c main_v27)) (((cfg0.win 17).blk t).view.emb (ix2 p l))
  rw [hemb]
  exact out17_apply (P := kparams m c) (x0 := iblk m c 0 t) (x2 := iblk m c 2 t) (x3 := iblk m c 3 t) (x4 := iblk m c 4 t) (x5 := iblk m c 5 t) (x8 := iblk m c 8 t) (x9 := iblk m c 9 t) (p := p) (x := fun k => V m c main_v27 (ix2 ⟨t.val * 2048 + p.val, hr⟩ k)) (blockIs m c t) (fun k => iblk0_apply m c t p k ⟨_, hr⟩ rfl) l

/-- An index of the array is in point `t`'s block iff each coordinate is in the block's range on its axis. -/
theorem mem_blk17 (t : Fin cfg0.N) (i : S163840x9.Idx) :
    i ∈ ((cfg0.win 17).blk t).view.set ↔ ∀ a : Fin 2, win0_17.index t a * S2048x9.size a ≤ (i a).val ∧ (i a).val < win0_17.index t a * S2048x9.size a + S2048x9.size a := by
  show i ∈ ((View.whole main_v50_1).slice (win0_17.rect t)).set ↔ _
  rw [View.set_slice_whole, Rect.mem_set_unit]
  exact Iff.rfl

/-- Every row is in the block of the point `row / 2048`. -/
theorem cover17 (i : S163840x9.Idx) :
    ∃ t : Fin cfg0.N, (cfg0.win 17).flush t = true ∧ i ∈ ((cfg0.win 17).blk t).view.set := by
  have hi0 : (i 0).val < 163840 := (i 0).isLt
  have hi1 : (i 1).val < 9 := (i 1).isLt
  have hN : cfg0.N = 80 := N_0
  have ht : (i 0).val / 2048 < cfg0.N := by rw [hN]; omega
  refine ⟨⟨(i 0).val / 2048, ht⟩, flush0_17 _, ?_⟩
  rw [mem_blk17]
  obtain ⟨e0, e1⟩ := idx_moving17 ⟨(i 0).val / 2048, ht⟩
  intro a
  match a with
  | ⟨0, _⟩ =>
    show win0_17.index ⟨(i 0).val / 2048, ht⟩ (0 : Fin 2) * 2048 ≤ (i 0).val ∧ (i 0).val < win0_17.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_17.index ⟨(i 0).val / 2048, ht⟩ (1 : Fin 2) * 9 ≤ (i 1).val ∧ (i 1).val < win0_17.index ⟨(i 0).val / 2048, ht⟩ (1 : Fin 2) * 9 + 9
    rw [e1]; omega

/-- The array after the run. -/
theorem final17 (c : Dev nD) : (dats m 0 c).arrAt 17 cfg0.N = G17 (kparams m c) (V m c main_v27) :=
  (dats m 0 c).arrAt_eq_of_cover 17 _ (fun t _ => flushed17_eq m c t) cover17

/-! ## Output window 18 -/

/-- Row `r` of the final array: `latent` of row `r` of the row array and of the noise array. -/
def G18 (P : Params) (X2 : Mat 163840 44) (E2 : Mat 163840 9) : Mat 163840 9 :=
  fun i => latent P (fun k => X2 (ix2 (i 0) k)) (fun l => E2 (ix2 (i 0) l)) (i 1)

set_option maxHeartbeats 1000000 in
/-- What point `t` writes back is block `t` of that array. -/
theorem flushed18_eq (c : Dev nD) (t : Fin cfg0.N) :
    (dats m 0 c).flushed 18 t = ((cfg0.win 18).blk t).view.read (Elt Ideal) (G18 (kparams m c) (V m c main_v27) (V m c main_v28)) := by
  show (cfg0.win 18).cut (grid0.coords t) ((dats m 0 c).after 18 t) = _
  rw [after0_18]
  funext j
  obtain ⟨p, l, rfl⟩ : ∃ (p : Fin 2048) (l : Fin 9), j = ix2 p l := ⟨j 0, j 1, eq_ix2 j⟩
  have hr : t.val * 2048 + p.val < 163840 := by
    have h1 := t.isLt; have h2 := p.isLt; have hN : cfg0.N = 80 := N_0; omega
  have hemb : ((cfg0.win 18).blk t).view.emb (ix2 p l) = (ix2 ⟨t.val * 2048 + p.val, hr⟩ l : S163840x9.Idx) := by
    obtain ⟨e0, e1⟩ := idx_moving18 t
    funext a; apply Fin.ext
    match a with
    | ⟨0, _⟩ => show win0_18.index t (0 : Fin 2) * 2048 + 1 * p.val = t.val * 2048 + p.val; rw [e0]; omega
    | ⟨1, _⟩ => show win0_18.index t (1 : Fin 2) * 9 + 1 * l.val = l.val; rw [e1]; omega
  show out0_18 (iblk m c 0 t) (iblk m c 1 t) (iblk m c 2 t) (iblk m c 3 t) (iblk m c 4 t) (iblk m c 5 t) (iblk m c 6 t) (iblk m c 7 t) (iblk m c 8 t) (iblk m c 9 t) (ix2 p l) = (G18 (kparams m c) (V m c main_v27) (V m c main_v28)) (((cfg0.win 18).blk t).view.emb (ix2 p l))
  rw [hemb]
  exact out18_apply (P := kparams m c) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (p := p) (x := fun k => V m c main_v27 (ix2 ⟨t.val * 2048 + p.val, hr⟩ k)) (e := fun l => V m c main_v28 (ix2 ⟨t.val * 2048 + p.val, hr⟩ l)) (blockIs m c t) (fun k => iblk0_apply m c t p k ⟨_, hr⟩ rfl) (fun l => iblk1_apply m c t p l ⟨_, hr⟩ rfl) l

/-- An index of the array is in point `t`'s block iff each coordinate is in the block's range on its axis. -/
theorem mem_blk18 (t : Fin cfg0.N) (i : S163840x9.Idx) :
    i ∈ ((cfg0.win 18).blk t).view.set ↔ ∀ a : Fin 2, win0_18.index t a * S2048x9.size a ≤ (i a).val ∧ (i a).val < win0_18.index t a * S2048x9.size a + S2048x9.size a := by
  show i ∈ ((View.whole main_v50_2).slice (win0_18.rect t)).set ↔ _
  rw [View.set_slice_whole, Rect.mem_set_unit]
  exact Iff.rfl

/-- Every row is in the block of the point `row / 2048`. -/
theorem cover18 (i : S163840x9.Idx) :
    ∃ t : Fin cfg0.N, (cfg0.win 18).flush t = true ∧ i ∈ ((cfg0.win 18).blk t).view.set := by
  have hi0 : (i 0).val < 163840 := (i 0).isLt
  have hi1 : (i 1).val < 9 := (i 1).isLt
  have hN : cfg0.N = 80 := N_0
  have ht : (i 0).val / 2048 < cfg0.N := by rw [hN]; omega
  refine ⟨⟨(i 0).val / 2048, ht⟩, flush0_18 _, ?_⟩
  rw [mem_blk18]
  obtain ⟨e0, e1⟩ := idx_moving18 ⟨(i 0).val / 2048, ht⟩
  intro a
  match a with
  | ⟨0, _⟩ =>
    show win0_18.index ⟨(i 0).val / 2048, ht⟩ (0 : Fin 2) * 2048 ≤ (i 0).val ∧ (i 0).val < win0_18.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_18.index ⟨(i 0).val / 2048, ht⟩ (1 : Fin 2) * 9 ≤ (i 1).val ∧ (i 1).val < win0_18.index ⟨(i 0).val / 2048, ht⟩ (1 : Fin 2) * 9 + 9
    rw [e1]; omega

/-- The array after the run. -/
theorem final18 (c : Dev nD) : (dats m 0 c).arrAt 18 cfg0.N = G18 (kparams m c) (V m c main_v27) (V m c main_v28) :=
  (dats m 0 c).arrAt_eq_of_cover 18 _ (fun t _ => flushed18_eq m c t) cover18

/-! ## Output window 19 -/

/-- Row `r` of the final array: `recon` of row `r` of the row array and of the noise array. -/
def G19 (P : Params) (X2 : Mat 163840 44) (E2 : Mat 163840 9) : Mat 163840 12 :=
  fun i => recon P (fun k => X2 (ix2 (i 0) k)) (fun l => E2 (ix2 (i 0) l)) (i 1)

set_option maxHeartbeats 1000000 in
/-- What point `t` writes back is block `t` of that array. -/
theorem flushed19_eq (c : Dev nD) (t : Fin cfg0.N) :
    (dats m 0 c).flushed 19 t = ((cfg0.win 19).blk t).view.read (Elt Ideal) (G19 (kparams m c) (V m c main_v27) (V m c main_v28)) := by
  show (cfg0.win 19).cut (grid0.coords t) ((dats m 0 c).after 19 t) = _
  rw [after0_19]
  funext j
  obtain ⟨p, l, rfl⟩ : ∃ (p : Fin 2048) (l : Fin 12), j = ix2 p l := ⟨j 0, j 1, eq_ix2 j⟩
  have hr : t.val * 2048 + p.val < 163840 := by
    have h1 := t.isLt; have h2 := p.isLt; have hN : cfg0.N = 80 := N_0; omega
  have hemb : ((cfg0.win 19).blk t).view.emb (ix2 p l) = (ix2 ⟨t.val * 2048 + p.val, hr⟩ l : S163840x12.Idx) := by
    obtain ⟨e0, e1⟩ := idx_moving19 t
    funext a; apply Fin.ext
    match a with
    | ⟨0, _⟩ => show win0_19.index t (0 : Fin 2) * 2048 + 1 * p.val = t.val * 2048 + p.val; rw [e0]; omega
    | ⟨1, _⟩ => show win0_19.index t (1 : Fin 2) * 12 + 1 * l.val = l.val; rw [e1]; omega
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p l) = (G19 (kparams m c) (V m c main_v27) (V m c main_v28)) (((cfg0.win 19).blk t).view.emb (ix2 p l))
  rw [hemb]
  exact out19_apply (P := kparams m c) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (p := p) (x := fun k => V m c main_v27 (ix2 ⟨t.val * 2048 + p.val, hr⟩ k)) (e := fun l => V m c main_v28 (ix2 ⟨t.val * 2048 + p.val, hr⟩ l)) (blockIs m c t) (fun k => iblk0_apply m c t p k ⟨_, hr⟩ rfl) (fun l => iblk1_apply m c t p l ⟨_, hr⟩ rfl) l

/-- An index of the array is in point `t`'s block iff each coordinate is in the block's range on its axis. -/
theorem mem_blk19 (t : Fin cfg0.N) (i : S163840x12.Idx) :
    i ∈ ((cfg0.win 19).blk t).view.set ↔ ∀ a : Fin 2, win0_19.index t a * S2048x12.size a ≤ (i a).val ∧ (i a).val < win0_19.index t a * S2048x12.size a + S2048x12.size a := by
  show i ∈ ((View.whole main_v50_3).slice (win0_19.rect t)).set ↔ _
  rw [View.set_slice_whole, Rect.mem_set_unit]
  exact Iff.rfl

/-- Every row is in the block of the point `row / 2048`. -/
theorem cover19 (i : S163840x12.Idx) :
    ∃ t : Fin cfg0.N, (cfg0.win 19).flush t = true ∧ i ∈ ((cfg0.win 19).blk t).view.set := by
  have hi0 : (i 0).val < 163840 := (i 0).isLt
  have hi1 : (i 1).val < 12 := (i 1).isLt
  have hN : cfg0.N = 80 := N_0
  have ht : (i 0).val / 2048 < cfg0.N := by rw [hN]; omega
  refine ⟨⟨(i 0).val / 2048, ht⟩, flush0_19 _, ?_⟩
  rw [mem_blk19]
  obtain ⟨e0, e1⟩ := idx_moving19 ⟨(i 0).val / 2048, ht⟩
  intro a
  match a with
  | ⟨0, _⟩ =>
    show win0_19.index ⟨(i 0).val / 2048, ht⟩ (0 : Fin 2) * 2048 ≤ (i 0).val ∧ (i 0).val < win0_19.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_19.index ⟨(i 0).val / 2048, ht⟩ (1 : Fin 2) * 12 ≤ (i 1).val ∧ (i 1).val < win0_19.index ⟨(i 0).val / 2048, ht⟩ (1 : Fin 2) * 12 + 12
    rw [e1]; omega

/-- The array after the run. -/
theorem final19 (c : Dev nD) : (dats m 0 c).arrAt 19 cfg0.N = G19 (kparams m c) (V m c main_v27) (V m c main_v28) :=
  (dats m 0 c).arrAt_eq_of_cover 19 _ (fun t _ => flushed19_eq m c t) cover19

end Cert.KernelIdeal.HandValue

end
-- ==== Proof.RefRun.lean ====
/- The reference program's @main as the list of its 100 host operations (the four calls of the
   module-local function, maximum with zero, listed inline over each call's own buffers), and its run:
   every weakly fair execution terminates with each buffer at the fold of the operations' results over
   the launch contents; the eighteen argument buffers are written by no operation. -/
import proofs.«173347_j68530498175289_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The concatenation along the last axis of arrays of widths 5, 15, 12, 12 (width 44), its operands plain arguments. -/
def cat44 (u0 : (⟨S5x32768x5, .f32⟩ : BufTy).Contents (Elt F)) (u1 : (⟨S5x32768x15, .f32⟩ : BufTy).Contents (Elt F)) (u2 : (⟨S5x32768x12, .f32⟩ : BufTy).Contents (Elt F)) (u3 : (⟨S5x32768x12, .f32⟩ : BufTy).Contents (Elt F)) : (⟨S5x32768x44, .f32⟩ : BufTy).Contents (Elt F) :=
  concatenate S5x32768x44 2 [⟨S5x32768x5, u0⟩, ⟨S5x32768x15, u1⟩, ⟨S5x32768x12, u2⟩, ⟨S5x32768x12, u3⟩] concatenates_S5x32768x5_S5x32768x15_S5x32768x12_S5x32768x12_S5x32768x44_d2

/-- The concatenation along the last axis of arrays of widths 5, 9, 15, 12 (width 41), its operands plain arguments. -/
def cat41 (u0 : (⟨S5x32768x5, .f32⟩ : BufTy).Contents (Elt F)) (u1 : (⟨S5x32768x9, .f32⟩ : BufTy).Contents (Elt F)) (u2 : (⟨S5x32768x15, .f32⟩ : BufTy).Contents (Elt F)) (u3 : (⟨S5x32768x12, .f32⟩ : BufTy).Contents (Elt F)) : (⟨S5x32768x41, .f32⟩ : BufTy).Contents (Elt F) :=
  concatenate S5x32768x41 2 [⟨S5x32768x5, u0⟩, ⟨S5x32768x9, u1⟩, ⟨S5x32768x15, u2⟩, ⟨S5x32768x12, u3⟩] concatenates_S5x32768x5_S5x32768x9_S5x32768x15_S5x32768x12_S5x32768x41_d2

/-- Operations 1 … 33: the edge-index table, the 5×5 identity broadcast along the batch, the two gathers, and their concatenation with the broadcast conditioning input along the last axis (`main_v26`, [5, 32768, 44]). -/
abbrev opsA : List (HloOp τ sig (Elt F)) :=
  [ StableHlo.nullary main_c (fun i => lit0 (S5x12.rowMajor i)),
    StableHlo.nullary main_v0 (iotaInDim S5x5 32 0),
    StableHlo.nullary main_v1 (iotaInDim S5x5 32 1),
    StableHlo.nullary main_c_0 (constantI S_ 32 0#32),
    StableHlo.unary main_c_0 main_v2 (broadcastInDim S5x5 ![] bcast_S_S5x5 : (⟨S_, .i32⟩ : BufTy).Contents (Elt F) → (⟨S5x5, .i32⟩ : BufTy).Contents (Elt F)),
    StableHlo.binary main_v0 main_v2 main_v3 (addi : (⟨S5x5, .i32⟩ : BufTy).Contents (Elt F) → (⟨S5x5, .i32⟩ : BufTy).Contents (Elt F) → (⟨S5x5, .i32⟩ : BufTy).Contents (Elt F)),
    StableHlo.binary main_v3 main_v1 main_v4 (cmpi .eq : (⟨S5x5, .i32⟩ : BufTy).Contents (Elt F) → (⟨S5x5, .i32⟩ : BufTy).Contents (Elt F) → (⟨S5x5, .i1⟩ : BufTy).Contents (Elt F)),
    StableHlo.unary main_v4 main_v5 (uitofp .f32 : (⟨S5x5, .i1⟩ : BufTy).Contents (Elt F) → (⟨S5x5, .f32⟩ : BufTy).Contents (Elt F)),
    StableHlo.unary main_v5 main_v6 (broadcastInDim S5x1x5 ![0, 2] bcast_S5x5_S5x1x5_0_2 : (⟨S5x5, .f32⟩ : BufTy).Contents (Elt F) → (⟨S5x1x5, .f32⟩ : BufTy).Contents (Elt F)),
    StableHlo.unary main_v6 main_v7 (broadcastInDim S5x32768x5 ![0, 1, 2] bcast_S5x1x5_S5x32768x5_0_1_2 : (⟨S5x1x5, .f32⟩ : BufTy).Contents (Elt F) → (⟨S5x32768x5, .f32⟩ : BufTy).Contents (Elt F)),
    StableHlo.unary main_arg1 main_v8 (broadcastInDim S1x32768x15 ![1, 2] bcast_S32768x15_S1x32768x15_1_2 : (⟨S32768x15, .f32⟩ : BufTy).Contents (Elt F) → (⟨S1x32768x15, .f32⟩ : BufTy).Contents (Elt F)),
    StableHlo.unary main_v8 main_v9 (broadcastInDim S5x32768x15 ![0, 1, 2] bcast_S1x32768x15_S5x32768x15_0_1_2 : (⟨S1x32768x15, .f32⟩ : BufTy).Contents (Elt F) → (⟨S5x32768x15, .f32⟩ : BufTy).Contents (Elt F)),
    StableHlo.nullary main_c_1 (constantI S_ 32 0#32),
    StableHlo.unary main_c_1 main_v10 (broadcastInDim S5x12 ![] bcast_S_S5x12 : (⟨S_, .i32⟩ : BufTy).Contents (Elt F) → (⟨S5x12, .i32⟩ : BufTy).Contents (Elt F)),
    StableHlo.binary main_c main_v10 main_v11 (cmpi .slt : (⟨S5x12, .i32⟩ : BufTy).Contents (Elt F) → (⟨S5x12, .i32⟩ : BufTy).Contents (Elt F) → (⟨S5x12, .i1⟩ : BufTy).Contents (Elt F)),
    StableHlo.nullary main_c_2 (constantI S_ 32 30#32),
    StableHlo.unary main_c_2 main_v12 (broadcastInDim S5x12 ![] bcast_S_S5x12 : (⟨S_, .i32⟩ : BufTy).Contents (Elt F) → (⟨S5x12, .i32⟩ : BufTy).Contents (Elt F)),
    StableHlo.binary main_c main_v12 main_v13 (addi : (⟨S5x12, .i32⟩ : BufTy).Contents (Elt F) → (⟨S5x12, .i32⟩ : BufTy).Contents (Elt F) → (⟨S5x12, .i32⟩ : BufTy).Contents (Elt F)),
    StableHlo.ternary main_v11 main_v13 main_c main_v14 (select : (⟨S5x12, .i1⟩ : BufTy).Contents (Elt F) → (⟨S5x12, .i32⟩ : BufTy).Contents (Elt F) → (⟨S5x12, .i32⟩ : BufTy).Contents (Elt F) → (⟨S5x12, .i32⟩ : BufTy).Contents (Elt F)),
    StableHlo.unary main_v14 main_v15 (broadcastInDim S5x12x1 ![0, 1] bcast_S5x12_S5x12x1_0_1 : (⟨S5x12, .i32⟩ : BufTy).Contents (Elt F) → (⟨S5x12x1, .i32⟩ : BufTy).Contents (Elt F)),
    StableHlo.binary main_arg0 main_v15 main_v16 ((fun x i => Host.gather gather_S32768x30_S5x12x1_S32768x5x12_0_1_n_n_1_2_327681 x i) : (⟨S32768x30, .f32⟩ : BufTy).Contents (Elt F) → (⟨S5x12x1, .i32⟩ : BufTy).Contents (Elt F) → (⟨S32768x5x12, .f32⟩ : BufTy).Contents (Elt F)),
    StableHlo.unary main_v16 main_v17 ((transpose S5x32768x12 [1, 0, 2] · transposes_S32768x5x12_S5x32768x12_1_0_2) : (⟨S32768x5x12, .f32⟩ : BufTy).Contents (Elt F) → (⟨S5x32768x12, .f32⟩ : BufTy).Contents (Elt F)),
    StableHlo.nullary main_c_3 (constantI S_ 32 0#32),
    StableHlo.unary main_c_3 main_v18 (broadcastInDim S5x12 ![] bcast_S_S5x12 : (⟨S_, .i32⟩ : BufTy).Contents (Elt F) → (⟨S5x12, .i32⟩ : BufTy).Contents (Elt F)),
    StableHlo.binary main_c main_v18 main_v19 (cmpi .slt : (⟨S5x12, .i32⟩ : BufTy).Contents (Elt F) → (⟨S5x12, .i32⟩ : BufTy).Contents (Elt F) → (⟨S5x12, .i1⟩ : BufTy).Contents (Elt F)),
    StableHlo.nullary main_c_4 (constantI S_ 32 30#32),
    StableHlo.unary main_c_4 main_v20 (broadcastInDim S5x12 ![] bcast_S_S5x12 : (⟨S_, .i32⟩ : BufTy).Contents (Elt F) → (⟨S5x12, .i32⟩ : BufTy).Contents (Elt F)),
    StableHlo.binary main_c main_v20 main_v21 (addi : (⟨S5x12, .i32⟩ : BufTy).Contents (Elt F) → (⟨S5x12, .i32⟩ : BufTy).Contents (Elt F) → (⟨S5x12, .i32⟩ : BufTy).Contents (Elt F)),
    StableHlo.ternary main_v19 main_v21 main_c main_v22 (select : (⟨S5x12, .i1⟩ : BufTy).Contents (Elt F) → (⟨S5x12, .i32⟩ : BufTy).Contents (Elt F) → (⟨S5x12, .i32⟩ : BufTy).Contents (Elt F) → (⟨S5x12, .i32⟩ : BufTy).Contents (Elt F)),
    StableHlo.unary main_v22 main_v23 (broadcastInDim S5x12x1 ![0, 1] bcast_S5x12_S5x12x1_0_1 : (⟨S5x12, .i32⟩ : BufTy).Contents (Elt F) → (⟨S5x12x1, .i32⟩ : BufTy).Contents (Elt F)),
    StableHlo.binary main_arg2 main_v23 main_v24 ((fun x i => Host.gather gather_S32768x30_S5x12x1_S32768x5x12_0_1_n_n_1_2_327681 x i) : (⟨S32768x30, .f32⟩ : BufTy).Contents (Elt F) → (⟨S5x12x1, .i32⟩ : BufTy).Contents (Elt F) → (⟨S32768x5x12, .f32⟩ : BufTy).Contents (Elt F)),
    StableHlo.unary main_v24 main_v25 ((transpose S5x32768x12 [1, 0, 2] · transposes_S32768x5x12_S5x32768x12_1_0_2) : (⟨S32768x5x12, .f32⟩ : BufTy).Contents (Elt F) → (⟨S5x32768x12, .f32⟩ : BufTy).Contents (Elt F)),
    StableHlo.nary ![main_v7, main_v9, main_v17, main_v25] main_v26 (fun u => cat44 (F := F) (u 0) (u 1) (u 2) (u 3)) ]

/-- Operations 34 … 55: the encoder — two affine layers each followed by the maximum with zero, then the two affine heads (`main_v40`, `main_v44`). -/
abbrev opsB : List (HloOp τ sig (Elt F)) :=
  [ StableHlo.binary main_v26 main_arg4 main_v27 ((fun l r => Host.dotGeneral dot_S5x32768x44_S512x44_S5x32768x512_2_1_01_0_n_n none l r) : (⟨S5x32768x44, .f32⟩ : BufTy).Contents (Elt F) → (⟨S512x44, .f32⟩ : BufTy).Contents (Elt F) → (⟨S5x32768x512, .f32⟩ : BufTy).Contents (Elt F)),
    StableHlo.unary main_arg5 main_v28 (broadcastInDim S1x1x512 ![2] bcast_S512_S1x1x512_2 : (⟨S512, .f32⟩ : BufTy).Contents (Elt F) → (⟨S1x1x512, .f32⟩ : BufTy).Contents (Elt F)),
    StableHlo.unary main_v28 main_v29 (broadcastInDim S5x32768x512 ![0, 1, 2] bcast_S1x1x512_S5x32768x512_0_1_2 : (⟨S1x1x512, .f32⟩ : BufTy).Contents (Elt F) → (⟨S5x32768x512, .f32⟩ : BufTy).Contents (Elt F)),
    StableHlo.binary main_v27 main_v29 main_v30 (addf : (⟨S5x32768x512, .f32⟩ : BufTy).Contents (Elt F) → (⟨S5x32768x512, .f32⟩ : BufTy).Contents (Elt F) → (⟨S5x32768x512, .f32⟩ : BufTy).Contents (Elt F)),
    StableHlo.nullary main_call0_cst (constant S_ .f32 0x00000000#32),
    StableHlo.unary main_call0_cst main_call0_v0 (broadcastInDim S5x32768x512 ![] bcast_S_S5x32768x512 : (⟨S_, .f32⟩ : BufTy).Contents (Elt F) → (⟨S5x32768x512, .f32⟩ : BufTy).Contents (Elt F)),
    StableHlo.binary main_v30 main_call0_v0 main_v31 (maximumf : (⟨S5x32768x512, .f32⟩ : BufTy).Contents (Elt F) → (⟨S5x32768x512, .f32⟩ : BufTy).Contents (Elt F) → (⟨S5x32768x512, .f32⟩ : BufTy).Contents (Elt F)),
    StableHlo.binary main_v31 main_arg6 main_v32 ((fun l r => Host.dotGeneral dot_S5x32768x512_S512x512_S5x32768x512_2_1_01_0_n_n none l r) : (⟨S5x32768x512, .f32⟩ : BufTy).Contents (Elt F) → (⟨S512x512, .f32⟩ : BufTy).Contents (Elt F) → (⟨S5x32768x512, .f32⟩ : BufTy).Contents (Elt F)),
    StableHlo.unary main_arg7 main_v33 (broadcastInDim S1x1x512 ![2] bcast_S512_S1x1x512_2 : (⟨S512, .f32⟩ : BufTy).Contents (Elt F) → (⟨S1x1x512, .f32⟩ : BufTy).Contents (Elt F)),
    StableHlo.unary main_v33 main_v34 (broadcastInDim S5x32768x512 ![0, 1, 2] bcast_S1x1x512_S5x32768x512_0_1_2 : (⟨S1x1x512, .f32⟩ : BufTy).Contents (Elt F) → (⟨S5x32768x512, .f32⟩ : BufTy).Contents (Elt F)),
    StableHlo.binary main_v32 main_v34 main_v35 (addf : (⟨S5x32768x512, .f32⟩ : BufTy).Contents (Elt F) → (⟨S5x32768x512, .f32⟩ : BufTy).Contents (Elt F) → (⟨S5x32768x512, .f32⟩ : BufTy).Contents (Elt F)),
    StableHlo.nullary main_call1_cst (constant S_ .f32 0x00000000#32),
    StableHlo.unary main_call1_cst main_call1_v0 (broadcastInDim S5x32768x512 ![] bcast_S_S5x32768x512 : (⟨S_, .f32⟩ : BufTy).Contents (Elt F) → (⟨S5x32768x512, .f32⟩ : BufTy).Contents (Elt F)),
    StableHlo.binary main_v35 main_call1_v0 main_v36 (maximumf : (⟨S5x32768x512, .f32⟩ : BufTy).Contents (Elt F) → (⟨S5x32768x512, .f32⟩ : BufTy).Contents (Elt F) → (⟨S5x32768x512, .f32⟩ : BufTy).Contents (Elt F)),
    StableHlo.binary main_v36 main_arg8 main_v37 ((fun l r => Host.dotGeneral dot_S5x32768x512_S9x512_S5x32768x9_2_1_01_0_n_n none l r) : (⟨S5x32768x512, .f32⟩ : BufTy).Contents (Elt F) → (⟨S9x512, .f32⟩ : BufTy).Contents (Elt F) → (⟨S5x32768x9, .f32⟩ : BufTy).Contents (Elt F)),
    StableHlo.unary main_arg9 main_v38 (broadcastInDim S1x1x9 ![2] bcast_S9_S1x1x9_2 : (⟨S9, .f32⟩ : BufTy).Contents (Elt F) → (⟨S1x1x9, .f32⟩ : BufTy).Contents (Elt F)),
    StableHlo.unary main_v38 main_v39 (broadcastInDim S5x32768x9 ![0, 1, 2] bcast_S1x1x9_S5x32768x9_0_1_2 : (⟨S1x1x9, .f32⟩ : BufTy).Contents (Elt F) → (⟨S5x32768x9, .f32⟩ : BufTy).Contents (Elt F)),
    StableHlo.binary main_v37 main_v39 main_v40 (addf : (⟨S5x32768x9, .f32⟩ : BufTy).Contents (Elt F) → (⟨S5x32768x9, .f32⟩ : BufTy).Contents (Elt F) → (⟨S5x32768x9, .f32⟩ : BufTy).Contents (Elt F)),
    StableHlo.binary main_v36 main_arg10 main_v41 ((fun l r => Host.dotGeneral dot_S5x32768x512_S9x512_S5x32768x9_2_1_01_0_n_n none l r) : (⟨S5x32768x512, .f32⟩ : BufTy).Contents (Elt F) → (⟨S9x512, .f32⟩ : BufTy).Contents (Elt F) → (⟨S5x32768x9, .f32⟩ : BufTy).Contents (Elt F)),
    StableHlo.unary main_arg11 main_v42 (broadcastInDim S1x1x9 ![2] bcast_S9_S1x1x9_2 : (⟨S9, .f32⟩ : BufTy).Contents (Elt F) → (⟨S1x1x9, .f32⟩ : BufTy).Contents (Elt F)),
    StableHlo.unary main_v42 main_v43 (broadcastInDim S5x32768x9 ![0, 1, 2] bcast_S1x1x9_S5x32768x9_0_1_2 : (⟨S1x1x9, .f32⟩ : BufTy).Contents (Elt F) → (⟨S5x32768x9, .f32⟩ : BufTy).Contents (Elt F)),
    StableHlo.binary main_v41 main_v43 main_v44 (addf : (⟨S5x32768x9, .f32⟩ : BufTy).Contents (Elt F) → (⟨S5x32768x9, .f32⟩ : BufTy).Contents (Elt F) → (⟨S5x32768x9, .f32⟩ : BufTy).Contents (Elt F)) ]

/-- Operations 56 … 62: the latent `arg3 * exp (0.5 * main_v44) + main_v40` (`main_v49`) and the decoder's input concatenation (`main_v50`, [5, 32768, 41]). -/
abbrev opsC : List (HloOp τ sig (Elt F)) :=
  [ StableHlo.nullary main_cst (constant S_ .f32 0x3F000000#32),
    StableHlo.unary main_cst main_v45 (broadcastInDim S5x32768x9 ![] bcast_S_S5x32768x9 : (⟨S_, .f32⟩ : BufTy).Contents (Elt F) → (⟨S5x32768x9, .f32⟩ : BufTy).Contents (Elt F)),
    StableHlo.binary main_v45 main_v44 main_v46 (mulf : (⟨S5x32768x9, .f32⟩ : BufTy).Contents (Elt F) → (⟨S5x32768x9, .f32⟩ : BufTy).Contents (Elt F) → (⟨S5x32768x9, .f32⟩ : BufTy).Contents (Elt F)),
    StableHlo.unary main_v46 main_v47 (Host.exp : (⟨S5x32768x9, .f32⟩ : BufTy).Contents (Elt F) → (⟨S5x32768x9, .f32⟩ : BufTy).Contents (Elt F)),
    StableHlo.binary main_arg3 main_v47 main_v48 (mulf : (⟨S5x32768x9, .f32⟩ : BufTy).Contents (Elt F) → (⟨S5x32768x9, .f32⟩ : BufTy).Contents (Elt F) → (⟨S5x32768x9, .f32⟩ : BufTy).Contents (Elt F)),
    StableHlo.binary main_v48 main_v40 main_v49 (addf : (⟨S5x32768x9, .f32⟩ : BufTy).Contents (Elt F) → (⟨S5x32768x9, .f32⟩ : BufTy).Contents (Elt F) → (⟨S5x32768x9, .f32⟩ : BufTy).Contents (Elt F)),
    StableHlo.nary ![main_v7, main_v49, main_v9, main_v17] main_v50 (fun u => cat41 (F := F) (u 0) (u 1) (u 2) (u 3)) ]

/-- Operations 63 … 64: the decoder's first product and its bias row (the end of the first printed window). -/
abbrev opsD1 : List (HloOp τ sig (Elt F)) :=
  [ StableHlo.binary main_v50 main_arg12 main_v51 ((fun l r => Host.dotGeneral dot_S5x32768x41_S512x41_S5x32768x512_2_1_01_0_n_n none l r) : (⟨S5x32768x41, .f32⟩ : BufTy).Contents (Elt F) → (⟨S512x41, .f32⟩ : BufTy).Contents (Elt F) → (⟨S5x32768x512, .f32⟩ : BufTy).Contents (Elt F)),
    StableHlo.unary main_arg13 main_v52 (broadcastInDim S1x1x512 ![2] bcast_S512_S1x1x512_2 : (⟨S512, .f32⟩ : BufTy).Contents (Elt F) → (⟨S1x1x512, .f32⟩ : BufTy).Contents (Elt F)) ]

/-- Operations 65 … 88: the decoder — bias, maximum with zero, a second affine layer with maximum, the affine head and `1 / (1 + exp (-x))` (`main_v70`). -/
abbrev opsD2 : List (HloOp τ sig (Elt F)) :=
  [ StableHlo.unary main_v52 main_v53 (broadcastInDim S5x32768x512 ![0, 1, 2] bcast_S1x1x512_S5x32768x512_0_1_2 : (⟨S1x1x512, .f32⟩ : BufTy).Contents (Elt F) → (⟨S5x32768x512, .f32⟩ : BufTy).Contents (Elt F)),
    StableHlo.binary main_v51 main_v53 main_v54 (addf : (⟨S5x32768x512, .f32⟩ : BufTy).Contents (Elt F) → (⟨S5x32768x512, .f32⟩ : BufTy).Contents (Elt F) → (⟨S5x32768x512, .f32⟩ : BufTy).Contents (Elt F)),
    StableHlo.nullary main_call2_cst (constant S_ .f32 0x00000000#32),
    StableHlo.unary main_call2_cst main_call2_v0 (broadcastInDim S5x32768x512 ![] bcast_S_S5x32768x512 : (⟨S_, .f32⟩ : BufTy).Contents (Elt F) → (⟨S5x32768x512, .f32⟩ : BufTy).Contents (Elt F)),
    StableHlo.binary main_v54 main_call2_v0 main_v55 (maximumf : (⟨S5x32768x512, .f32⟩ : BufTy).Contents (Elt F) → (⟨S5x32768x512, .f32⟩ : BufTy).Contents (Elt F) → (⟨S5x32768x512, .f32⟩ : BufTy).Contents (Elt F)),
    StableHlo.binary main_v55 main_arg14 main_v56 ((fun l r => Host.dotGeneral dot_S5x32768x512_S512x512_S5x32768x512_2_1_01_0_n_n none l r) : (⟨S5x32768x512, .f32⟩ : BufTy).Contents (Elt F) → (⟨S512x512, .f32⟩ : BufTy).Contents (Elt F) → (⟨S5x32768x512, .f32⟩ : BufTy).Contents (Elt F)),
    StableHlo.unary main_arg15 main_v57 (broadcastInDim S1x1x512 ![2] bcast_S512_S1x1x512_2 : (⟨S512, .f32⟩ : BufTy).Contents (Elt F) → (⟨S1x1x512, .f32⟩ : BufTy).Contents (Elt F)),
    StableHlo.unary main_v57 main_v58 (broadcastInDim S5x32768x512 ![0, 1, 2] bcast_S1x1x512_S5x32768x512_0_1_2 : (⟨S1x1x512, .f32⟩ : BufTy).Contents (Elt F) → (⟨S5x32768x512, .f32⟩ : BufTy).Contents (Elt F)),
    StableHlo.binary main_v56 main_v58 main_v59 (addf : (⟨S5x32768x512, .f32⟩ : BufTy).Contents (Elt F) → (⟨S5x32768x512, .f32⟩ : BufTy).Contents (Elt F) → (⟨S5x32768x512, .f32⟩ : BufTy).Contents (Elt F)),
    StableHlo.nullary main_call3_cst (constant S_ .f32 0x00000000#32),
    StableHlo.unary main_call3_cst main_call3_v0 (broadcastInDim S5x32768x512 ![] bcast_S_S5x32768x512 : (⟨S_, .f32⟩ : BufTy).Contents (Elt F) → (⟨S5x32768x512, .f32⟩ : BufTy).Contents (Elt F)),
    StableHlo.binary main_v59 main_call3_v0 main_v60 (maximumf : (⟨S5x32768x512, .f32⟩ : BufTy).Contents (Elt F) → (⟨S5x32768x512, .f32⟩ : BufTy).Contents (Elt F) → (⟨S5x32768x512, .f32⟩ : BufTy).Contents (Elt F)),
    StableHlo.binary main_v60 main_arg16 main_v61 ((fun l r => Host.dotGeneral dot_S5x32768x512_S12x512_S5x32768x12_2_1_01_0_n_n none l r) : (⟨S5x32768x512, .f32⟩ : BufTy).Contents (Elt F) → (⟨S12x512, .f32⟩ : BufTy).Contents (Elt F) → (⟨S5x32768x12, .f32⟩ : BufTy).Contents (Elt F)),
    StableHlo.unary main_arg17 main_v62 (broadcastInDim S1x1x12 ![2] bcast_S12_S1x1x12_2 : (⟨S12, .f32⟩ : BufTy).Contents (Elt F) → (⟨S1x1x12, .f32⟩ : BufTy).Contents (Elt F)),
    StableHlo.unary main_v62 main_v63 (broadcastInDim S5x32768x12 ![0, 1, 2] bcast_S1x1x12_S5x32768x12_0_1_2 : (⟨S1x1x12, .f32⟩ : BufTy).Contents (Elt F) → (⟨S5x32768x12, .f32⟩ : BufTy).Contents (Elt F)),
    StableHlo.binary main_v61 main_v63 main_v64 (addf : (⟨S5x32768x12, .f32⟩ : BufTy).Contents (Elt F) → (⟨S5x32768x12, .f32⟩ : BufTy).Contents (Elt F) → (⟨S5x32768x12, .f32⟩ : BufTy).Contents (Elt F)),
    StableHlo.unary main_v64 main_v65 (Host.negf : (⟨S5x32768x12, .f32⟩ : BufTy).Contents (Elt F) → (⟨S5x32768x12, .f32⟩ : BufTy).Contents (Elt F)),
    StableHlo.unary main_v65 main_v66 (Host.exp : (⟨S5x32768x12, .f32⟩ : BufTy).Contents (Elt F) → (⟨S5x32768x12, .f32⟩ : BufTy).Contents (Elt F)),
    StableHlo.nullary main_cst_5 (constant S_ .f32 0x3F800000#32),
    StableHlo.unary main_cst_5 main_v67 (broadcastInDim S5x32768x12 ![] bcast_S_S5x32768x12 : (⟨S_, .f32⟩ : BufTy).Contents (Elt F) → (⟨S5x32768x12, .f32⟩ : BufTy).Contents (Elt F)),
    StableHlo.binary main_v67 main_v66 main_v68 (addf : (⟨S5x32768x12, .f32⟩ : BufTy).Contents (Elt F) → (⟨S5x32768x12, .f32⟩ : BufTy).Contents (Elt F) → (⟨S5x32768x12, .f32⟩ : BufTy).Contents (Elt F)),
    StableHlo.nullary main_cst_6 (constant S_ .f32 0x3F800000#32),
    StableHlo.unary main_cst_6 main_v69 (broadcastInDim S5x32768x12 ![] bcast_S_S5x32768x12 : (⟨S_, .f32⟩ : BufTy).Contents (Elt F) → (⟨S5x32768x12, .f32⟩ : BufTy).Contents (Elt F)),
    StableHlo.binary main_v69 main_v68 main_v70 (Host.divf : (⟨S5x32768x12, .f32⟩ : BufTy).Contents (Elt F) → (⟨S5x32768x12, .f32⟩ : BufTy).Contents (Elt F) → (⟨S5x32768x12, .f32⟩ : BufTy).Contents (Elt F)) ]

/-- Operations 89 … 100: the zero array, the transposed decoder output, the edge-index table again and the scatter-add (`main_v79`). -/
abbrev opsE : List (HloOp τ sig (Elt F)) :=
  [ StableHlo.nullary main_cst_7 (constant S_ .f32 0x00000000#32),
    StableHlo.unary main_cst_7 main_v71 (broadcastInDim S32768x30 ![] bcast_S_S32768x30 : (⟨S_, .f32⟩ : BufTy).Contents (Elt F) → (⟨S32768x30, .f32⟩ : BufTy).Contents (Elt F)),
    StableHlo.unary main_v70 main_v72 ((transpose S32768x5x12 [1, 0, 2] · transposes_S5x32768x12_S32768x5x12_1_0_2) : (⟨S5x32768x12, .f32⟩ : BufTy).Contents (Elt F) → (⟨S32768x5x12, .f32⟩ : BufTy).Contents (Elt F)),
    StableHlo.nullary main_c_8 (constantI S_ 32 0#32),
    StableHlo.unary main_c_8 main_v73 (broadcastInDim S5x12 ![] bcast_S_S5x12 : (⟨S_, .i32⟩ : BufTy).Contents (Elt F) → (⟨S5x12, .i32⟩ : BufTy).Contents (Elt F)),
    StableHlo.binary main_c main_v73 main_v74 (cmpi .slt : (⟨S5x12, .i32⟩ : BufTy).Contents (Elt F) → (⟨S5x12, .i32⟩ : BufTy).Contents (Elt F) → (⟨S5x12, .i1⟩ : BufTy).Contents (Elt F)),
    StableHlo.nullary main_c_9 (constantI S_ 32 30#32),
    StableHlo.unary main_c_9 main_v75 (broadcastInDim S5x12 ![] bcast_S_S5x12 : (⟨S_, .i32⟩ : BufTy).Contents (Elt F) → (⟨S5x12, .i32⟩ : BufTy).Contents (Elt F)),
    StableHlo.binary main_c main_v75 main_v76 (addi : (⟨S5x12, .i32⟩ : BufTy).Contents (Elt F) → (⟨S5x12, .i32⟩ : BufTy).Contents (Elt F) → (⟨S5x12, .i32⟩ : BufTy).Contents (Elt F)),
    StableHlo.ternary main_v74 main_v76 main_c main_v77 (select : (⟨S5x12, .i1⟩ : BufTy).Contents (Elt F) → (⟨S5x12, .i32⟩ : BufTy).Contents (Elt F) → (⟨S5x12, .i32⟩ : BufTy).Contents (Elt F) → (⟨S5x12, .i32⟩ : BufTy).Contents (Elt F)),
    StableHlo.unary main_v77 main_v78 (broadcastInDim S5x12x1 ![0, 1] bcast_S5x12_S5x12x1_0_1 : (⟨S5x12, .i32⟩ : BufTy).Contents (Elt F) → (⟨S5x12x1, .i32⟩ : BufTy).Contents (Elt F)),
    StableHlo.ternary main_v71 main_v78 main_v72 main_v79 ((fun x i u => Host.scatterAdd scatter_S32768x30_S5x12x1_S32768x5x12_0_1_1_2 x i u) : (⟨S32768x30, .f32⟩ : BufTy).Contents (Elt F) → (⟨S5x12x1, .i32⟩ : BufTy).Contents (Elt F) → (⟨S32768x5x12, .f32⟩ : BufTy).Contents (Elt F) → (⟨S32768x30, .f32⟩ : BufTy).Contents (Elt F)) ]

/-- The first printed window's operations (1 … 64). -/
abbrev ops_part0 : List (HloOp τ sig (Elt F)) := opsA ++ (opsB ++ (opsC ++ opsD1))
/-- The second printed window's operations (65 … 100). -/
abbrev ops_part1 : List (HloOp τ sig (Elt F)) := opsD2 ++ opsE
/-- @main's 100 operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
/-- @main is that straight line: the two windows in order are the concatenated list run as one. -/
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub ..⟩
set_option maxRecDepth 8192 in
theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., unary_bufs_sub .., binary_bufs_sub .., binary_bufs_sub .., nary_bufs_sub ..⟩
set_option maxRecDepth 8192 in
theorem opsD1_sub : (opsD1 : List (HloOp τ sig (Elt F))).Forall fun op => op.bufs ⊆ tcRefs τ sig :=
  ⟨binary_bufs_sub .., unary_bufs_sub ..⟩
set_option maxRecDepth 8192 in
theorem opsD2_sub : (opsD2 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
theorem opsE_sub : (opsE : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem ops_sub : (ops : List (HloOp τ sig (Elt F))).Forall fun op => op.bufs ⊆ tcRefs τ sig :=
  List.forall_iff_forall_mem.mpr fun op h => by
    simp only [ops, ops_part0, ops_part1, List.mem_append] at h
    rcases h with (h | h | h | h) | h | h
    exacts [List.forall_iff_forall_mem.mp opsA_sub op h, List.forall_iff_forall_mem.mp opsB_sub op h, List.forall_iff_forall_mem.mp opsC_sub op h,
      List.forall_iff_forall_mem.mp opsD1_sub op h, List.forall_iff_forall_mem.mp opsD2_sub op h, List.forall_iff_forall_mem.mp opsE_sub op h]

/-- On every device, for any float values, from any memory with zero counters: every weakly fair execution of
    @main terminates, and every final state has each buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (fun b => m (c, b)) (Proc.devRef .tc b) :=
  run_seq scopedRefs_eq scopedSems_eq defs main (fun _ => ops) main_eq (fun _ => ops_sub) m ρ

/-! ## The buffers each stretch writes -/

/-- Each operation of a literal list writes one buffer, a member of the list of references beside it. -/
local macro "writes_in" : tactic =>
  `(tactic| (simp only [nullary_writes, unary_writes, binary_writes, ternary_writes, nary_writes, Finset.singleton_subset_iff, List.mem_toFinset]
             exact List.mem_map_of_mem (by decide)))

/-- The buffers `opsA` writes. -/
abbrev W_A : List (Ref sig .tc) := [main_c, main_v0, main_v1, main_c_0, main_v2, main_v3, main_v4, main_v5, main_v6, main_v7, main_v8, main_v9, main_c_1, main_v10, main_v11, main_c_2, main_v12, main_v13, main_v14, main_v15, main_v16, main_v17, main_c_3, main_v18, main_v19, main_c_4, main_v20, main_v21, main_v22, main_v23, main_v24, main_v25, main_v26]
set_option maxRecDepth 8192 in
theorem opsA_writes : (opsA : List (HloOp τ sig (Elt F))).Forall fun op => op.writes ⊆ (W_A.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩
/-- A buffer `opsA` does not write keeps its contents through it. -/
theorem opsA_keep (V : Valuation τ sig (Elt F)) {r : Ref sig .tc} (h : r ∉ W_A) :
    after opsA V (Proc.devRef .tc r) = V (Proc.devRef .tc r) :=
  after_of_writes_sub opsA V opsA_writes h

/-- The buffers `opsB` writes. -/
abbrev W_B : List (Ref sig .tc) := [main_v27, main_v28, main_v29, main_v30, main_call0_cst, main_call0_v0, main_v31, main_v32, main_v33, main_v34, main_v35, main_call1_cst, main_call1_v0, main_v36, main_v37, main_v38, main_v39, main_v40, main_v41, main_v42, main_v43, main_v44]
set_option maxRecDepth 8192 in
theorem opsB_writes : (opsB : List (HloOp τ sig (Elt F))).Forall fun op => op.writes ⊆ (W_B.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩
/-- A buffer `opsB` does not write keeps its contents through it. -/
theorem opsB_keep (V : Valuation τ sig (Elt F)) {r : Ref sig .tc} (h : r ∉ W_B) :
    after opsB V (Proc.devRef .tc r) = V (Proc.devRef .tc r) :=
  after_of_writes_sub opsB V opsB_writes h

/-- The buffers `opsC` writes. -/
abbrev W_C : List (Ref sig .tc) := [main_cst, main_v45, main_v46, main_v47, main_v48, main_v49, main_v50]
set_option maxRecDepth 8192 in
theorem opsC_writes : (opsC : List (HloOp τ sig (Elt F))).Forall fun op => op.writes ⊆ (W_C.map (Proc.devRef (τ := τ) .tc)).toFinset := by
  simp only [List.Forall]; exact ⟨by writes_in, by writes_in, by writes_in, by writes_in, by writes_in, by writes_in, by writes_in⟩
/-- A buffer `opsC` does not write keeps its contents through it. -/
theorem opsC_keep (V : Valuation τ sig (Elt F)) {r : Ref sig .tc} (h : r ∉ W_C) :
    after opsC V (Proc.devRef .tc r) = V (Proc.devRef .tc r) :=
  after_of_writes_sub opsC V opsC_writes h

/-- The buffers `opsD1` writes. -/
abbrev W_D1 : List (Ref sig .tc) := [main_v51, main_v52]
set_option maxRecDepth 8192 in
theorem opsD1_writes : (opsD1 : List (HloOp τ sig (Elt F))).Forall fun op => op.writes ⊆ (W_D1.map (Proc.devRef (τ := τ) .tc)).toFinset := by
  simp only [List.Forall]; exact ⟨by writes_in, by writes_in⟩
/-- A buffer `opsD1` does not write keeps its contents through it. -/
theorem opsD1_keep (V : Valuation τ sig (Elt F)) {r : Ref sig .tc} (h : r ∉ W_D1) :
    after opsD1 V (Proc.devRef .tc r) = V (Proc.devRef .tc r) :=
  after_of_writes_sub opsD1 V opsD1_writes h

/-- The buffers `opsD2` writes. -/
abbrev W_D2 : List (Ref sig .tc) := [main_v53, main_v54, main_call2_cst, main_call2_v0, main_v55, main_v56, main_v57, main_v58, main_v59, main_call3_cst, main_call3_v0, main_v60, main_v61, main_v62, main_v63, main_v64, main_v65, main_v66, main_cst_5, main_v67, main_v68, main_cst_6, main_v69, main_v70]
set_option maxRecDepth 8192 in
theorem opsD2_writes : (opsD2 : List (HloOp τ sig (Elt F))).Forall fun op => op.writes ⊆ (W_D2.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩
/-- A buffer `opsD2` does not write keeps its contents through it. -/
theorem opsD2_keep (V : Valuation τ sig (Elt F)) {r : Ref sig .tc} (h : r ∉ W_D2) :
    after opsD2 V (Proc.devRef .tc r) = V (Proc.devRef .tc r) :=
  after_of_writes_sub opsD2 V opsD2_writes h

/-- The buffers `opsE` writes. -/
abbrev W_E : List (Ref sig .tc) := [main_cst_7, main_v71, main_v72, main_c_8, main_v73, main_v74, main_c_9, main_v75, main_v76, main_v77, main_v78, main_v79]
set_option maxRecDepth 8192 in
theorem opsE_writes : (opsE : List (HloOp τ sig (Elt F))).Forall fun op => op.writes ⊆ (W_E.map (Proc.devRef (τ := τ) .tc)).toFinset := by
  simp only [List.Forall]; exact ⟨by writes_in, by writes_in, by writes_in, by writes_in, by writes_in, by writes_in, by writes_in, by writes_in, by writes_in, by writes_in, by writes_in, by writes_in⟩
/-- A buffer `opsE` does not write keeps its contents through it. -/
theorem opsE_keep (V : Valuation τ sig (Elt F)) {r : Ref sig .tc} (h : r ∉ W_E) :
    after opsE V (Proc.devRef .tc r) = V (Proc.devRef .tc r) :=
  after_of_writes_sub opsE V opsE_writes h

/-- The fold over the whole list is the stretches' folds in order. -/
theorem after_ops (V : Valuation τ sig (Elt F)) :
    after ops V = after opsE (after opsD2 (after opsD1 (after opsC (after opsB (after opsA V))))) := by
  simp only [ops, ops_part0, ops_part1, after_append]

/-- Every buffer @main writes. -/
abbrev W : List (Ref sig .tc) := W_A ++ (W_B ++ (W_C ++ (W_D1 ++ (W_D2 ++ W_E))))

/-- A buffer no operation writes keeps its launch contents. -/
theorem after_ops_keep (V : Valuation τ sig (Elt F)) {r : Ref sig .tc} (h : r ∉ W) :
    after ops V (Proc.devRef .tc r) = V (Proc.devRef .tc r) := by
  simp only [W, List.mem_append, not_or] at h
  obtain ⟨hA, hB, hC, hD1, hD2, hE⟩ := h
  rw [after_ops, opsE_keep _ hE, opsD2_keep _ hD2, opsD1_keep _ hD1, opsC_keep _ hC, opsB_keep _ hB, opsA_keep _ hA]

theorem kept_main_arg0 (m : (ℓ : Loc nD τ sig) → Buf (Elt F) ℓ) (c : Dev nD) :
    StableHlo.after ops (fun b => m (c, b)) (Proc.devRef .tc main_arg0) = m ((c.tc : Thread nD τ).loc main_arg0) :=
  after_ops_keep (fun b => m (c, b)) (by decide)
theorem kept_main_arg1 (m : (ℓ : Loc nD τ sig) → Buf (Elt F) ℓ) (c : Dev nD) :
    StableHlo.after ops (fun b => m (c, b)) (Proc.devRef .tc main_arg1) = m ((c.tc : Thread nD τ).loc main_arg1) :=
  after_ops_keep (fun b => m (c, b)) (by decide)
theorem kept_main_arg2 (m : (ℓ : Loc nD τ sig) → Buf (Elt F) ℓ) (c : Dev nD) :
    StableHlo.after ops (fun b => m (c, b)) (Proc.devRef .tc main_arg2) = m ((c.tc : Thread nD τ).loc main_arg2) :=
  after_ops_keep (fun b => m (c, b)) (by decide)
theorem kept_main_arg3 (m : (ℓ : Loc nD τ sig) → Buf (Elt F) ℓ) (c : Dev nD) :
    StableHlo.after ops (fun b => m (c, b)) (Proc.devRef .tc main_arg3) = m ((c.tc : Thread nD τ).loc main_arg3) :=
  after_ops_keep (fun b => m (c, b)) (by decide)
theorem kept_main_arg4 (m : (ℓ : Loc nD τ sig) → Buf (Elt F) ℓ) (c : Dev nD) :
    StableHlo.after ops (fun b => m (c, b)) (Proc.devRef .tc main_arg4) = m ((c.tc : Thread nD τ).loc main_arg4) :=
  after_ops_keep (fun b => m (c, b)) (by decide)
theorem kept_main_arg5 (m : (ℓ : Loc nD τ sig) → Buf (Elt F) ℓ) (c : Dev nD) :
    StableHlo.after ops (fun b => m (c, b)) (Proc.devRef .tc main_arg5) = m ((c.tc : Thread nD τ).loc main_arg5) :=
  after_ops_keep (fun b => m (c, b)) (by decide)
theorem kept_main_arg6 (m : (ℓ : Loc nD τ sig) → Buf (Elt F) ℓ) (c : Dev nD) :
    StableHlo.after ops (fun b => m (c, b)) (Proc.devRef .tc main_arg6) = m ((c.tc : Thread nD τ).loc main_arg6) :=
  after_ops_keep (fun b => m (c, b)) (by decide)
theorem kept_main_arg7 (m : (ℓ : Loc nD τ sig) → Buf (Elt F) ℓ) (c : Dev nD) :
    StableHlo.after ops (fun b => m (c, b)) (Proc.devRef .tc main_arg7) = m ((c.tc : Thread nD τ).loc main_arg7) :=
  after_ops_keep (fun b => m (c, b)) (by decide)
theorem kept_main_arg8 (m : (ℓ : Loc nD τ sig) → Buf (Elt F) ℓ) (c : Dev nD) :
    StableHlo.after ops (fun b => m (c, b)) (Proc.devRef .tc main_arg8) = m ((c.tc : Thread nD τ).loc main_arg8) :=
  after_ops_keep (fun b => m (c, b)) (by decide)
theorem kept_main_arg9 (m : (ℓ : Loc nD τ sig) → Buf (Elt F) ℓ) (c : Dev nD) :
    StableHlo.after ops (fun b => m (c, b)) (Proc.devRef .tc main_arg9) = m ((c.tc : Thread nD τ).loc main_arg9) :=
  after_ops_keep (fun b => m (c, b)) (by decide)
theorem kept_main_arg10 (m : (ℓ : Loc nD τ sig) → Buf (Elt F) ℓ) (c : Dev nD) :
    StableHlo.after ops (fun b => m (c, b)) (Proc.devRef .tc main_arg10) = m ((c.tc : Thread nD τ).loc main_arg10) :=
  after_ops_keep (fun b => m (c, b)) (by decide)
theorem kept_main_arg11 (m : (ℓ : Loc nD τ sig) → Buf (Elt F) ℓ) (c : Dev nD) :
    StableHlo.after ops (fun b => m (c, b)) (Proc.devRef .tc main_arg11) = m ((c.tc : Thread nD τ).loc main_arg11) :=
  after_ops_keep (fun b => m (c, b)) (by decide)
theorem kept_main_arg12 (m : (ℓ : Loc nD τ sig) → Buf (Elt F) ℓ) (c : Dev nD) :
    StableHlo.after ops (fun b => m (c, b)) (Proc.devRef .tc main_arg12) = m ((c.tc : Thread nD τ).loc main_arg12) :=
  after_ops_keep (fun b => m (c, b)) (by decide)
theorem kept_main_arg13 (m : (ℓ : Loc nD τ sig) → Buf (Elt F) ℓ) (c : Dev nD) :
    StableHlo.after ops (fun b => m (c, b)) (Proc.devRef .tc main_arg13) = m ((c.tc : Thread nD τ).loc main_arg13) :=
  after_ops_keep (fun b => m (c, b)) (by decide)
theorem kept_main_arg14 (m : (ℓ : Loc nD τ sig) → Buf (Elt F) ℓ) (c : Dev nD) :
    StableHlo.after ops (fun b => m (c, b)) (Proc.devRef .tc main_arg14) = m ((c.tc : Thread nD τ).loc main_arg14) :=
  after_ops_keep (fun b => m (c, b)) (by decide)
theorem kept_main_arg15 (m : (ℓ : Loc nD τ sig) → Buf (Elt F) ℓ) (c : Dev nD) :
    StableHlo.after ops (fun b => m (c, b)) (Proc.devRef .tc main_arg15) = m ((c.tc : Thread nD τ).loc main_arg15) :=
  after_ops_keep (fun b => m (c, b)) (by decide)
theorem kept_main_arg16 (m : (ℓ : Loc nD τ sig) → Buf (Elt F) ℓ) (c : Dev nD) :
    StableHlo.after ops (fun b => m (c, b)) (Proc.devRef .tc main_arg16) = m ((c.tc : Thread nD τ).loc main_arg16) :=
  after_ops_keep (fun b => m (c, b)) (by decide)
theorem kept_main_arg17 (m : (ℓ : Loc nD τ sig) → Buf (Elt F) ℓ) (c : Dev nD) :
    StableHlo.after ops (fun b => m (c, b)) (Proc.devRef .tc main_arg17) = m ((c.tc : Thread nD τ).loc main_arg17) :=
  after_ops_keep (fun b => m (c, b)) (by decide)

end Cert.ReferenceIdeal.RefRun

end
-- ==== Proof.RefStages.lean ====
/- The reference program's results, stage by stage: each named buffer's contents after @main's 100 operations
   as a short composed term of the argument arrays. The operations' pure functions are composed into named
   stages (the index table, the concatenated input, an affine layer followed by the maximum with zero, the
   affine heads, the latent, the logistic function, the scatter-add), and the fold over the operation list is
   evaluated stretch by stretch, so that a comparison with another program's result never meets the list. -/
import proofs.«173347_j68530498175289_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages' pure functions -/

/-- The 5×12 table of edge indices (entries in 0 … 29). -/
def idxTab : (⟨S5x12, .i32⟩ : BufTy).Contents (Elt F) := fun i => lit0 (S5x12.rowMajor i)

/-- A 5×12 integer table as a [5, 12, 1] index array, an entry below zero moved up by 30 (as the gather and the scatter read it). -/
def idxOf (t : (⟨S5x12, .i32⟩ : BufTy).Contents (Elt F)) : (⟨S5x12x1, .i32⟩ : BufTy).Contents (Elt F) :=
  broadcastInDim S5x12x1 ![0, 1] bcast_S5x12_S5x12x1_0_1
    (select (cmpi .slt t (broadcastInDim S5x12 ![] bcast_S_S5x12 (constantI S_ 32 0#32 : (⟨S_, .i32⟩ : BufTy).Contents (Elt F)) : (⟨S5x12, .i32⟩ : BufTy).Contents (Elt F)) : (⟨S5x12, .i1⟩ : BufTy).Contents (Elt F))
      (addi t (broadcastInDim S5x12 ![] bcast_S_S5x12 (constantI S_ 32 30#32 : (⟨S_, .i32⟩ : BufTy).Contents (Elt F)) : (⟨S5x12, .i32⟩ : BufTy).Contents (Elt F)) : (⟨S5x12, .i32⟩ : BufTy).Contents (Elt F))
      t : (⟨S5x12, .i32⟩ : BufTy).Contents (Elt F))

/-- The edge-index table as the index array. -/
def idx : (⟨S5x12x1, .i32⟩ : BufTy).Contents (Elt F) := idxOf (F := F) (idxTab (F := F))

/-- The 5×5 identity matrix as floats, repeated along the batch axis: [5, 32768, 5]. -/
def eye5 : (⟨S5x32768x5, .f32⟩ : BufTy).Contents (Elt F) :=
  broadcastInDim S5x32768x5 ![0, 1, 2] bcast_S5x1x5_S5x32768x5_0_1_2
    (broadcastInDim S5x1x5 ![0, 2] bcast_S5x5_S5x1x5_0_2
      (uitofp .f32 (cmpi .eq (addi (iotaInDim S5x5 32 0 : (⟨S5x5, .i32⟩ : BufTy).Contents (Elt F)) (broadcastInDim S5x5 ![] bcast_S_S5x5 (constantI S_ 32 0#32 : (⟨S_, .i32⟩ : BufTy).Contents (Elt F)) : (⟨S5x5, .i32⟩ : BufTy).Contents (Elt F)) : (⟨S5x5, .i32⟩ : BufTy).Contents (Elt F))
        (iotaInDim S5x5 32 1 : (⟨S5x5, .i32⟩ : BufTy).Contents (Elt F)) : (⟨S5x5, .i1⟩ : BufTy).Contents (Elt F)) : (⟨S5x5, .f32⟩ : BufTy).Contents (Elt F)) : (⟨S5x1x5, .f32⟩ : BufTy).Contents (Elt F))

/-- The conditioning input repeated along the leading axis: [5, 32768, 15]. -/
def bcond (a1 : (⟨S32768x15, .f32⟩ : BufTy).Contents (Elt F)) : (⟨S5x32768x15, .f32⟩ : BufTy).Contents (Elt F) :=
  broadcastInDim S5x32768x15 ![0, 1, 2] bcast_S1x32768x15_S5x32768x15_0_1_2
    (broadcastInDim S1x32768x15 ![1, 2] bcast_S32768x15_S1x32768x15_1_2 a1 : (⟨S1x32768x15, .f32⟩ : BufTy).Contents (Elt F))

/-- The columns of a [32768, 30] array the index table names, as [5, 32768, 12]. -/
def gath (a : (⟨S32768x30, .f32⟩ : BufTy).Contents (Elt F)) : (⟨S5x32768x12, .f32⟩ : BufTy).Contents (Elt F) :=
  transpose S5x32768x12 [1, 0, 2] (Host.gather gather_S32768x30_S5x12x1_S32768x5x12_0_1_n_n_1_2_327681 a (idx (F := F)) : (⟨S32768x5x12, .f32⟩ : BufTy).Contents (Elt F)) transposes_S32768x5x12_S5x32768x12_1_0_2

/-- The encoder's input (`main_v26`): identity rows, conditioning, and the gathered columns of the two edge arrays. -/
def x3 (a0 : (⟨S32768x30, .f32⟩ : BufTy).Contents (Elt F)) (a1 : (⟨S32768x15, .f32⟩ : BufTy).Contents (Elt F)) (a2 : (⟨S32768x30, .f32⟩ : BufTy).Contents (Elt F)) : (⟨S5x32768x44, .f32⟩ : BufTy).Contents (Elt F) :=
  cat44 (eye5 (F := F)) (bcond (F := F) a1) (gath (F := F) a0) (gath (F := F) a2)

/-- A bias row of width 512 repeated over the leading axes. -/
def bias512 (b : (⟨S512, .f32⟩ : BufTy).Contents (Elt F)) : (⟨S5x32768x512, .f32⟩ : BufTy).Contents (Elt F) :=
  broadcastInDim S5x32768x512 ![0, 1, 2] bcast_S1x1x512_S5x32768x512_0_1_2 (broadcastInDim S1x1x512 ![2] bcast_S512_S1x1x512_2 b : (⟨S1x1x512, .f32⟩ : BufTy).Contents (Elt F))
/-- A bias row of width 9 repeated over the leading axes. -/
def bias9 (b : (⟨S9, .f32⟩ : BufTy).Contents (Elt F)) : (⟨S5x32768x9, .f32⟩ : BufTy).Contents (Elt F) :=
  broadcastInDim S5x32768x9 ![0, 1, 2] bcast_S1x1x9_S5x32768x9_0_1_2 (broadcastInDim S1x1x9 ![2] bcast_S9_S1x1x9_2 b : (⟨S1x1x9, .f32⟩ : BufTy).Contents (Elt F))
/-- A bias row of width 12 repeated over the leading axes. -/
def bias12 (b : (⟨S12, .f32⟩ : BufTy).Contents (Elt F)) : (⟨S5x32768x12, .f32⟩ : BufTy).Contents (Elt F) :=
  broadcastInDim S5x32768x12 ![0, 1, 2] bcast_S1x1x12_S5x32768x12_0_1_2 (broadcastInDim S1x1x12 ![2] bcast_S12_S1x1x12_2 b : (⟨S1x1x12, .f32⟩ : BufTy).Contents (Elt F))

/-- The maximum with zero, elementwise, at width 512. -/
def relu (x : (⟨S5x32768x512, .f32⟩ : BufTy).Contents (Elt F)) : (⟨S5x32768x512, .f32⟩ : BufTy).Contents (Elt F) :=
  maximumf x (broadcastInDim S5x32768x512 ![] bcast_S_S5x32768x512 (constant S_ .f32 0x00000000#32 : (⟨S_, .f32⟩ : BufTy).Contents (Elt F)) : (⟨S5x32768x512, .f32⟩ : BufTy).Contents (Elt F))

/-- `max (x · wᵀ + b) 0` from width 44 to width 512 (`main_v31`). -/
def lay44 (x : (⟨S5x32768x44, .f32⟩ : BufTy).Contents (Elt F)) (w : (⟨S512x44, .f32⟩ : BufTy).Contents (Elt F)) (b : (⟨S512, .f32⟩ : BufTy).Contents (Elt F)) : (⟨S5x32768x512, .f32⟩ : BufTy).Contents (Elt F) :=
  relu (F := F) (addf (Host.dotGeneral dot_S5x32768x44_S512x44_S5x32768x512_2_1_01_0_n_n none x w : (⟨S5x32768x512, .f32⟩ : BufTy).Contents (Elt F)) (bias512 (F := F) b))
/-- `max (x · wᵀ + b) 0` from width 512 to width 512 (`main_v36`, `main_v60`). -/
def lay512 (x : (⟨S5x32768x512, .f32⟩ : BufTy).Contents (Elt F)) (w : (⟨S512x512, .f32⟩ : BufTy).Contents (Elt F)) (b : (⟨S512, .f32⟩ : BufTy).Contents (Elt F)) : (⟨S5x32768x512, .f32⟩ : BufTy).Contents (Elt F) :=
  relu (F := F) (addf (Host.dotGeneral dot_S5x32768x512_S512x512_S5x32768x512_2_1_01_0_n_n none x w : (⟨S5x32768x512, .f32⟩ : BufTy).Contents (Elt F)) (bias512 (F := F) b))
/-- `max (x · wᵀ + b) 0` from width 41 to width 512 (`main_v55`). -/
def lay41 (x : (⟨S5x32768x41, .f32⟩ : BufTy).Contents (Elt F)) (w : (⟨S512x41, .f32⟩ : BufTy).Contents (Elt F)) (b : (⟨S512, .f32⟩ : BufTy).Contents (Elt F)) : (⟨S5x32768x512, .f32⟩ : BufTy).Contents (Elt F) :=
  relu (F := F) (addf (Host.dotGeneral dot_S5x32768x41_S512x41_S5x32768x512_2_1_01_0_n_n none x w : (⟨S5x32768x512, .f32⟩ : BufTy).Contents (Elt F)) (bias512 (F := F) b))
/-- `x · wᵀ + b` from width 512 to width 9 (`main_v40`, `main_v44`). -/
def head9 (x : (⟨S5x32768x512, .f32⟩ : BufTy).Contents (Elt F)) (w : (⟨S9x512, .f32⟩ : BufTy).Contents (Elt F)) (b : (⟨S9, .f32⟩ : BufTy).Contents (Elt F)) : (⟨S5x32768x9, .f32⟩ : BufTy).Contents (Elt F) :=
  addf (Host.dotGeneral dot_S5x32768x512_S9x512_S5x32768x9_2_1_01_0_n_n none x w : (⟨S5x32768x9, .f32⟩ : BufTy).Contents (Elt F)) (bias9 (F := F) b)
/-- `x · wᵀ + b` from width 512 to width 12 (`main_v64`). -/
def head12 (x : (⟨S5x32768x512, .f32⟩ : BufTy).Contents (Elt F)) (w : (⟨S12x512, .f32⟩ : BufTy).Contents (Elt F)) (b : (⟨S12, .f32⟩ : BufTy).Contents (Elt F)) : (⟨S5x32768x12, .f32⟩ : BufTy).Contents (Elt F) :=
  addf (Host.dotGeneral dot_S5x32768x512_S12x512_S5x32768x12_2_1_01_0_n_n none x w : (⟨S5x32768x12, .f32⟩ : BufTy).Contents (Elt F)) (bias12 (F := F) b)

/-- The latent `ε * exp (0.5 * logvar) + mean` (`main_v49`). -/
def latent (eps lv mu : (⟨S5x32768x9, .f32⟩ : BufTy).Contents (Elt F)) : (⟨S5x32768x9, .f32⟩ : BufTy).Contents (Elt F) :=
  addf (mulf eps (Host.exp (mulf (broadcastInDim S5x32768x9 ![] bcast_S_S5x32768x9 (constant S_ .f32 0x3F000000#32 : (⟨S_, .f32⟩ : BufTy).Contents (Elt F)) : (⟨S5x32768x9, .f32⟩ : BufTy).Contents (Elt F)) lv))) mu

/-- The decoder's input (`main_v50`): identity rows, the latent, conditioning, and the gathered columns of the first edge array. -/
def y3 (z : (⟨S5x32768x9, .f32⟩ : BufTy).Contents (Elt F)) (a0 : (⟨S32768x30, .f32⟩ : BufTy).Contents (Elt F)) (a1 : (⟨S32768x15, .f32⟩ : BufTy).Contents (Elt F)) : (⟨S5x32768x41, .f32⟩ : BufTy).Contents (Elt F) :=
  cat41 (eye5 (F := F)) z (bcond (F := F) a1) (gath (F := F) a0)

/-- The constant one at [5, 32768, 12]. -/
def one12 : (⟨S5x32768x12, .f32⟩ : BufTy).Contents (Elt F) :=
  broadcastInDim S5x32768x12 ![] bcast_S_S5x32768x12 (constant S_ .f32 0x3F800000#32 : (⟨S_, .f32⟩ : BufTy).Contents (Elt F))

/-- The logistic function `1 / (1 + exp (-x))`, elementwise (`main_v70`). -/
def sigm (x : (⟨S5x32768x12, .f32⟩ : BufTy).Contents (Elt F)) : (⟨S5x32768x12, .f32⟩ : BufTy).Contents (Elt F) :=
  Host.divf (one12 (F := F)) (addf (one12 (F := F)) (Host.exp (Host.negf x)))

/-- The scatter-add of an array `s` (transposed to [32768, 5, 12]) into a zero [32768, 30] array at the columns a table `t` names. -/
def scatAt (t : (⟨S5x12, .i32⟩ : BufTy).Contents (Elt F)) (s : (⟨S5x32768x12, .f32⟩ : BufTy).Contents (Elt F)) : (⟨S32768x30, .f32⟩ : BufTy).Contents (Elt F) :=
  Host.scatterAdd scatter_S32768x30_S5x12x1_S32768x5x12_0_1_1_2
    (broadcastInDim S32768x30 ![] bcast_S_S32768x30 (constant S_ .f32 0x00000000#32 : (⟨S_, .f32⟩ : BufTy).Contents (Elt F)) : (⟨S32768x30, .f32⟩ : BufTy).Contents (Elt F))
    (idxOf (F := F) t)
    (transpose S32768x5x12 [1, 0, 2] s transposes_S5x32768x12_S32768x5x12_1_0_2 : (⟨S32768x5x12, .f32⟩ : BufTy).Contents (Elt F))

/-- The scatter-add of the decoder's output at the edge-index table's columns (`main_v79`). -/
def scat (s : (⟨S5x32768x12, .f32⟩ : BufTy).Contents (Elt F)) : (⟨S32768x30, .f32⟩ : BufTy).Contents (Elt F) := scatAt (F := F) (idxTab (F := F)) s

/-! ## The two concatenations' results, their operands read at their own buffers -/

theorem v26_result (G : Valuation τ sig (Elt F)) :
    (StableHlo.nary ![main_v7, main_v9, main_v17, main_v25] main_v26 (fun u => cat44 (F := F) (u 0) (u 1) (u 2) (u 3))).result G (no_index (Proc.devRef .tc main_v26))
      = cat44 (G (Proc.devRef .tc main_v7)) (G (Proc.devRef .tc main_v9)) (G (Proc.devRef .tc main_v17)) (G (Proc.devRef .tc main_v25)) := by
  rw [nary4_result]; rfl

theorem v50_result (G : Valuation τ sig (Elt F)) :
    (StableHlo.nary ![main_v7, main_v49, main_v9, main_v17] main_v50 (fun u => cat41 (F := F) (u 0) (u 1) (u 2) (u 3))).result G (no_index (Proc.devRef .tc main_v50))
      = cat41 (G (Proc.devRef .tc main_v7)) (G (Proc.devRef .tc main_v49)) (G (Proc.devRef .tc main_v9)) (G (Proc.devRef .tc main_v17)) := by
  rw [nary4_result]; rfl

/-- One `simp` pass over a literal stretch: the fold unrolled, each operation's result at its own buffer rewritten to
    its function's value and at any other buffer to what was there (the references' inequality decided). -/
local macro "stage_simp" : tactic =>
  `(tactic| (simp (disch := decide) only [after_cons, after_nil, v26_result, v50_result,
      nullary_result', unary_result', binary_result', ternary_result',
      nullary_result_ne', unary_result_ne', binary_result_ne', ternary_result_ne', nary_result_ne']))

/-! ## Each stretch's results over the contents it starts from -/

set_option maxRecDepth 8192 in
theorem opsA_main_v26 (W : Valuation τ sig (Elt F)) :
    after opsA W (no_index (Proc.devRef .tc main_v26)) = x3 (W (Proc.devRef .tc main_arg0)) (W (Proc.devRef .tc main_arg1)) (W (Proc.devRef .tc main_arg2)) := by
  simp only [opsA]
  stage_simp <;> rfl

set_option maxRecDepth 8192 in
theorem opsA_main_v7 (W : Valuation τ sig (Elt F)) :
    after opsA W (no_index (Proc.devRef .tc main_v7)) = eye5 (F := F) := by
  simp only [opsA]
  stage_simp <;> rfl

set_option maxRecDepth 8192 in
theorem opsA_main_v9 (W : Valuation τ sig (Elt F)) :
    after opsA W (no_index (Proc.devRef .tc main_v9)) = bcond (W (Proc.devRef .tc main_arg1)) := by
  simp only [opsA]
  stage_simp <;> rfl

set_option maxRecDepth 8192 in
theorem opsA_main_v17 (W : Valuation τ sig (Elt F)) :
    after opsA W (no_index (Proc.devRef .tc main_v17)) = gath (W (Proc.devRef .tc main_arg0)) := by
  simp only [opsA]
  stage_simp <;> rfl

set_option maxRecDepth 8192 in
theorem opsA_main_c (W : Valuation τ sig (Elt F)) :
    after opsA W (no_index (Proc.devRef .tc main_c)) = idxTab (F := F) := by
  simp only [opsA]
  stage_simp <;> rfl

set_option maxRecDepth 8192 in
theorem opsB_main_v40 (W : Valuation τ sig (Elt F)) :
    after opsB W (no_index (Proc.devRef .tc main_v40)) = head9 (lay512 (lay44 (W (Proc.devRef .tc main_v26)) (W (Proc.devRef .tc main_arg4)) (W (Proc.devRef .tc main_arg5))) (W (Proc.devRef .tc main_arg6)) (W (Proc.devRef .tc main_arg7))) (W (Proc.devRef .tc main_arg8)) (W (Proc.devRef .tc main_arg9)) := by
  simp only [opsB]
  stage_simp <;> rfl

set_option maxRecDepth 8192 in
theorem opsB_main_v44 (W : Valuation τ sig (Elt F)) :
    after opsB W (no_index (Proc.devRef .tc main_v44)) = head9 (lay512 (lay44 (W (Proc.devRef .tc main_v26)) (W (Proc.devRef .tc main_arg4)) (W (Proc.devRef .tc main_arg5))) (W (Proc.devRef .tc main_arg6)) (W (Proc.devRef .tc main_arg7))) (W (Proc.devRef .tc main_arg10)) (W (Proc.devRef .tc main_arg11)) := by
  simp only [opsB]
  stage_simp <;> rfl

set_option maxRecDepth 8192 in
theorem opsC_main_v49 (W : Valuation τ sig (Elt F)) :
    after opsC W (no_index (Proc.devRef .tc main_v49)) = latent (W (Proc.devRef .tc main_arg3)) (W (Proc.devRef .tc main_v44)) (W (Proc.devRef .tc main_v40)) := by
  simp only [opsC]
  stage_simp <;> rfl

set_option maxRecDepth 8192 in
theorem opsC_main_v50 (W : Valuation τ sig (Elt F)) :
    after opsC W (no_index (Proc.devRef .tc main_v50)) = cat41 (W (Proc.devRef .tc main_v7)) (latent (W (Proc.devRef .tc main_arg3)) (W (Proc.devRef .tc main_v44)) (W (Proc.devRef .tc main_v40))) (W (Proc.devRef .tc main_v9)) (W (Proc.devRef .tc main_v17)) := by
  simp only [opsC]
  stage_simp <;> rfl

set_option maxRecDepth 8192 in
theorem opsD1_main_v51 (W : Valuation τ sig (Elt F)) :
    after opsD1 W (no_index (Proc.devRef .tc main_v51)) = (Host.dotGeneral dot_S5x32768x41_S512x41_S5x32768x512_2_1_01_0_n_n none (W (Proc.devRef .tc main_v50)) (W (Proc.devRef .tc main_arg12)) : (⟨S5x32768x512, .f32⟩ : BufTy).Contents (Elt F)) := by
  simp only [opsD1]
  stage_simp <;> rfl

set_option maxRecDepth 8192 in
theorem opsD1_main_v52 (W : Valuation τ sig (Elt F)) :
    after opsD1 W (no_index (Proc.devRef .tc main_v52)) = (broadcastInDim S1x1x512 ![2] bcast_S512_S1x1x512_2 (W (Proc.devRef .tc main_arg13)) : (⟨S1x1x512, .f32⟩ : BufTy).Contents (Elt F)) := by
  simp only [opsD1]
  stage_simp <;> rfl

set_option maxRecDepth 8192 in
theorem opsD2_main_v70 (W : Valuation τ sig (Elt F)) :
    after opsD2 W (no_index (Proc.devRef .tc main_v70)) = sigm (head12 (lay512 (relu (addf (W (Proc.devRef .tc main_v51)) (broadcastInDim S5x32768x512 ![0, 1, 2] bcast_S1x1x512_S5x32768x512_0_1_2 (W (Proc.devRef .tc main_v52)) : (⟨S5x32768x512, .f32⟩ : BufTy).Contents (Elt F)))) (W (Proc.devRef .tc main_arg14)) (W (Proc.devRef .tc main_arg15))) (W (Proc.devRef .tc main_arg16)) (W (Proc.devRef .tc main_arg17))) := by
  simp only [opsD2]
  stage_simp <;> rfl

set_option maxRecDepth 8192 in
theorem opsE_main_v79 (W : Valuation τ sig (Elt F)) :
    after opsE W (no_index (Proc.devRef .tc main_v79)) = scatAt (W (Proc.devRef .tc main_c)) (W (Proc.devRef .tc main_v70)) := by
  simp only [opsE]
  stage_simp <;> rfl

/-! ## What a stretch does not write, for `simp` -/

theorem opsA_keep' (V : Valuation τ sig (Elt F)) {r : Ref sig .tc} (h : r ∉ W_A) :
    after opsA V (no_index (Proc.devRef .tc r)) = V (Proc.devRef .tc r) := opsA_keep V h
theorem opsB_keep' (V : Valuation τ sig (Elt F)) {r : Ref sig .tc} (h : r ∉ W_B) :
    after opsB V (no_index (Proc.devRef .tc r)) = V (Proc.devRef .tc r) := opsB_keep V h
theorem opsC_keep' (V : Valuation τ sig (Elt F)) {r : Ref sig .tc} (h : r ∉ W_C) :
    after opsC V (no_index (Proc.devRef .tc r)) = V (Proc.devRef .tc r) := opsC_keep V h
theorem opsD1_keep' (V : Valuation τ sig (Elt F)) {r : Ref sig .tc} (h : r ∉ W_D1) :
    after opsD1 V (no_index (Proc.devRef .tc r)) = V (Proc.devRef .tc r) := opsD1_keep V h
theorem opsD2_keep' (V : Valuation τ sig (Elt F)) {r : Ref sig .tc} (h : r ∉ W_D2) :
    after opsD2 V (no_index (Proc.devRef .tc r)) = V (Proc.devRef .tc r) := opsD2_keep V h
theorem opsE_keep' (V : Valuation τ sig (Elt F)) {r : Ref sig .tc} (h : r ∉ W_E) :
    after opsE V (no_index (Proc.devRef .tc r)) = V (Proc.devRef .tc r) := opsE_keep V h

/-- The fold over the whole list at one buffer, evaluated stretch by stretch: a stretch that does not write the buffer
    is passed over, the stretch that writes it gives its stage's function of the contents before it. -/
local macro "stages" : tactic =>
  `(tactic| (rw [after_ops]
             simp (disch := decide) only [opsA_keep', opsB_keep', opsC_keep', opsD1_keep', opsD2_keep', opsE_keep',
               opsA_main_v26, opsA_main_v7, opsA_main_v9, opsA_main_v17, opsA_main_c, opsB_main_v40, opsB_main_v44, opsC_main_v49, opsC_main_v50, opsD1_main_v51, opsD1_main_v52, opsD2_main_v70, opsE_main_v79]))

/-! ## The results over the argument arrays -/

section Results

variable (m : (ℓ : Loc nD τ sig) → Buf (Elt F) ℓ) (c : Dev nD)

/-- The encoder's input on device `c`, from the launch contents of arguments 0, 1, 2. -/
def r_x3 : (⟨S5x32768x44, .f32⟩ : BufTy).Contents (Elt F) := x3 (m ((c.tc : Thread nD τ).loc main_arg0)) (m ((c.tc : Thread nD τ).loc main_arg1)) (m ((c.tc : Thread nD τ).loc main_arg2))
/-- The encoder's first hidden layer (`main_v31`). -/
def r_h1 : (⟨S5x32768x512, .f32⟩ : BufTy).Contents (Elt F) := lay44 (r_x3 m c) (m ((c.tc : Thread nD τ).loc main_arg4)) (m ((c.tc : Thread nD τ).loc main_arg5))
/-- The encoder's second hidden layer (`main_v36`). -/
def r_h2 : (⟨S5x32768x512, .f32⟩ : BufTy).Contents (Elt F) := lay512 (r_h1 m c) (m ((c.tc : Thread nD τ).loc main_arg6)) (m ((c.tc : Thread nD τ).loc main_arg7))
/-- The means (`main_v40`). -/
def r_mean : (⟨S5x32768x9, .f32⟩ : BufTy).Contents (Elt F) := head9 (r_h2 m c) (m ((c.tc : Thread nD τ).loc main_arg8)) (m ((c.tc : Thread nD τ).loc main_arg9))
/-- The log-variances (`main_v44`). -/
def r_logvar : (⟨S5x32768x9, .f32⟩ : BufTy).Contents (Elt F) := head9 (r_h2 m c) (m ((c.tc : Thread nD τ).loc main_arg10)) (m ((c.tc : Thread nD τ).loc main_arg11))
/-- The latent (`main_v49`). -/
def r_latent : (⟨S5x32768x9, .f32⟩ : BufTy).Contents (Elt F) := latent (m ((c.tc : Thread nD τ).loc main_arg3)) (r_logvar m c) (r_mean m c)
/-- The decoder's input (`main_v50`). -/
def r_y3 : (⟨S5x32768x41, .f32⟩ : BufTy).Contents (Elt F) := y3 (r_latent m c) (m ((c.tc : Thread nD τ).loc main_arg0)) (m ((c.tc : Thread nD τ).loc main_arg1))
/-- The decoder's first hidden layer (`main_v55`). -/
def r_d1 : (⟨S5x32768x512, .f32⟩ : BufTy).Contents (Elt F) := lay41 (r_y3 m c) (m ((c.tc : Thread nD τ).loc main_arg12)) (m ((c.tc : Thread nD τ).loc main_arg13))
/-- The decoder's second hidden layer (`main_v60`). -/
def r_d2 : (⟨S5x32768x512, .f32⟩ : BufTy).Contents (Elt F) := lay512 (r_d1 m c) (m ((c.tc : Thread nD τ).loc main_arg14)) (m ((c.tc : Thread nD τ).loc main_arg15))
/-- The decoder's output through the logistic function (`main_v70`). -/
def r_sig : (⟨S5x32768x12, .f32⟩ : BufTy).Contents (Elt F) := sigm (head12 (r_d2 m c) (m ((c.tc : Thread nD τ).loc main_arg16)) (m ((c.tc : Thread nD τ).loc main_arg17)))
/-- The scatter-add of the decoder's output (`main_v79`). -/
def r_scat : (⟨S32768x30, .f32⟩ : BufTy).Contents (Elt F) := scat (r_sig m c)

theorem after_main_v26 :
    StableHlo.after ops (fun b => m (c, b)) (Proc.devRef .tc main_v26) = r_x3 m c := by
  stages
  rfl

theorem after_main_v40 :
    StableHlo.after ops (fun b => m (c, b)) (Proc.devRef .tc main_v40) = r_mean m c := by
  stages
  rfl

theorem after_main_v44 :
    StableHlo.after ops (fun b => m (c, b)) (Proc.devRef .tc main_v44) = r_logvar m c := by
  stages
  rfl

theorem after_main_v49 :
    StableHlo.after ops (fun b => m (c, b)) (Proc.devRef .tc main_v49) = r_latent m c := by
  stages
  rfl

theorem after_main_v70 :
    StableHlo.after ops (fun b => m (c, b)) (Proc.devRef .tc main_v70) = r_sig m c := by
  stages
  rfl

theorem after_main_v79 :
    StableHlo.after ops (fun b => m (c, b)) (Proc.devRef .tc main_v79) = r_scat m c := by
  stages
  rfl

end Results

end Cert.ReferenceIdeal.RefRun

end
-- ==== Proof.KIStages.lean ====
/-
  The stages of the entry function of KernelIdeal that surround its region, as functions of plain arguments: the 5×12
  table of edge indices and the index array made of it, the 5×5 identity repeated along the batch, the repeated
  conditioning input, the gathered columns of an edge array, their concatenation along the last axis (the encoder's
  input, [5, 32768, 44]) and the scatter-add of the decoder's output at the table's columns. Each is the same
  composition of the same library operations over the same shapes as the reference program's stage of the same role,
  so the two agree by unfolding.
-/
import proofs.«173347_j68530498175289_1_alg».proof.Proof.Gen.KernelIdeal
import proofs.«173347_j68530498175289_1_alg».proof.Proof.RefStages
import Idealize.ShloMosaic.PureOps.Ideal

noncomputable section

namespace Cert.KernelIdeal.HandValue

open Idealize.ShloMosaic Idealize.ShloMosaic.TcCoe Idealize.SL.Sem
open Cert.KernelIdeal Cert.KernelIdeal.Gen

variable {F : FTy → Type} [FloatOps F]

/-- The 5×12 table of edge indices (entries in 0 … 29). -/
def kidxTab : (⟨S5x12, .i32⟩ : BufTy).Contents (Elt F) := fun i => lit0 (S5x12.rowMajor i)

/-- A 5×12 integer table as a [5, 12, 1] index array, an entry below zero moved up by 30. -/
def kidxOf (t : (⟨S5x12, .i32⟩ : BufTy).Contents (Elt F)) : (⟨S5x12x1, .i32⟩ : BufTy).Contents (Elt F) :=
  broadcastInDim S5x12x1 ![0, 1] bcast_S5x12_S5x12x1_0_1
    (select (cmpi .slt t (broadcastInDim S5x12 ![] bcast_S_S5x12 (constantI S_ 32 0#32 : (⟨S_, .i32⟩ : BufTy).Contents (Elt F)) : (⟨S5x12, .i32⟩ : BufTy).Contents (Elt F)) : (⟨S5x12, .i1⟩ : BufTy).Contents (Elt F))
      (addi t (broadcastInDim S5x12 ![] bcast_S_S5x12 (constantI S_ 32 30#32 : (⟨S_, .i32⟩ : BufTy).Contents (Elt F)) : (⟨S5x12, .i32⟩ : BufTy).Contents (Elt F)) : (⟨S5x12, .i32⟩ : BufTy).Contents (Elt F))
      t : (⟨S5x12, .i32⟩ : BufTy).Contents (Elt F))

/-- The edge-index table as the index array. -/
def kidx : (⟨S5x12x1, .i32⟩ : BufTy).Contents (Elt F) := kidxOf (F := F) (kidxTab (F := F))

/-- The 5×5 identity matrix as floats, repeated along the batch axis: [5, 32768, 5]. -/
def keye5 : (⟨S5x32768x5, .f32⟩ : BufTy).Contents (Elt F) :=
  broadcastInDim S5x32768x5 ![0, 1, 2] bcast_S5x1x5_S5x32768x5_0_1_2
    (broadcastInDim S5x1x5 ![0, 2] bcast_S5x5_S5x1x5_0_2
      (uitofp .f32 (cmpi .eq (addi (iotaInDim S5x5 32 0 : (⟨S5x5, .i32⟩ : BufTy).Contents (Elt F)) (broadcastInDim S5x5 ![] bcast_S_S5x5 (constantI S_ 32 0#32 : (⟨S_, .i32⟩ : BufTy).Contents (Elt F)) : (⟨S5x5, .i32⟩ : BufTy).Contents (Elt F)) : (⟨S5x5, .i32⟩ : BufTy).Contents (Elt F))
        (iotaInDim S5x5 32 1 : (⟨S5x5, .i32⟩ : BufTy).Contents (Elt F)) : (⟨S5x5, .i1⟩ : BufTy).Contents (Elt F)) : (⟨S5x5, .f32⟩ : BufTy).Contents (Elt F)) : (⟨S5x1x5, .f32⟩ : BufTy).Contents (Elt F))

/-- The conditioning input repeated along the leading axis: [5, 32768, 15]. -/
def kbcond (a1 : (⟨S32768x15, .f32⟩ : BufTy).Contents (Elt F)) : (⟨S5x32768x15, .f32⟩ : BufTy).Contents (Elt F) :=
  broadcastInDim S5x32768x15 ![0, 1, 2] bcast_S1x32768x15_S5x32768x15_0_1_2
    (broadcastInDim S1x32768x15 ![1, 2] bcast_S32768x15_S1x32768x15_1_2 a1 : (⟨S1x32768x15, .f32⟩ : BufTy).Contents (Elt F))

/-- The columns of a [32768, 30] array the index table names, as [5, 32768, 12]. -/
def kgath (a : (⟨S32768x30, .f32⟩ : BufTy).Contents (Elt F)) : (⟨S5x32768x12, .f32⟩ : BufTy).Contents (Elt F) :=
  transpose S5x32768x12 [1, 0, 2] (Host.gather gather_S32768x30_S5x12x1_S32768x5x12_0_1_n_n_1_2_327681 a (kidx (F := F)) : (⟨S32768x5x12, .f32⟩ : BufTy).Contents (Elt F)) transposes_S32768x5x12_S5x32768x12_1_0_2

/-- The concatenation along the last axis of arrays of widths 5, 15, 12, 12 (width 44). -/
def kcat44 (u0 : (⟨S5x32768x5, .f32⟩ : BufTy).Contents (Elt F)) (u1 : (⟨S5x32768x15, .f32⟩ : BufTy).Contents (Elt F)) (u2 : (⟨S5x32768x12, .f32⟩ : BufTy).Contents (Elt F)) (u3 : (⟨S5x32768x12, .f32⟩ : BufTy).Contents (Elt F)) : (⟨S5x32768x44, .f32⟩ : BufTy).Contents (Elt F) :=
  concatenate S5x32768x44 2 [⟨S5x32768x5, u0⟩, ⟨S5x32768x15, u1⟩, ⟨S5x32768x12, u2⟩, ⟨S5x32768x12, u3⟩] concatenates_S5x32768x5_S5x32768x15_S5x32768x12_S5x32768x12_S5x32768x44_d2

/-- The encoder's input: identity rows, conditioning, and the gathered columns of the two edge arrays. -/
def kx3 (a0 : (⟨S32768x30, .f32⟩ : BufTy).Contents (Elt F)) (a1 : (⟨S32768x15, .f32⟩ : BufTy).Contents (Elt F)) (a2 : (⟨S32768x30, .f32⟩ : BufTy).Contents (Elt F)) : (⟨S5x32768x44, .f32⟩ : BufTy).Contents (Elt F) :=
  kcat44 (keye5 (F := F)) (kbcond (F := F) a1) (kgath (F := F) a0) (kgath (F := F) a2)

/-- The scatter-add of an array s (transposed to [32768, 5, 12]) into a zero [32768, 30] array at the columns a table t names. -/
def kscatAt (t : (⟨S5x12, .i32⟩ : BufTy).Contents (Elt F)) (s : (⟨S5x32768x12, .f32⟩ : BufTy).Contents (Elt F)) : (⟨S32768x30, .f32⟩ : BufTy).Contents (Elt F) :=
  Host.scatterAdd scatter_S32768x30_S5x12x1_S32768x5x12_0_1_1_2
    (broadcastInDim S32768x30 ![] bcast_S_S32768x30 (constant S_ .f32 0x00000000#32 : (⟨S_, .f32⟩ : BufTy).Contents (Elt F)) : (⟨S32768x30, .f32⟩ : BufTy).Contents (Elt F))
    (kidxOf (F := F) t)
    (transpose S32768x5x12 [1, 0, 2] s transposes_S5x32768x12_S32768x5x12_1_0_2 : (⟨S32768x5x12, .f32⟩ : BufTy).Contents (Elt F))

/-- The scatter-add of the decoder's output at the edge-index table's columns. -/
def kscat (s : (⟨S5x32768x12, .f32⟩ : BufTy).Contents (Elt F)) : (⟨S32768x30, .f32⟩ : BufTy).Contents (Elt F) := kscatAt (F := F) (kidxTab (F := F)) s

/-! ## The same stages as the reference program's -/

/-- The two programs' index tables are the same table. -/
theorem kidxTab_eq : kidxTab (F := Ideal) = Cert.ReferenceIdeal.RefRun.idxTab (F := Ideal) := rfl

/-- The encoder's input is the reference program's. -/
theorem kx3_eq (a0 : (⟨S32768x30, .f32⟩ : BufTy).Contents (Elt Ideal)) (a1 : (⟨S32768x15, .f32⟩ : BufTy).Contents (Elt Ideal)) (a2 : (⟨S32768x30, .f32⟩ : BufTy).Contents (Elt Ideal)) :
    kx3 a0 a1 a2 = Cert.ReferenceIdeal.RefRun.x3 (F := Ideal) a0 a1 a2 := rfl

/-- The scatter-add is the reference program's. -/
theorem kscat_eq (s : (⟨S5x32768x12, .f32⟩ : BufTy).Contents (Elt Ideal)) :
    kscat s = Cert.ReferenceIdeal.RefRun.scat (F := Ideal) s := rfl

end Cert.KernelIdeal.HandValue

end
-- ==== Proof.KITail.lean ====
/-
  The four results of KernelIdeal after the run. The frame run leaves every unscoped buffer that is no array of the
  pipeline as the host lines after the region leave it, and those lines read the four output arrays, which hold what
  the region's proof data computes: three results are the [163840, 9] output arrays recast to [5, 32768, 9], and the
  fourth is the scatter-add, at the edge-index table's columns, of the [163840, 12] output array recast to [5, 32768, 12].
  The edge-index table is the literal the first host line wrote before the region; no later line writes it.
-/
import proofs.«173347_j68530498175289_1_alg».proof.Proof.KIFrame
import proofs.«173347_j68530498175289_1_alg».proof.Proof.KIStages
import Idealize.ShloMosaic.PureOps.Ideal
import Idealize.ShloMosaic.Lib.StableHlo.Run

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ)

/-- What the host lines after the region start from on core c: the region-entry contents with each array of the
    pipeline at what the proof data computes after the last grid point. -/
abbrev WA (c : Dev nD) : Valuation τ sig (Elt Ideal) :=
  Pipeline.withArrays (cfgs 0).spec c (V0 m c) fun w => (dats m 0 c).arrAt w (cfgs 0).N

/-- The four output arrays there. -/
theorem WA_v50_0 (c : Dev nD) : WA m c (Proc.devRef .tc main_v50_0) = (dats m 0 c).arrAt 16 cfg0.N :=
  Pipeline.withArrays_arr spec0 launch0.win.arr_inj c _ _ 16
theorem WA_v50_1 (c : Dev nD) : WA m c (Proc.devRef .tc main_v50_1) = (dats m 0 c).arrAt 17 cfg0.N :=
  Pipeline.withArrays_arr spec0 launch0.win.arr_inj c _ _ 17
theorem WA_v50_2 (c : Dev nD) : WA m c (Proc.devRef .tc main_v50_2) = (dats m 0 c).arrAt 18 cfg0.N :=
  Pipeline.withArrays_arr spec0 launch0.win.arr_inj c _ _ 18
theorem WA_v50_3 (c : Dev nD) : WA m c (Proc.devRef .tc main_v50_3) = (dats m 0 c).arrAt 19 cfg0.N :=
  Pipeline.withArrays_arr spec0 launch0.win.arr_inj c _ _ 19

/-- The edge-index table as the region finds it: the first host line's literal, which no later line writes. -/
theorem V_c (c : Dev nD) : (V m c main_c : S5x12.Idx → Elt Ideal .i32) = kidxTab (F := Ideal) := by
  show StableHlo.after hostOps0 (fun b => m (c, b)) (Proc.devRef .tc main_c) = _
  after_results
  rfl

/-- It is no array of the pipeline, so the lines after the region find it so. -/
theorem WA_c (c : Dev nD) : (WA m c (Proc.devRef .tc main_c) : S5x12.Idx → Elt Ideal .i32) = kidxTab (F := Ideal) :=
  (Pipeline.withArrays_of_ne _ c (V0 m c) _ main_c (by decide)).trans (V_c m c)

/-- The first result: the means, recast. -/
theorem tail_v51 (c : Dev nD) : Pipeline.afterTail₀ cfgs (dats m) 0 (V0 m) [hostOps1] c main_v51
    = shapeCast S5x32768x9 ((dats m 0 c).arrAt 16 cfg0.N) shapeCasts_S163840x9_S5x32768x9 := by
  unfold Pipeline.afterTail₀
  show StableHlo.after hostOps1 (WA m c) (Proc.devRef .tc main_v51) = _
  after_results
  rw [WA_v50_0]
  rfl

/-- The second result: the log-variances, recast. -/
theorem tail_v52 (c : Dev nD) : Pipeline.afterTail₀ cfgs (dats m) 0 (V0 m) [hostOps1] c main_v52
    = shapeCast S5x32768x9 ((dats m 0 c).arrAt 17 cfg0.N) shapeCasts_S163840x9_S5x32768x9 := by
  unfold Pipeline.afterTail₀
  show StableHlo.after hostOps1 (WA m c) (Proc.devRef .tc main_v52) = _
  after_results
  rw [WA_v50_1]
  rfl

/-- The third result: the sampled latent, recast. -/
theorem tail_v53 (c : Dev nD) : Pipeline.afterTail₀ cfgs (dats m) 0 (V0 m) [hostOps1] c main_v53
    = shapeCast S5x32768x9 ((dats m 0 c).arrAt 18 cfg0.N) shapeCasts_S163840x9_S5x32768x9 := by
  unfold Pipeline.afterTail₀
  show StableHlo.after hostOps1 (WA m c) (Proc.devRef .tc main_v53) = _
  after_results
  rw [WA_v50_2]
  rfl

set_option maxHeartbeats 1000000 in
/-- The fourth result: the scatter-add of the decoder's output, recast, at the edge-index table's columns. -/
theorem tail_v63 (c : Dev nD) : Pipeline.afterTail₀ cfgs (dats m) 0 (V0 m) [hostOps1] c main_v63
    = kscat (shapeCast S5x32768x12 ((dats m 0 c).arrAt 19 cfg0.N) shapeCasts_S163840x12_S5x32768x12) := by
  unfold Pipeline.afterTail₀
  show StableHlo.after hostOps1 (WA m c) (Proc.devRef .tc main_v63) = _
  after_results_simp
  rw [WA_v50_3, WA_c]
  rfl

/-- The four results are unscoped buffers that are no array of the pipeline. -/
theorem rest_v51 : main_v51 ∈ Pipeline.restRefs sig (cfgs 0).spec := Pipeline.mem_restRefs_of main_v51 (by decide) (by decide)
theorem rest_v52 : main_v52 ∈ Pipeline.restRefs sig (cfgs 0).spec := Pipeline.mem_restRefs_of main_v52 (by decide) (by decide)
theorem rest_v53 : main_v53 ∈ Pipeline.restRefs sig (cfgs 0).spec := Pipeline.mem_restRefs_of main_v53 (by decide) (by decide)
theorem rest_v63 : main_v63 ∈ Pipeline.restRefs sig (cfgs 0).spec := Pipeline.mem_restRefs_of main_v63 (by decide) (by decide)

/-- So a final state of the frame run holds them. -/
theorem final_v51 {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v51) = shapeCast S5x32768x9 ((dats m 0 c).arrAt 16 cfg0.N) shapeCasts_S163840x9_S5x32768x9 :=
  ((h c).2 main_v51 rest_v51).trans (tail_v51 m c)
theorem final_v52 {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v52) = shapeCast S5x32768x9 ((dats m 0 c).arrAt 17 cfg0.N) shapeCasts_S163840x9_S5x32768x9 :=
  ((h c).2 main_v52 rest_v52).trans (tail_v52 m c)
theorem final_v53 {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v53) = shapeCast S5x32768x9 ((dats m 0 c).arrAt 18 cfg0.N) shapeCasts_S163840x9_S5x32768x9 :=
  ((h c).2 main_v53 rest_v53).trans (tail_v53 m c)
theorem final_v63 {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v63) = kscat (shapeCast S5x32768x12 ((dats m 0 c).arrAt 19 cfg0.N) shapeCasts_S163840x12_S5x32768x12) :=
  ((h c).2 main_v63 rest_v63).trans (tail_v63 m c)

end Cert.KernelIdeal.HandValue

end
-- ==== Proof.KIEntry.lean ====
/-
  What the region of KernelIdeal finds in the array of its first window: the encoder's input. The host lines before
  the region build it from three argument arrays — the 5×5 identity repeated along the batch, the repeated
  conditioning input and the gathered columns of the two edge arrays, concatenated along the last axis — and recast
  it from [5, 32768, 44] to [163840, 44]. The fold over the host lines is evaluated in one pass, the concatenation's
  four operands read at their own buffers.
-/
import proofs.«173347_j68530498175289_1_alg».proof.Proof.KIData
import proofs.«173347_j68530498175289_1_alg».proof.Proof.KIStages
import Idealize.ShloMosaic.PureOps.Ideal
import Idealize.ShloMosaic.Lib.StableHlo.Run

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ)

/-- The concatenation's result, its four operands read at their own buffers. -/
theorem v26_result (G : Valuation τ sig (Elt Ideal)) :
    (StableHlo.nary ![main_v7, main_v9, main_v17, main_v25] main_v26 (fun u => concatenate S5x32768x44 2 [⟨S5x32768x5, u 0⟩, ⟨S5x32768x15, u 1⟩, ⟨S5x32768x12, u 2⟩, ⟨S5x32768x12, u 3⟩] concatenates_S5x32768x5_S5x32768x15_S5x32768x12_S5x32768x12_S5x32768x44_d2)).result G (no_index (Proc.devRef .tc main_v26))
      = kcat44 (G (Proc.devRef .tc main_v7)) (G (Proc.devRef .tc main_v9)) (G (Proc.devRef .tc main_v17)) (G (Proc.devRef .tc main_v25)) := by
  rw [nary4_result]; rfl

set_option maxRecDepth 8192 in
set_option maxHeartbeats 1000000 in
/-- The first window's array as the region finds it: the encoder's input of the three argument arrays, recast to [163840, 44]. -/
theorem V_v27 (c : Dev nD) : (V m c main_v27 : S163840x44.Idx → Elt Ideal .f32)
    = shapeCast S163840x44 (kx3 (m ((c : Thread nD τ).loc main_arg0)) (m ((c : Thread nD τ).loc main_arg1)) (m ((c : Thread nD τ).loc main_arg2))) shapeCasts_S5x32768x44_S163840x44 := by
  show StableHlo.after hostOps0 (fun b => m (c, b)) (Proc.devRef .tc main_v27) = _
  simp (disch := decide) only [after_cons, after_nil, v26_result,
    nullary_result', unary_result', binary_result', ternary_result', reshape_result',
    nullary_result_ne', unary_result_ne', binary_result_ne', ternary_result_ne', reshape_result_ne', nary_result_ne']
  rfl

end Cert.KernelIdeal.HandValue

end
-- ==== Proof.Relaid.lean ====
/-
  Re-laying rows.  A [5, 32768, n] array read as [163840, n] rows keeps every row: row `o * 32768 + b` of the second is
  row (o, b) of the first, because both have the same row-major position.  So a function applied row by row to the
  re-laid rows, and re-laid back, is the function applied to the rows of the original arrays.
-/
import proofs.«173347_j68530498175289_1_alg».proof.Proof.Spec
import Idealize.ShloMosaic.Lib.Pipeline.Value

noncomputable section

namespace Cert.Spec

open Idealize.ShloMosaic Idealize.ShloMosaic.ValueIdx

/-- Row `o * 32768 + b` of the re-laid array is row (o, b). -/
theorem relaid_row {n : ℕ} (X3 : Ten 5 32768 n) (h : (⟨3, ![5, 32768, n]⟩ : Shape).ShapeCasts ⟨2, ![163840, n]⟩)
    (o : Fin 5) (b : Fin 32768) (r : Fin 163840) (hr : r.val = o.val * 32768 + b.val) (k : Fin n) :
    shapeCast ⟨2, ![163840, n]⟩ X3 h (ix2 r k) = X3 (ix3 o b k) :=
  shapeCast_apply X3 h (ix2 r k) (ix3 o b k) (by
    rw [Shape.rowMajor_val_three, Shape.rowMajor_val_two]
    show (o.val * 32768 + b.val) * n + k.val = r.val * n + k.val
    rw [hr])

/-- A function of the rows of one array, applied to the re-laid rows and re-laid back. -/
theorem relaid_rows1 {C : ℕ} (X3 : Ten 5 32768 44) (g : (Fin 44 → EReal) → Fin C → EReal)
    (h1 : (⟨3, ![5, 32768, 44]⟩ : Shape).ShapeCasts ⟨2, ![163840, 44]⟩)
    (h2 : (⟨2, ![163840, C]⟩ : Shape).ShapeCasts ⟨3, ![5, 32768, C]⟩) :
    shapeCast ⟨3, ![5, 32768, C]⟩
        (fun i : (⟨2, ![163840, C]⟩ : Shape).Idx => g (fun k => shapeCast ⟨2, ![163840, 44]⟩ X3 h1 (ix2 (i 0) k)) (i 1)) h2
      = fun j => g (fun k => X3 (ix3 (j 0) (j 1) k)) (j 2) := by
  funext j
  obtain ⟨o, b, l, rfl⟩ : ∃ (o : Fin 5) (b : Fin 32768) (l : Fin C), j = ix3 o b l := ⟨j 0, j 1, j 2, eq_ix3 j⟩
  have hr : o.val * 32768 + b.val < 163840 := by have := o.isLt; have := b.isLt; omega
  refine (shapeCast_apply _ h2 (ix3 o b l) (ix2 ⟨o.val * 32768 + b.val, hr⟩ l) (by
    rw [Shape.rowMajor_val_three, Shape.rowMajor_val_two]; rfl)).trans ?_
  show g (fun k => shapeCast ⟨2, ![163840, 44]⟩ X3 h1 (ix2 ⟨o.val * 32768 + b.val, hr⟩ k)) l = g (fun k => X3 (ix3 o b k)) l
  exact congrArg (fun v => g v l) (funext fun k => relaid_row X3 h1 o b ⟨_, hr⟩ rfl k)

/-- The same for a function of the rows of two arrays. -/
theorem relaid_rows2 {C : ℕ} (X3 : Ten 5 32768 44) (E3 : Ten 5 32768 9)
    (g : (Fin 44 → EReal) → (Fin 9 → EReal) → Fin C → EReal)
    (h1 : (⟨3, ![5, 32768, 44]⟩ : Shape).ShapeCasts ⟨2, ![163840, 44]⟩)
    (h1' : (⟨3, ![5, 32768, 9]⟩ : Shape).ShapeCasts ⟨2, ![163840, 9]⟩)
    (h2 : (⟨2, ![163840, C]⟩ : Shape).ShapeCasts ⟨3, ![5, 32768, C]⟩) :
    shapeCast ⟨3, ![5, 32768, C]⟩
        (fun i : (⟨2, ![163840, C]⟩ : Shape).Idx =>
          g (fun k => shapeCast ⟨2, ![163840, 44]⟩ X3 h1 (ix2 (i 0) k))
            (fun l => shapeCast ⟨2, ![163840, 9]⟩ E3 h1' (ix2 (i 0) l)) (i 1)) h2
      = fun j => g (fun k => X3 (ix3 (j 0) (j 1) k)) (fun l => E3 (ix3 (j 0) (j 1) l)) (j 2) := by
  funext j
  obtain ⟨o, b, l, rfl⟩ : ∃ (o : Fin 5) (b : Fin 32768) (l : Fin C), j = ix3 o b l := ⟨j 0, j 1, j 2, eq_ix3 j⟩
  have hr : o.val * 32768 + b.val < 163840 := by have := o.isLt; have := b.isLt; omega
  refine (shapeCast_apply _ h2 (ix3 o b l) (ix2 ⟨o.val * 32768 + b.val, hr⟩ l) (by
    rw [Shape.rowMajor_val_three, Shape.rowMajor_val_two]; rfl)).trans ?_
  show g (fun k => shapeCast ⟨2, ![163840, 44]⟩ X3 h1 (ix2 ⟨o.val * 32768 + b.val, hr⟩ k))
      (fun l => shapeCast ⟨2, ![163840, 9]⟩ E3 h1' (ix2 ⟨o.val * 32768 + b.val, hr⟩ l)) l
    = g (fun k => X3 (ix3 o b k)) (fun l => E3 (ix3 o b l)) l
  rw [show (fun k => shapeCast ⟨2, ![163840, 44]⟩ X3 h1 (ix2 ⟨o.val * 32768 + b.val, hr⟩ k)) = fun k => X3 (ix3 o b k) from
      funext fun k => relaid_row X3 h1 o b ⟨_, hr⟩ rfl k,
    show (fun l => shapeCast ⟨2, ![163840, 9]⟩ E3 h1' (ix2 ⟨o.val * 32768 + b.val, hr⟩ l)) = fun l => E3 (ix3 o b l) from
      funext fun l => relaid_row E3 h1' o b ⟨_, hr⟩ rfl l]

end Cert.Spec

end
-- ==== Proof.Closed.lean ====
/-
  The four results as whole arrays: the row network applied to every row (o, b) of the [5, 32768, 44] row array and of
  the [5, 32768, 9] noise array.
-/
import proofs.«173347_j68530498175289_1_alg».proof.Proof.Spec

noncomputable section

namespace Cert.Spec

open Idealize.ShloMosaic Idealize.ShloMosaic.ValueIdx

/-- The means of every row. -/
def allMeans (P : Params) (X3 : Ten 5 32768 44) : Ten 5 32768 9 :=
  fun j => means P (fun k => X3 (ix3 (j 0) (j 1) k)) (j 2)
/-- The log-variances of every row. -/
def allLogvar (P : Params) (X3 : Ten 5 32768 44) : Ten 5 32768 9 :=
  fun j => logvar P (fun k => X3 (ix3 (j 0) (j 1) k)) (j 2)
/-- The sampled latent of every row. -/
def allLatent (P : Params) (X3 : Ten 5 32768 44) (E3 : Ten 5 32768 9) : Ten 5 32768 9 :=
  fun j => latent P (fun k => X3 (ix3 (j 0) (j 1) k)) (fun l => E3 (ix3 (j 0) (j 1) l)) (j 2)
/-- The decoder's output of every row. -/
def allRecon (P : Params) (X3 : Ten 5 32768 44) (E3 : Ten 5 32768 9) : Ten 5 32768 12 :=
  fun j => recon P (fun k => X3 (ix3 (j 0) (j 1) k)) (fun l => E3 (ix3 (j 0) (j 1) l)) (j 2)

end Cert.Spec

end
-- ==== Proof.KIRun.lean ====
/-
  The idealized kernel's run, read: every weakly fair execution ends with the four results at the row network applied
  to every row of the row array and of the noise argument, and the eighteen arguments unchanged.  The region's four
  output arrays are the row network of the [163840, ·] re-laid rows (the blocks' cover); the host lines after the
  region re-lay them as [5, 32768, ·], which keeps rows, and scatter-add the fourth.
-/
import proofs.«173347_j68530498175289_1_alg».proof.Proof.KIArr
import proofs.«173347_j68530498175289_1_alg».proof.Proof.KITail
import proofs.«173347_j68530498175289_1_alg».proof.Proof.KIEntry
import proofs.«173347_j68530498175289_1_alg».proof.Proof.Relaid
import proofs.«173347_j68530498175289_1_alg».proof.Proof.Closed

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (m : (ℓ : Loc nD τ sig) → Buf (Elt Ideal) ℓ) (ρ : Dev nD → PrngReg)

/-- The row array of the three data arguments. -/
abbrev kX3 (c : Dev nD) : Ten 5 32768 44 := kx3 (F := Ideal) (m ((c : Thread nD τ).loc main_arg0)) (m ((c : Thread nD τ).loc main_arg1)) (m ((c : Thread nD τ).loc main_arg2))

theorem arr16_relaid (c : Dev nD) :
    shapeCast S5x32768x9 ((dats m 0 c).arrAt 16 cfg0.N) shapeCasts_S163840x9_S5x32768x9
      = allMeans (kparams m c) (kX3 m c) := by
  rw [final16, V_v27]
  exact relaid_rows1 (kX3 m c) (means (kparams m c)) _ _

theorem arr17_relaid (c : Dev nD) :
    shapeCast S5x32768x9 ((dats m 0 c).arrAt 17 cfg0.N) shapeCasts_S163840x9_S5x32768x9
      = allLogvar (kparams m c) (kX3 m c) := by
  rw [final17, V_v27]
  exact relaid_rows1 (kX3 m c) (logvar (kparams m c)) _ _

theorem arr18_relaid (c : Dev nD) :
    shapeCast S5x32768x9 ((dats m 0 c).arrAt 18 cfg0.N) shapeCasts_S163840x9_S5x32768x9
      = allLatent (kparams m c) (kX3 m c) (m ((c : Thread nD τ).loc main_arg3)) := by
  rw [final18, V_v27, V_v28]
  exact relaid_rows2 (kX3 m c) (m ((c : Thread nD τ).loc main_arg3)) (latent (kparams m c)) _ _ _

theorem arr19_relaid (c : Dev nD) :
    shapeCast S5x32768x12 ((dats m 0 c).arrAt 19 cfg0.N) shapeCasts_S163840x12_S5x32768x12
      = allRecon (kparams m c) (kX3 m c) (m ((c : Thread nD τ).loc main_arg3)) := by
  rw [final19, V_v27, V_v28]
  exact relaid_rows2 (kX3 m c) (m ((c : Thread nD τ).loc main_arg3)) (recon (kparams m c)) _ _ _

/-- The run of the idealized kernel's program with its four results named. -/
theorem krun : θ_run defs (onTc (τ := τ) (main (F := Ideal))) ⟨m, fun _ => 0, ρ⟩ (fun r => ∀ c : Dev nD,
      r.2.mem ((c.tc : Thread nD τ).loc main_v63) = kscat (F := Ideal) (allRecon (kparams m c) (kX3 m c) (m ((c : Thread nD τ).loc main_arg3)))
      ∧ r.2.mem ((c.tc : Thread nD τ).loc main_v51) = allMeans (kparams m c) (kX3 m c)
      ∧ r.2.mem ((c.tc : Thread nD τ).loc main_v52) = allLogvar (kparams m c) (kX3 m c)
      ∧ r.2.mem ((c.tc : Thread nD τ).loc main_v53) = allLatent (kparams m c) (kX3 m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨
      (final_v63 m h c).trans (congrArg (kscat (F := Ideal)) (arr19_relaid m c)),
      (final_v51 m h c).trans (arr16_relaid m c),
      (final_v52 m h c).trans (arr17_relaid m c),
      (final_v53 m h c).trans (arr18_relaid m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩)
    (run_main m ρ)

end Cert.KernelIdeal.HandValue

end
-- ==== Proof.RefSpec.lean ====
/-
  The reference's stage functions at the extended reals, read at one row (o, p) of the [5, 32768, ·] arrays, are the
  row network (`Cert.Spec`) applied to that row of the encoder's input and of the noise array, the fourteen weight and
  bias arguments being the network's parameters as they are.  A product against a weight matrix contracted along both
  last axes is a sum over that axis; a bias vector broadcast over the two leading axes reads its own entry; a splat
  reads its word; the four-piece concatenation along the last axis reads the piece that holds the column.
-/
import proofs.«173347_j68530498175289_1_alg».proof.Proof.RefStages
import proofs.«173347_j68530498175289_1_alg».proof.Proof.Spec
import proofs.«173347_j68530498175289_1_alg».proof.Proof.LibConcat4
import Idealize.ShloMosaic.PureOps.Ideal.Laws
import Idealize.ShloMosaic.Lib.ValueIdx
import Idealize.ShloMosaic.Lib.Pipeline.Value

noncomputable section

namespace Cert.ReferenceIdeal.RefSpec

open Idealize.ShloMosaic Idealize.ShloMosaic.ValueIdx Idealize.ShloMosaic.TcCoe Idealize.SL.Sem Cert.ReferenceIdeal Cert.ReferenceIdeal.Gen Cert.Spec

/-! ## Generic facts about rank-3 arrays read at (o, p, ·) -/

/-- An array read at two last coordinates of equal value. -/
theorem ix3_congr {α : Type} {a b n : ℕ} (x : (⟨3, ![a, b, n]⟩ : Shape).Idx → α) (o : Fin a) (p : Fin b) (u v : Fin n)
    (h : u.val = v.val) : x (ix3 o p u) = x (ix3 o p v) := by rw [Fin.ext h]

/-- The host product of an [a, b, K] array with an [N, K] matrix along both last axes, read at (o, p, n): the sum
    over the contracted axis. -/
theorem dot3_apply {a b K N : ℕ} {φ₁ φ₂ : FTy} (D : DotDims ⟨3, ![a, b, K]⟩ ⟨2, ![N, K]⟩ ⟨3, ![a, b, N]⟩)
    (hr : D.contr.rank = 1) (hs : D.contr.size ⟨0, by omega⟩ = K)
    (hL : ∀ (j : (⟨3, ![a, b, N]⟩ : Shape).Idx) (q : D.contr.Idx), D.lhsIdx j q = ix3 (j 0) (j 1) ((q ⟨0, by omega⟩).cast hs))
    (hR : ∀ (j : (⟨3, ![a, b, N]⟩ : Shape).Idx) (q : D.contr.Idx), D.rhsIdx j q = ix2 (j 2) ((q ⟨0, by omega⟩).cast hs))
    (prec : Option ContractPrecision)
    (X : FVec Ideal ⟨3, ![a, b, K]⟩ φ₁) (W : FVec Ideal ⟨2, ![N, K]⟩ φ₂) (o : Fin a) (p : Fin b) (n : Fin N) :
    Host.dotGeneral D prec X W (ix3 o p n) = ∑ k : Fin K, X (ix3 o p k) * W (ix2 n k) := by
  show FloatOps.dotGeneral D prec .single X W (ix3 o p n) = _
  rw [Ideal.dotGeneral_apply]
  exact (Finset.sum_congr rfl fun q _ => by rw [hL, hR]; rfl).trans
    (Equiv.sum_comp (contrEquiv1 D K hr hs) fun k => X (ix3 o p k) * W (ix2 n k))

/-- A vector [N] broadcast to [1, 1, N] and then over the two leading axes to [a, b, N] reads at (o, p, n) the vector at n. -/
theorem bias3_apply {α : Type} {a b N : ℕ} (v : (⟨1, ![N]⟩ : Shape).Idx → α)
    (h1 : (⟨1, ![N]⟩ : Shape).BroadcastsInDim ⟨3, ![1, 1, N]⟩ (![2] : Fin 1 → Fin 3))
    (h2 : (⟨3, ![1, 1, N]⟩ : Shape).BroadcastsInDim ⟨3, ![a, b, N]⟩ (![0, 1, 2] : Fin 3 → Fin 3))
    (o : Fin a) (p : Fin b) (n : Fin N) :
    broadcastInDim ⟨3, ![a, b, N]⟩ ![0, 1, 2] h2 (broadcastInDim ⟨3, ![1, 1, N]⟩ ![2] h1 v) (ix3 o p n) = v (ix1 n) := by
  have hq : n.val = if N = 1 then 0 else n.val := by
    by_cases hn : N = 1
    · rw [if_pos hn]; have := n.isLt; omega
    · rw [if_neg hn]
  refine (broadcastInDim_apply _ h2 _ (ix3 o p n) (ix3 (0 : Fin 1) (0 : Fin 1) n) (fun c => ?_)).trans
    (broadcastInDim_apply _ h1 v (ix3 (0 : Fin 1) (0 : Fin 1) n) (ix1 n) (fun c => ?_))
  · match c with
    | ⟨0, _⟩ => show 0 = if (1 : ℕ) = 1 then 0 else o.val; rw [if_pos rfl]
    | ⟨1, _⟩ => show 0 = if (1 : ℕ) = 1 then 0 else p.val; rw [if_pos rfl]
    | ⟨2, _⟩ => exact hq
  · match c with
    | ⟨0, _⟩ => exact hq

/-- A splat of a float word reads, anywhere, the extended real the word encodes. -/
theorem splat_apply {t : Shape} (w : BitVec FTy.f32.bits)
    (h : (⟨0, ![]⟩ : Shape).BroadcastsInDim t (![] : Fin 0 → Fin t.rank)) (j : t.Idx) :
    broadcastInDim t ![] h (constant (F := Ideal) ⟨0, ![]⟩ .f32 w) j = Ideal.ofBits .f32 w :=
  LibConcat4.broadcastInDim_scalar_apply _ h j

/-- An affine layer `X · Wᵀ + bias` read at (o, p, n) is the dense layer of row (o, p). -/
theorem layer3_apply {a b K N : ℕ} (D : DotDims ⟨3, ![a, b, K]⟩ ⟨2, ![N, K]⟩ ⟨3, ![a, b, N]⟩)
    (hr : D.contr.rank = 1) (hs : D.contr.size ⟨0, by omega⟩ = K)
    (hL : ∀ (j : (⟨3, ![a, b, N]⟩ : Shape).Idx) (q : D.contr.Idx), D.lhsIdx j q = ix3 (j 0) (j 1) ((q ⟨0, by omega⟩).cast hs))
    (hR : ∀ (j : (⟨3, ![a, b, N]⟩ : Shape).Idx) (q : D.contr.Idx), D.rhsIdx j q = ix2 (j 2) ((q ⟨0, by omega⟩).cast hs))
    (X : FVec Ideal ⟨3, ![a, b, K]⟩ .f32) (W : Mat N K) (bv : Vect N)
    (h1 : (⟨1, ![N]⟩ : Shape).BroadcastsInDim ⟨3, ![1, 1, N]⟩ (![2] : Fin 1 → Fin 3))
    (h2 : (⟨3, ![1, 1, N]⟩ : Shape).BroadcastsInDim ⟨3, ![a, b, N]⟩ (![0, 1, 2] : Fin 3 → Fin 3))
    (v : Fin K → EReal) (o : Fin a) (p : Fin b) (hX : ∀ k, X (ix3 o p k) = v k) (n : Fin N) :
    addf (Host.dotGeneral (φ₁ := .f32) (φ₂ := .f32) D none X W : FVec Ideal ⟨3, ![a, b, N]⟩ .f32)
        (broadcastInDim ⟨3, ![a, b, N]⟩ ![0, 1, 2] h2 (broadcastInDim ⟨3, ![1, 1, N]⟩ ![2] h1 bv)) (ix3 o p n)
      = dense v W bv n := by
  show Host.dotGeneral (φ₁ := .f32) (φ₂ := .f32) D none X W (ix3 o p n)
      + broadcastInDim ⟨3, ![a, b, N]⟩ ![0, 1, 2] h2 (broadcastInDim ⟨3, ![1, 1, N]⟩ ![2] h1 bv) (ix3 o p n) = _
  rw [dot3_apply D hr hs hL hR, bias3_apply]
  unfold dense
  refine congrArg (· + bv (ix1 n)) (Finset.sum_congr rfl fun k _ => ?_)
  rw [hX k]

/-- The same layer under the maximum with the zero splat. -/
theorem rlayer3_apply {a b K N : ℕ} (D : DotDims ⟨3, ![a, b, K]⟩ ⟨2, ![N, K]⟩ ⟨3, ![a, b, N]⟩)
    (hr : D.contr.rank = 1) (hs : D.contr.size ⟨0, by omega⟩ = K)
    (hL : ∀ (j : (⟨3, ![a, b, N]⟩ : Shape).Idx) (q : D.contr.Idx), D.lhsIdx j q = ix3 (j 0) (j 1) ((q ⟨0, by omega⟩).cast hs))
    (hR : ∀ (j : (⟨3, ![a, b, N]⟩ : Shape).Idx) (q : D.contr.Idx), D.rhsIdx j q = ix2 (j 2) ((q ⟨0, by omega⟩).cast hs))
    (X : FVec Ideal ⟨3, ![a, b, K]⟩ .f32) (W : Mat N K) (bv : Vect N)
    (h1 : (⟨1, ![N]⟩ : Shape).BroadcastsInDim ⟨3, ![1, 1, N]⟩ (![2] : Fin 1 → Fin 3))
    (h2 : (⟨3, ![1, 1, N]⟩ : Shape).BroadcastsInDim ⟨3, ![a, b, N]⟩ (![0, 1, 2] : Fin 3 → Fin 3))
    (h0 : (⟨0, ![]⟩ : Shape).BroadcastsInDim ⟨3, ![a, b, N]⟩ (![] : Fin 0 → Fin 3))
    (v : Fin K → EReal) (o : Fin a) (p : Fin b) (hX : ∀ k, X (ix3 o p k) = v k) (n : Fin N) :
    maximumf (addf (Host.dotGeneral (φ₁ := .f32) (φ₂ := .f32) D none X W : FVec Ideal ⟨3, ![a, b, N]⟩ .f32)
        (broadcastInDim ⟨3, ![a, b, N]⟩ ![0, 1, 2] h2 (broadcastInDim ⟨3, ![1, 1, N]⟩ ![2] h1 bv)))
      (broadcastInDim ⟨3, ![a, b, N]⟩ ![] h0 (constant (F := Ideal) ⟨0, ![]⟩ .f32 0x00000000#32)) (ix3 o p n)
      = Spec.relu (dense v W bv n) := by
  show max (addf (Host.dotGeneral (φ₁ := .f32) (φ₂ := .f32) D none X W : FVec Ideal ⟨3, ![a, b, N]⟩ .f32)
        (broadcastInDim ⟨3, ![a, b, N]⟩ ![0, 1, 2] h2 (broadcastInDim ⟨3, ![1, 1, N]⟩ ![2] h1 bv)) (ix3 o p n))
      (broadcastInDim ⟨3, ![a, b, N]⟩ ![] h0 (constant (F := Ideal) ⟨0, ![]⟩ .f32 0x00000000#32) (ix3 o p n)) = _
  rw [layer3_apply D hr hs hL hR X W bv h1 h2 v o p hX n, splat_apply]
  rfl

/-- Four arrays of equal leading extents put side by side along the LAST axis, read at (o, p, c): the first whose
    columns reach `c`, at `c` less the columns of the arrays before it. -/
theorem concatenate4_last3_apply {α : Type} {n0 n1 n2 n3 N a b : ℕ}
    (x0 : (⟨3, ![a, b, n0]⟩ : Shape).Idx → α) (x1 : (⟨3, ![a, b, n1]⟩ : Shape).Idx → α)
    (x2 : (⟨3, ![a, b, n2]⟩ : Shape).Idx → α) (x3 : (⟨3, ![a, b, n3]⟩ : Shape).Idx → α)
    (h : Shape.Concatenates [⟨3, ![a, b, n0]⟩, ⟨3, ![a, b, n1]⟩, ⟨3, ![a, b, n2]⟩, ⟨3, ![a, b, n3]⟩] ⟨3, ![a, b, N]⟩ 2)
    (hN : n0 + n1 + n2 + n3 = N) (o : Fin a) (p : Fin b) (c : Fin N) :
    concatenate ⟨3, ![a, b, N]⟩ 2
        [⟨⟨3, ![a, b, n0]⟩, x0⟩, ⟨⟨3, ![a, b, n1]⟩, x1⟩, ⟨⟨3, ![a, b, n2]⟩, x2⟩, ⟨⟨3, ![a, b, n3]⟩, x3⟩] h (ix3 o p c)
      = if h0 : c.val < n0 then x0 (ix3 o p ⟨c.val, h0⟩)
        else if h1 : c.val < n0 + n1 then x1 (ix3 o p ⟨c.val - n0, by omega⟩)
        else if h2 : c.val < n0 + n1 + n2 then x2 (ix3 o p ⟨c.val - (n0 + n1), by omega⟩)
        else x3 (ix3 o p ⟨c.val - (n0 + n1 + n2), by have := c.isLt; omega⟩) := by
  have hoff : ∀ (s : ℕ) (q : Fin s), ∀ d : Fin 3, Fin.cast (rfl : 3 = 3) d ≠ (2 : Fin 3) →
      ((ix3 o p q : (⟨3, ![a, b, s]⟩ : Shape).Idx) d).val = ((ix3 o p c : (⟨3, ![a, b, N]⟩ : Shape).Idx) (Fin.cast rfl d)).val :=
    fun s q d hd => by
      match d with
      | ⟨0, _⟩ => rfl
      | ⟨1, _⟩ => rfl
      | ⟨2, _⟩ => exact absurd rfl hd
  have key := concatenate_apply_piece (t := ⟨3, ![a, b, N]⟩) (2 : Fin 3)
    [⟨⟨3, ![a, b, n0]⟩, x0⟩, ⟨⟨3, ![a, b, n1]⟩, x1⟩, ⟨⟨3, ![a, b, n2]⟩, x2⟩, ⟨⟨3, ![a, b, n3]⟩, x3⟩] h (ix3 o p c)
  by_cases h0 : c.val < n0
  · rw [dif_pos h0]
    exact key 0 (by show (0 : ℕ) < 4; omega) ⟨3, ![a, b, n0]⟩ x0 rfl rfl 0 rfl
      (ix3 o p ⟨c.val, h0⟩) (hoff n0 _) (by show 0 + c.val = c.val; omega)
  rw [dif_neg h0]
  by_cases h1 : c.val < n0 + n1
  · rw [dif_pos h1]
    exact key 1 (by show (1 : ℕ) < 4; omega) ⟨3, ![a, b, n1]⟩ x1 rfl rfl n0
      (by show n0 + 0 = n0; omega) (ix3 o p ⟨c.val - n0, by omega⟩) (hoff n1 _)
      (by show n0 + (c.val - n0) = c.val; omega)
  rw [dif_neg h1]
  by_cases h2 : c.val < n0 + n1 + n2
  · rw [dif_pos h2]
    exact key 2 (by show (2 : ℕ) < 4; omega) ⟨3, ![a, b, n2]⟩ x2 rfl rfl (n0 + n1)
      (by show n0 + (n1 + 0) = n0 + n1; omega) (ix3 o p ⟨c.val - (n0 + n1), by omega⟩) (hoff n2 _)
      (by show n0 + n1 + (c.val - (n0 + n1)) = c.val; omega)
  rw [dif_neg h2]
  exact key 3 (by show (3 : ℕ) < 4; omega) ⟨3, ![a, b, n3]⟩ x3 rfl rfl (n0 + n1 + n2)
    (by show n0 + (n1 + (n2 + 0)) = n0 + n1 + n2; omega)
    (ix3 o p ⟨c.val - (n0 + n1 + n2), by have := c.isLt; omega⟩) (hoff n3 _)
    (by show n0 + n1 + n2 + (c.val - (n0 + n1 + n2)) = c.val; omega)

/-! ## The stage functions at a row -/

section Stages

variable {o : Fin 5} {p : Fin 32768}

/-- The first encoder layer at a row. -/
theorem lay44_apply (X : Ten 5 32768 44) (W : Mat 512 44) (bv : Vect 512) (x : Fin 44 → EReal)
    (hX : ∀ k, X (ix3 o p k) = x k) (h : Fin 512) :
    RefRun.lay44 (F := Ideal) X W bv (ix3 o p h) = Spec.relu (dense x W bv h) := by
  unfold RefRun.lay44 RefRun.relu RefRun.bias512
  exact rlayer3_apply dot_S5x32768x44_S512x44_S5x32768x512_2_1_01_0_n_n rfl rfl (fun j q => funext fun a => match a with | ⟨0, _⟩ => rfl | ⟨1, _⟩ => rfl | ⟨2, _⟩ => rfl) (fun j q => funext fun a => match a with | ⟨0, _⟩ => rfl | ⟨1, _⟩ => rfl)
    X W bv _ _ _ x o p hX h

/-- A 512-to-512 layer at a row. -/
theorem lay512_apply (X : Ten 5 32768 512) (W : Mat 512 512) (bv : Vect 512) (x : Fin 512 → EReal)
    (hX : ∀ k, X (ix3 o p k) = x k) (h : Fin 512) :
    RefRun.lay512 (F := Ideal) X W bv (ix3 o p h) = Spec.relu (dense x W bv h) := by
  unfold RefRun.lay512 RefRun.relu RefRun.bias512
  exact rlayer3_apply dot_S5x32768x512_S512x512_S5x32768x512_2_1_01_0_n_n rfl rfl (fun j q => funext fun a => match a with | ⟨0, _⟩ => rfl | ⟨1, _⟩ => rfl | ⟨2, _⟩ => rfl) (fun j q => funext fun a => match a with | ⟨0, _⟩ => rfl | ⟨1, _⟩ => rfl)
    X W bv _ _ _ x o p hX h

/-- The first decoder layer at a row. -/
theorem lay41_apply (X : Ten 5 32768 41) (W : Mat 512 41) (bv : Vect 512) (x : Fin 41 → EReal)
    (hX : ∀ k, X (ix3 o p k) = x k) (h : Fin 512) :
    RefRun.lay41 (F := Ideal) X W bv (ix3 o p h) = Spec.relu (dense x W bv h) := by
  unfold RefRun.lay41 RefRun.relu RefRun.bias512
  exact rlayer3_apply dot_S5x32768x41_S512x41_S5x32768x512_2_1_01_0_n_n rfl rfl (fun j q => funext fun a => match a with | ⟨0, _⟩ => rfl | ⟨1, _⟩ => rfl | ⟨2, _⟩ => rfl) (fun j q => funext fun a => match a with | ⟨0, _⟩ => rfl | ⟨1, _⟩ => rfl)
    X W bv _ _ _ x o p hX h

/-- A 512-to-9 head at a row. -/
theorem head9_apply (X : Ten 5 32768 512) (W : Mat 9 512) (bv : Vect 9) (x : Fin 512 → EReal)
    (hX : ∀ k, X (ix3 o p k) = x k) (l : Fin 9) :
    RefRun.head9 (F := Ideal) X W bv (ix3 o p l) = dense x W bv l := by
  unfold RefRun.head9 RefRun.bias9
  exact layer3_apply dot_S5x32768x512_S9x512_S5x32768x9_2_1_01_0_n_n rfl rfl (fun j q => funext fun a => match a with | ⟨0, _⟩ => rfl | ⟨1, _⟩ => rfl | ⟨2, _⟩ => rfl) (fun j q => funext fun a => match a with | ⟨0, _⟩ => rfl | ⟨1, _⟩ => rfl)
    X W bv _ _ x o p hX l

/-- The 512-to-12 head at a row. -/
theorem head12_apply (X : Ten 5 32768 512) (W : Mat 12 512) (bv : Vect 12) (x : Fin 512 → EReal)
    (hX : ∀ k, X (ix3 o p k) = x k) (l : Fin 12) :
    RefRun.head12 (F := Ideal) X W bv (ix3 o p l) = dense x W bv l := by
  unfold RefRun.head12 RefRun.bias12
  exact layer3_apply dot_S5x32768x512_S12x512_S5x32768x12_2_1_01_0_n_n rfl rfl (fun j q => funext fun a => match a with | ⟨0, _⟩ => rfl | ⟨1, _⟩ => rfl | ⟨2, _⟩ => rfl) (fun j q => funext fun a => match a with | ⟨0, _⟩ => rfl | ⟨1, _⟩ => rfl)
    X W bv _ _ x o p hX l

/-- The latent at an index. -/
theorem latent_apply (E LV MU : Ten 5 32768 9) (j : (⟨3, ![5, 32768, 9]⟩ : Shape).Idx) :
    RefRun.latent (F := Ideal) E LV MU j = E j * Ideal.exp (halfLit * LV j) + MU j := by
  unfold RefRun.latent
  show E j * Ideal.exp (broadcastInDim S5x32768x9 ![] bcast_S_S5x32768x9 (constant (F := Ideal) S_ .f32 0x3F000000#32) j * LV j) + MU j = _
  rw [splat_apply]
  rfl

/-- The logistic stage at an index. -/
theorem sigm_apply (x : Ten 5 32768 12) (j : (⟨3, ![5, 32768, 12]⟩ : Shape).Idx) :
    RefRun.sigm (F := Ideal) x j = Ideal.logistic (x j) := by
  unfold RefRun.sigm RefRun.one12 Ideal.logistic
  show Ideal.div (broadcastInDim S5x32768x12 ![] bcast_S_S5x32768x12 (constant (F := Ideal) S_ .f32 0x3F800000#32) j)
      (broadcastInDim S5x32768x12 ![] bcast_S_S5x32768x12 (constant (F := Ideal) S_ .f32 0x3F800000#32) j + Ideal.exp (-(x j))) = _
  rw [splat_apply, show Ideal.ofBits .f32 0x3F800000#32 = 1 from IdealRules.sign_bit.ideal_onePat .f32]

/-- The width-44 concatenation at (o, p, c). -/
theorem cat44_apply (u0 : Ten 5 32768 5) (u1 : Ten 5 32768 15) (u2 u3 : Ten 5 32768 12) (c : Fin 44) :
    RefRun.cat44 (F := Ideal) u0 u1 u2 u3 (ix3 o p c)
      = if h0 : c.val < 5 then u0 (ix3 o p ⟨c.val, h0⟩)
        else if h1 : c.val < 5 + 15 then u1 (ix3 o p ⟨c.val - 5, by omega⟩)
        else if h2 : c.val < 5 + 15 + 12 then u2 (ix3 o p ⟨c.val - (5 + 15), by omega⟩)
        else u3 (ix3 o p ⟨c.val - (5 + 15 + 12), by have := c.isLt; omega⟩) := by
  unfold RefRun.cat44
  exact concatenate4_last3_apply (n0 := 5) (n1 := 15) (n2 := 12) (n3 := 12) (N := 44) (a := 5) (b := 32768) u0 u1 u2 u3 _ rfl o p c

/-- The width-41 concatenation at (o, p, c). -/
theorem cat41_apply (u0 : Ten 5 32768 5) (u1 : Ten 5 32768 9) (u2 : Ten 5 32768 15) (u3 : Ten 5 32768 12) (c : Fin 41) :
    RefRun.cat41 (F := Ideal) u0 u1 u2 u3 (ix3 o p c)
      = if h0 : c.val < 5 then u0 (ix3 o p ⟨c.val, h0⟩)
        else if h1 : c.val < 5 + 9 then u1 (ix3 o p ⟨c.val - 5, by omega⟩)
        else if h2 : c.val < 5 + 9 + 15 then u2 (ix3 o p ⟨c.val - (5 + 9), by omega⟩)
        else u3 (ix3 o p ⟨c.val - (5 + 9 + 15), by have := c.isLt; omega⟩) := by
  unfold RefRun.cat41
  exact concatenate4_last3_apply (n0 := 5) (n1 := 9) (n2 := 15) (n3 := 12) (N := 41) (a := 5) (b := 32768) u0 u1 u2 u3 _ rfl o p c

/-- The decoder's input row: the first five columns of the encoder's input row, the latent row, then columns
    5 … 31 of the encoder's input row — whatever the four pieces are. -/
theorem dcat_apply (e5 : Ten 5 32768 5) (z : Ten 5 32768 9) (cnd : Ten 5 32768 15) (g g2 : Ten 5 32768 12) (i : Fin 41) :
    RefRun.cat41 (F := Ideal) e5 z cnd g (ix3 o p i)
      = dcat (fun k => RefRun.cat44 (F := Ideal) e5 cnd g g2 (ix3 o p k)) (fun l => z (ix3 o p l)) i := by
  rw [cat41_apply]
  unfold dcat
  by_cases h0 : i.val < 5
  · rw [dif_pos h0, dif_pos h0]
    show _ = RefRun.cat44 (F := Ideal) e5 cnd g g2 (ix3 o p ⟨i.val, by omega⟩)
    rw [cat44_apply, dif_pos (show ((⟨i.val, by omega⟩ : Fin 44) : ℕ) < 5 from h0)]
  rw [dif_neg h0, dif_neg h0]
  by_cases h1 : i.val < 5 + 9
  · rw [dif_pos h1, dif_pos (show i.val < 14 by omega)]
  rw [dif_neg h1, dif_neg (show ¬ i.val < 14 by omega)]
  show _ = RefRun.cat44 (F := Ideal) e5 cnd g g2 (ix3 o p ⟨i.val - 9, by have := i.isLt; omega⟩)
  rw [cat44_apply, dif_neg (show ¬ ((⟨i.val - 9, by have := i.isLt; omega⟩ : Fin 44) : ℕ) < 5 by show ¬ i.val - 9 < 5; omega)]
  by_cases h2 : i.val < 5 + 9 + 15
  · rw [dif_pos h2, dif_pos (show ((⟨i.val - 9, by have := i.isLt; omega⟩ : Fin 44) : ℕ) < 5 + 15 by show i.val - 9 < 5 + 15; omega)]
    exact ix3_congr cnd o p _ _ (by show i.val - (5 + 9) = i.val - 9 - 5; omega)
  · rw [dif_neg h2, dif_neg (show ¬ ((⟨i.val - 9, by have := i.isLt; omega⟩ : Fin 44) : ℕ) < 5 + 15 by show ¬ i.val - 9 < 5 + 15; omega),
      dif_pos (show ((⟨i.val - 9, by have := i.isLt; omega⟩ : Fin 44) : ℕ) < 5 + 15 + 12 by show i.val - 9 < 5 + 15 + 12; have := i.isLt; omega)]
    exact ix3_congr g o p _ _ (by show i.val - (5 + 9 + 15) = i.val - 9 - (5 + 15); omega)

end Stages

/-! ## The network at a row -/

section Network

variable (A4 : Mat 512 44) (A5 : Vect 512) (A6 : Mat 512 512) (A7 : Vect 512) (A8 : Mat 9 512) (A9 : Vect 9)
  (A10 : Mat 9 512) (A11 : Vect 9) (A12 : Mat 512 41) (A13 : Vect 512) (A14 : Mat 512 512) (A15 : Vect 512)
  (A16 : Mat 12 512) (A17 : Vect 12)

/-- The fourteen weight and bias arguments, in argument order, as the network's parameters. -/
def params : Params := ⟨A4, A5, A6, A7, A8, A9, A10, A11, A12, A13, A14, A15, A16, A17⟩

variable (X : Ten 5 32768 44) (E : Ten 5 32768 9) (o : Fin 5) (p : Fin 32768)

/-- The encoder's first hidden layer at row (o, p). -/
theorem h1_apply (h : Fin 512) :
    RefRun.lay44 (F := Ideal) X A4 A5 (ix3 o p h) = h1 (params A4 A5 A6 A7 A8 A9 A10 A11 A12 A13 A14 A15 A16 A17) (fun k => X (ix3 o p k)) h :=
  lay44_apply X A4 A5 _ (fun _ => rfl) h

/-- The encoder's second hidden layer at row (o, p). -/
theorem h2_apply (h : Fin 512) :
    (RefRun.lay512 (F := Ideal) (RefRun.lay44 (F := Ideal) X A4 A5) A6 A7) (ix3 o p h) = h2 (params A4 A5 A6 A7 A8 A9 A10 A11 A12 A13 A14 A15 A16 A17) (fun k => X (ix3 o p k)) h :=
  lay512_apply _ A6 A7 _ (fun k => h1_apply A4 A5 A6 A7 A8 A9 A10 A11 A12 A13 A14 A15 A16 A17 X o p k) h

/-- The means at row (o, p). -/
theorem means_apply (l : Fin 9) :
    (RefRun.head9 (F := Ideal) (RefRun.lay512 (F := Ideal) (RefRun.lay44 (F := Ideal) X A4 A5) A6 A7) A8 A9) (ix3 o p l) = means (params A4 A5 A6 A7 A8 A9 A10 A11 A12 A13 A14 A15 A16 A17) (fun k => X (ix3 o p k)) l :=
  head9_apply _ A8 A9 _ (fun k => h2_apply A4 A5 A6 A7 A8 A9 A10 A11 A12 A13 A14 A15 A16 A17 X o p k) l

/-- The log-variances at row (o, p). -/
theorem logvar_apply (l : Fin 9) :
    (RefRun.head9 (F := Ideal) (RefRun.lay512 (F := Ideal) (RefRun.lay44 (F := Ideal) X A4 A5) A6 A7) A10 A11) (ix3 o p l) = logvar (params A4 A5 A6 A7 A8 A9 A10 A11 A12 A13 A14 A15 A16 A17) (fun k => X (ix3 o p k)) l :=
  head9_apply _ A10 A11 _ (fun k => h2_apply A4 A5 A6 A7 A8 A9 A10 A11 A12 A13 A14 A15 A16 A17 X o p k) l

/-- The latent at row (o, p). -/
theorem latent_row_apply (l : Fin 9) :
    (RefRun.latent (F := Ideal) E (RefRun.head9 (F := Ideal) (RefRun.lay512 (F := Ideal) (RefRun.lay44 (F := Ideal) X A4 A5) A6 A7) A10 A11) (RefRun.head9 (F := Ideal) (RefRun.lay512 (F := Ideal) (RefRun.lay44 (F := Ideal) X A4 A5) A6 A7) A8 A9)) (ix3 o p l) = Spec.latent (params A4 A5 A6 A7 A8 A9 A10 A11 A12 A13 A14 A15 A16 A17) (fun k => X (ix3 o p k)) (fun l => E (ix3 o p l)) l := by
  rw [latent_apply, logvar_apply A4 A5 A6 A7 A8 A9 A10 A11 A12 A13 A14 A15 A16 A17 X o p l, means_apply A4 A5 A6 A7 A8 A9 A10 A11 A12 A13 A14 A15 A16 A17 X o p l]
  rfl

/-- The decoder's output under the logistic function at row (o, p), the encoder's input being the concatenation of
    the identity rows, the conditioning and the two gathered arrays. -/
theorem recon_apply (a0 : Mat 32768 30) (a1 : Mat 32768 15) (a2 : Mat 32768 30) (l : Fin 12) :
    RefRun.sigm (F := Ideal) (RefRun.head12 (F := Ideal) (RefRun.lay512 (F := Ideal) (RefRun.lay41 (F := Ideal)
        (RefRun.y3 (F := Ideal) (RefRun.latent (F := Ideal) E (RefRun.head9 (F := Ideal) (RefRun.lay512 (F := Ideal) (RefRun.lay44 (F := Ideal) (RefRun.x3 (F := Ideal) a0 a1 a2) A4 A5) A6 A7) A10 A11) (RefRun.head9 (F := Ideal) (RefRun.lay512 (F := Ideal) (RefRun.lay44 (F := Ideal) (RefRun.x3 (F := Ideal) a0 a1 a2) A4 A5) A6 A7) A8 A9)) a0 a1) A12 A13) A14 A15) A16 A17) (ix3 o p l)
      = recon (params A4 A5 A6 A7 A8 A9 A10 A11 A12 A13 A14 A15 A16 A17) (fun k => (RefRun.x3 (F := Ideal) a0 a1 a2) (ix3 o p k)) (fun l => E (ix3 o p l)) l := by
  have hz : (fun l => (RefRun.latent (F := Ideal) E (RefRun.head9 (F := Ideal) (RefRun.lay512 (F := Ideal) (RefRun.lay44 (F := Ideal) (RefRun.x3 (F := Ideal) a0 a1 a2) A4 A5) A6 A7) A10 A11) (RefRun.head9 (F := Ideal) (RefRun.lay512 (F := Ideal) (RefRun.lay44 (F := Ideal) (RefRun.x3 (F := Ideal) a0 a1 a2) A4 A5) A6 A7) A8 A9)) (ix3 o p l))
      = Spec.latent (params A4 A5 A6 A7 A8 A9 A10 A11 A12 A13 A14 A15 A16 A17) (fun k => (RefRun.x3 (F := Ideal) a0 a1 a2) (ix3 o p k)) (fun l => E (ix3 o p l)) :=
    funext fun l => latent_row_apply A4 A5 A6 A7 A8 A9 A10 A11 A12 A13 A14 A15 A16 A17 (RefRun.x3 (F := Ideal) a0 a1 a2) E o p l
  rw [sigm_apply]
  unfold recon
  refine congrArg Ideal.logistic ?_
  exact head12_apply _ A16 A17 _ (fun k => lay512_apply _ A14 A15 _ (fun k' => lay41_apply _ A12 A13 _ (fun i =>
    (dcat_apply (RefRun.eye5 (F := Ideal)) (RefRun.latent (F := Ideal) E (RefRun.head9 (F := Ideal) (RefRun.lay512 (F := Ideal) (RefRun.lay44 (F := Ideal) (RefRun.x3 (F := Ideal) a0 a1 a2) A4 A5) A6 A7) A10 A11) (RefRun.head9 (F := Ideal) (RefRun.lay512 (F := Ideal) (RefRun.lay44 (F := Ideal) (RefRun.x3 (F := Ideal) a0 a1 a2) A4 A5) A6 A7) A8 A9)) (RefRun.bcond (F := Ideal) a1) (RefRun.gath (F := Ideal) a0) (RefRun.gath (F := Ideal) a2) i).trans
      (congrArg (fun zz => dcat (fun k => (RefRun.x3 (F := Ideal) a0 a1 a2) (ix3 o p k)) zz i) hz)) k') k) l

end Network

/-! ## The results over the launch contents, at a row -/

section AtLaunch

variable (m : (ℓ : Loc nD τ sig) → Buf (Elt Ideal) ℓ) (c : Dev nD) (o : Fin 5) (p : Fin 32768)

/-- The network's parameters on device `c`: the launch contents of arguments 4 … 17. -/
def rparams : Params :=
  params (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

/-- The means (`main_v40`) at row (o, p). -/
theorem r_mean_apply (l : Fin 9) :
    RefRun.r_mean (F := Ideal) m c (ix3 o p l) = means (rparams m c) (fun k => RefRun.r_x3 (F := Ideal) m c (ix3 o p k)) l :=
  means_apply _ _ _ _ _ _ _ _ _ _ _ _ _ _ (RefRun.r_x3 (F := Ideal) m c) o p l

/-- The log-variances (`main_v44`) at row (o, p). -/
theorem r_logvar_apply (l : Fin 9) :
    RefRun.r_logvar (F := Ideal) m c (ix3 o p l) = logvar (rparams m c) (fun k => RefRun.r_x3 (F := Ideal) m c (ix3 o p k)) l :=
  logvar_apply _ _ _ _ _ _ _ _ _ _ _ _ _ _ (RefRun.r_x3 (F := Ideal) m c) o p l

/-- The latent (`main_v49`) at row (o, p), the noise row being argument 3's. -/
theorem r_latent_apply (l : Fin 9) :
    RefRun.r_latent (F := Ideal) m c (ix3 o p l)
      = Spec.latent (rparams m c) (fun k => RefRun.r_x3 (F := Ideal) m c (ix3 o p k)) (fun l => (m ((c.tc : Thread nD τ).loc main_arg3)) (ix3 o p l)) l :=
  latent_row_apply _ _ _ _ _ _ _ _ _ _ _ _ _ _ (RefRun.r_x3 (F := Ideal) m c) (m ((c.tc : Thread nD τ).loc main_arg3)) o p l

/-- The decoder's output under the logistic function (`main_v70`) at row (o, p). -/
theorem r_sig_apply (l : Fin 12) :
    RefRun.r_sig (F := Ideal) m c (ix3 o p l)
      = recon (rparams m c) (fun k => RefRun.r_x3 (F := Ideal) m c (ix3 o p k)) (fun l => (m ((c.tc : Thread nD τ).loc main_arg3)) (ix3 o p l)) l :=
  recon_apply _ _ _ _ _ _ _ _ _ _ _ _ _ _ (m ((c.tc : Thread nD τ).loc main_arg3)) o p (m ((c.tc : Thread nD τ).loc main_arg0)) (m ((c.tc : Thread nD τ).loc main_arg1)) (m ((c.tc : Thread nD τ).loc main_arg2)) l

end AtLaunch

end Cert.ReferenceIdeal.RefSpec

end
-- ==== Proof.RefClosed.lean ====
/-
  The reference program's run in closed form: every weakly fair execution of @main terminates with the means, the
  log-variances and the latent buffers holding the row network applied to every row of the encoder's input (the
  concatenation of the identity rows, the conditioning and the two gathered arrays) and of the noise argument, the
  scatter-add buffer holding the scatter-add of the network's decoder output of every row, and the eighteen argument
  buffers unchanged.
-/
import proofs.«173347_j68530498175289_1_alg».proof.Proof.RefSpec
import proofs.«173347_j68530498175289_1_alg».proof.Proof.Closed
import proofs.«173347_j68530498175289_1_alg».proof.Defs

noncomputable section

namespace Cert.ReferenceIdeal.RefSpec

open Idealize.ShloMosaic Idealize.ShloMosaic.ValueIdx Idealize.ShloMosaic.TcCoe Idealize.SL.Sem Cert.ReferenceIdeal Cert.ReferenceIdeal.Gen Cert.Spec

section Whole

variable (m : (ℓ : Loc nD τ sig) → Buf (Elt Ideal) ℓ) (c : Dev nD)

/-- The means array is the network's means of every row. -/
theorem r_mean_eq : RefRun.r_mean (F := Ideal) m c = allMeans (rparams m c) (RefRun.x3 (F := Ideal) (m ((c.tc : Thread nD τ).loc main_arg0)) (m ((c.tc : Thread nD τ).loc main_arg1)) (m ((c.tc : Thread nD τ).loc main_arg2))) :=
  funext fun j => by
    obtain ⟨o, p, l, rfl⟩ : ∃ o p l, j = ix3 o p l := ⟨j 0, j 1, j 2, eq_ix3 j⟩
    exact r_mean_apply m c o p l

/-- The log-variance array is the network's log-variances of every row. -/
theorem r_logvar_eq : RefRun.r_logvar (F := Ideal) m c = allLogvar (rparams m c) (RefRun.x3 (F := Ideal) (m ((c.tc : Thread nD τ).loc main_arg0)) (m ((c.tc : Thread nD τ).loc main_arg1)) (m ((c.tc : Thread nD τ).loc main_arg2))) :=
  funext fun j => by
    obtain ⟨o, p, l, rfl⟩ : ∃ o p l, j = ix3 o p l := ⟨j 0, j 1, j 2, eq_ix3 j⟩
    exact r_logvar_apply m c o p l

/-- The latent array is the network's latent of every row, the noise rows argument 3's. -/
theorem r_latent_eq : RefRun.r_latent (F := Ideal) m c = allLatent (rparams m c) (RefRun.x3 (F := Ideal) (m ((c.tc : Thread nD τ).loc main_arg0)) (m ((c.tc : Thread nD τ).loc main_arg1)) (m ((c.tc : Thread nD τ).loc main_arg2))) (m ((c.tc : Thread nD τ).loc main_arg3)) :=
  funext fun j => by
    obtain ⟨o, p, l, rfl⟩ : ∃ o p l, j = ix3 o p l := ⟨j 0, j 1, j 2, eq_ix3 j⟩
    exact r_latent_apply m c o p l

/-- The decoder's output array is the network's decoder output of every row. -/
theorem r_sig_eq : RefRun.r_sig (F := Ideal) m c = allRecon (rparams m c) (RefRun.x3 (F := Ideal) (m ((c.tc : Thread nD τ).loc main_arg0)) (m ((c.tc : Thread nD τ).loc main_arg1)) (m ((c.tc : Thread nD τ).loc main_arg2))) (m ((c.tc : Thread nD τ).loc main_arg3)) :=
  funext fun j => by
    obtain ⟨o, p, l, rfl⟩ : ∃ o p l, j = ix3 o p l := ⟨j 0, j 1, j 2, eq_ix3 j⟩
    exact r_sig_apply m c o p l

/-- The scatter-add buffer's term is the scatter-add of the network's decoder output of every row. -/
theorem r_scat_eq : RefRun.r_scat (F := Ideal) m c = RefRun.scat (F := Ideal) (allRecon (rparams m c) (RefRun.x3 (F := Ideal) (m ((c.tc : Thread nD τ).loc main_arg0)) (m ((c.tc : Thread nD τ).loc main_arg1)) (m ((c.tc : Thread nD τ).loc main_arg2))) (m ((c.tc : Thread nD τ).loc main_arg3))) :=
  congrArg (RefRun.scat (F := Ideal)) (r_sig_eq m c)

end Whole

/-- From any memory with zero counters, every weakly fair execution of the reference's @main terminates with the four
    result buffers at the network's closed forms and the eighteen arguments unchanged. -/
theorem run_closed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = RefRun.scat (F := Ideal) (allRecon (rparams m c) (RefRun.x3 (F := Ideal) (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v40) = allMeans (rparams m c) (RefRun.x3 (F := Ideal) (m ((c.tc : Thread nD τ).loc main_arg0)) (m ((c.tc : Thread nD τ).loc main_arg1)) (m ((c.tc : Thread nD τ).loc main_arg2)))
      ∧ r.2.mem ((c.tc : Thread nD τ).loc main_v44) = allLogvar (rparams m c) (RefRun.x3 (F := Ideal) (m ((c.tc : Thread nD τ).loc main_arg0)) (m ((c.tc : Thread nD τ).loc main_arg1)) (m ((c.tc : Thread nD τ).loc main_arg2)))
      ∧ r.2.mem ((c.tc : Thread nD τ).loc main_v49) = allLatent (rparams m c) (RefRun.x3 (F := Ideal) (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    ⟨(h c main_v79).trans ((RefRun.after_main_v79 m c).trans (r_scat_eq m c)),
      (h c main_v40).trans ((RefRun.after_main_v40 m c).trans (r_mean_eq m c)),
      (h c main_v44).trans ((RefRun.after_main_v44 m c).trans (r_logvar_eq m c)),
      (h c main_v49).trans ((RefRun.after_main_v49 m c).trans (r_latent_eq m c)),
      (h c main_arg0).trans (RefRun.kept_main_arg0 m c),
      (h c main_arg1).trans (RefRun.kept_main_arg1 m c),
      (h c main_arg2).trans (RefRun.kept_main_arg2 m c),
      (h c main_arg3).trans (RefRun.kept_main_arg3 m c),
      (h c main_arg4).trans (RefRun.kept_main_arg4 m c),
      (h c main_arg5).trans (RefRun.kept_main_arg5 m c),
      (h c main_arg6).trans (RefRun.kept_main_arg6 m c),
      (h c main_arg7).trans (RefRun.kept_main_arg7 m c),
      (h c main_arg8).trans (RefRun.kept_main_arg8 m c),
      (h c main_arg9).trans (RefRun.kept_main_arg9 m c),
      (h c main_arg10).trans (RefRun.kept_main_arg10 m c),
      (h c main_arg11).trans (RefRun.kept_main_arg11 m c),
      (h c main_arg12).trans (RefRun.kept_main_arg12 m c),
      (h c main_arg13).trans (RefRun.kept_main_arg13 m c),
      (h c main_arg14).trans (RefRun.kept_main_arg14 m c),
      (h c main_arg15).trans (RefRun.kept_main_arg15 m c),
      (h c main_arg16).trans (RefRun.kept_main_arg16 m c),
      (h c main_arg17).trans (RefRun.kept_main_arg17 m c)⟩)
    (RefRun.run m ρ)

/-- The reference runs and its argument arrays end unchanged. -/
theorem frame_ri [Cert.ReferenceIdeal.Facts] [Cert.Pre_finite_inputs.Facts] : Cert.frame_ReferenceIdeal :=
  fun m ρ _ => (θ_run (Cert.ReferenceIdeal.defs (F := Ideal)) _ _).mono (fun _ h c =>
    ⟨(h c main_arg0).trans (RefRun.kept_main_arg0 m c),
      (h c main_arg1).trans (RefRun.kept_main_arg1 m c),
      (h c main_arg2).trans (RefRun.kept_main_arg2 m c),
      (h c main_arg3).trans (RefRun.kept_main_arg3 m c),
      (h c main_arg4).trans (RefRun.kept_main_arg4 m c),
      (h c main_arg5).trans (RefRun.kept_main_arg5 m c),
      (h c main_arg6).trans (RefRun.kept_main_arg6 m c),
      (h c main_arg7).trans (RefRun.kept_main_arg7 m c),
      (h c main_arg8).trans (RefRun.kept_main_arg8 m c),
      (h c main_arg9).trans (RefRun.kept_main_arg9 m c),
      (h c main_arg10).trans (RefRun.kept_main_arg10 m c),
      (h c main_arg11).trans (RefRun.kept_main_arg11 m c),
      (h c main_arg12).trans (RefRun.kept_main_arg12 m c),
      (h c main_arg13).trans (RefRun.kept_main_arg13 m c),
      (h c main_arg14).trans (RefRun.kept_main_arg14 m c),
      (h c main_arg15).trans (RefRun.kept_main_arg15 m c),
      (h c main_arg16).trans (RefRun.kept_main_arg16 m c),
      (h c main_arg17).trans (RefRun.kept_main_arg17 m c)⟩)
    (RefRun.run m ρ)

end Cert.ReferenceIdeal.RefSpec

end
-- ==== Proof.lean ====
/-
  The certificate of the VAE kernel against its jnp reference on the extended reals.

  Both programs gather the twelve predicates of each of the five objects out of the two [32768, 30] predicate arrays,
  put a one-hot object code, the state vector and the gathered predicates side by side as rows of 44 numbers, and apply
  to every one of the 5 · 32768 rows the same network (`Cert.Spec`): two rectified dense layers, the means and
  log-variances heads, the sampled latent `eps * exp (½ · logvar) + mean`, and the decoder — two rectified dense layers
  and a dense layer under the logistic function — on the row's one-hot code, latent, state and first twelve predicates;
  the decoder's outputs are scatter-added back over the predicate columns.  The kernel's program re-lays the rows as
  [163840, 44], runs the network on blocks of 2048 rows with transposed weights (a change of float format being the
  identity here), and re-lays the results; re-laying keeps rows, a matrix product into a zero accumulator is the sum
  over the contracted axis in both programs, and the logistic function is `1 / (1 + exp (-x))` in both.  So the two
  programs end with equal results term by term, with no law of the extended reals beyond the definitions.
  The three frames: the two kernel programs run to the end, fault nowhere and leave their arguments unchanged (the
  region's body run once symbolically, the pipeline's launch theorem around it); the reference is host lines only.
-/
import proofs.«173347_j68530498175289_1_alg».proof.Defs
import proofs.«173347_j68530498175289_1_alg».proof.Proof.Gen.Kernel
import proofs.«173347_j68530498175289_1_alg».proof.Proof.Gen.Kernel.Skeleton
import proofs.«173347_j68530498175289_1_alg».proof.Proof.Gen.Kernel.Launch
import proofs.«173347_j68530498175289_1_alg».proof.Proof.Gen.Kernel.Points
import proofs.«173347_j68530498175289_1_alg».proof.Proof.Gen.KernelIdeal
import proofs.«173347_j68530498175289_1_alg».proof.Proof.Gen.KernelIdeal.Skeleton
import proofs.«173347_j68530498175289_1_alg».proof.Proof.Gen.KernelIdeal.Launch
import proofs.«173347_j68530498175289_1_alg».proof.Proof.Gen.KernelIdeal.Points
import proofs.«173347_j68530498175289_1_alg».proof.Proof.Gen.ReferenceIdeal
import proofs.«173347_j68530498175289_1_alg».proof.Proof.Gen.Pre_finite_inputs
import proofs.«173347_j68530498175289_1_alg».proof.Proof.KFrame
import proofs.«173347_j68530498175289_1_alg».proof.Proof.KIFrame
import proofs.«173347_j68530498175289_1_alg».proof.Proof.KIRun
import proofs.«173347_j68530498175289_1_alg».proof.Proof.RefClosed
import Idealize.ShloMosaic.Adequacy
import Idealize.ShloMosaic.Init

noncomputable section

namespace Cert.Proof

open Idealize.ShloMosaic Idealize.SL.Sem

/-- From memories that agree on the arguments the two idealized programs end with the same four arrays: the row
    network applied to every row of the same row array with the same parameters. -/
theorem algebraic : Cert.algebraic_KernelIdeal_ReferenceIdeal := by
  intro m ρ m' ρ' _ hagree
  refine ⟨_, _, _, _, Cert.KernelIdeal.HandValue.krun m ρ, ?_⟩
  refine (θ_run Cert.ReferenceIdeal.defs _ _).mono (fun r h c => ?_) (Cert.ReferenceIdeal.RefSpec.run_closed m' ρ')
  obtain ⟨a0, a1, a2, a3, a4, a5, a6, a7, a8, a9, a10, a11, a12, a13, a14, a15, a16, a17⟩ := hagree c
  obtain ⟨h0, h1, h2, h3, hk⟩ := h c
  have hP : Cert.ReferenceIdeal.RefSpec.rparams m' c = Cert.KernelIdeal.HandValue.kparams m c := by
    unfold Cert.ReferenceIdeal.RefSpec.rparams Cert.ReferenceIdeal.RefSpec.params Cert.KernelIdeal.HandValue.kparams
    rw [a4, a5, a6, a7, a8, a9, a10, a11, a12, a13, a14, a15, a16, a17]
  have hX : Cert.ReferenceIdeal.RefRun.x3 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.HandValue.kX3 m c := by
    rw [a0, a1, a2]
    exact (Cert.KernelIdeal.HandValue.kx3_eq _ _ _).symm
  rw [hP, hX, a3] at h0 h3
  rw [hP, hX] at h1 h2
  exact ⟨h0.trans (Cert.KernelIdeal.HandValue.kscat_eq _).symm, h1, h2, h3, hk⟩

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.RefSpec.frame_ri,
  trivial,
  algebraic⟩

end Cert.Proof

end
